-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v248) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x65536x33 : Shape := ⟨3, ![16, 65536, 33]⟩
abbrev S_ : Shape := ⟨0, ![]⟩

class Facts : Prop where
  bcast_S_S16x65536x33 : S_.BroadcastsInDim S16x65536x33 (![] : Fin 0 → Fin S16x65536x33.rank)
  reducesTo_S16x65536x33_S_d0_1_2 : S16x65536x33.ReducesTo [0, 1, 2] S_
  h_S_ : 0 < S_.numel

variable [Facts]

def fn {F : FTy → Type} [FloatOps F] (main_arg0 : FVec F S16x65536x33 .f32) : IVec S_ 1 :=
  let main_v0 : FVec F S16x65536x33 .f32 := Host.absf main_arg0
  let main_cst : FVec F S_ .f32 := constant S_ .f32 0x7F800000#32
  let main_v1 : FVec F S16x65536x33 .f32 := broadcastInDim S16x65536x33 ![] bcast_S_S16x65536x33 main_cst
  let main_v2 : IVec S16x65536x33 1 := cmpf .olt main_v0 main_v1
  let main_c : IVec S_ 1 := constantI S_ 1 1#1
  let main_v3 : IVec S_ 1 := (fun x v => Host.reduce IntOp.andi x v reducesTo_S16x65536x33_S_d0_1_2 h_S_) main_v2 main_c
  main_v3
-- ==== Kernel.lean ====
abbrev S16x65536x33 : Shape := ⟨3, ![16, 65536, 33]⟩
abbrev S33x16x65536 : Shape := ⟨3, ![33, 16, 65536]⟩
abbrev S33x1048576 : Shape := ⟨2, ![33, 1048576]⟩
abbrev S33x32768 : Shape := ⟨2, ![33, 32768]⟩
abbrev S1x32768 : Shape := ⟨2, ![1, 32768]⟩
abbrev S2x32768 : Shape := ⟨2, ![2, 32768]⟩
abbrev S3x32768 : Shape := ⟨2, ![3, 32768]⟩
abbrev S4x32768 : Shape := ⟨2, ![4, 32768]⟩
abbrev S5x32768 : Shape := ⟨2, ![5, 32768]⟩
abbrev S6x32768 : Shape := ⟨2, ![6, 32768]⟩
abbrev S7x32768 : Shape := ⟨2, ![7, 32768]⟩
abbrev S8x32768 : Shape := ⟨2, ![8, 32768]⟩
abbrev S9x32768 : Shape := ⟨2, ![9, 32768]⟩
abbrev S10x32768 : Shape := ⟨2, ![10, 32768]⟩
abbrev S11x32768 : Shape := ⟨2, ![11, 32768]⟩
abbrev S12x32768 : Shape := ⟨2, ![12, 32768]⟩
abbrev S13x32768 : Shape := ⟨2, ![13, 32768]⟩
abbrev S14x32768 : Shape := ⟨2, ![14, 32768]⟩
abbrev S15x32768 : Shape := ⟨2, ![15, 32768]⟩
abbrev S16x32768 : Shape := ⟨2, ![16, 32768]⟩
abbrev S17x32768 : Shape := ⟨2, ![17, 32768]⟩
abbrev S18x32768 : Shape := ⟨2, ![18, 32768]⟩
abbrev S19x32768 : Shape := ⟨2, ![19, 32768]⟩
abbrev S20x32768 : Shape := ⟨2, ![20, 32768]⟩
abbrev S21x32768 : Shape := ⟨2, ![21, 32768]⟩
abbrev S22x32768 : Shape := ⟨2, ![22, 32768]⟩
abbrev S23x32768 : Shape := ⟨2, ![23, 32768]⟩
abbrev S24x32768 : Shape := ⟨2, ![24, 32768]⟩
abbrev S25x32768 : Shape := ⟨2, ![25, 32768]⟩
abbrev S26x32768 : Shape := ⟨2, ![26, 32768]⟩
abbrev S27x32768 : Shape := ⟨2, ![27, 32768]⟩
abbrev S28x32768 : Shape := ⟨2, ![28, 32768]⟩
abbrev S29x32768 : Shape := ⟨2, ![29, 32768]⟩
abbrev S30x32768 : Shape := ⟨2, ![30, 32768]⟩
abbrev S31x32768 : Shape := ⟨2, ![31, 32768]⟩

abbrev nBuf : Space → Nat
  | .hbm => 6
  | .vmem => 5
  | .smem => 0
  | _ => 0

abbrev bufTy : (tb : Table) → Fin (tcTables nBuf tb) → BufTy
  | .hbm, ⟨0, _⟩ => ⟨S16x65536x33, .f32⟩
  | .hbm, ⟨1, _⟩ => ⟨S33x16x65536, .f32⟩
  | .hbm, ⟨2, _⟩ => ⟨S33x1048576, .f32⟩
  | .hbm, ⟨3, _⟩ => ⟨S33x1048576, .f32⟩
  | .hbm, ⟨4, _⟩ => ⟨S33x16x65536, .f32⟩
  | .hbm, ⟨5, _⟩ => ⟨S16x65536x33, .f32⟩
  | .local _ .vmem, ⟨0, _⟩ => ⟨S33x32768, .f32⟩
  | .local _ .vmem, ⟨1, _⟩ => ⟨S33x32768, .f32⟩
  | .local _ .vmem, ⟨2, _⟩ => ⟨S33x32768, .f32⟩
  | .local _ .vmem, ⟨3, _⟩ => ⟨S33x32768, .f32⟩
  | .local _ .vmem, ⟨4, _⟩ => ⟨S33x32768, .f32⟩
  | _, _ => ⟨S16x65536x33, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S33x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S33x32768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  transposes_S16x65536x33_S33x16x65536_2_0_1 : S16x65536x33.Transposes [2, 0, 1] S33x16x65536
  shapeCasts_S33x16x65536_S33x1048576 : S33x16x65536.ShapeCasts S33x1048576
  inb_S33x32768_S33x32768_0_0 : ∀ a, (![0, 0] : Fin 2 → Nat) a + S33x32768.size a ≤ S33x32768.size a
  h_S33x32768 : 0 < S33x32768.numel
  shapeCasts_S33x32768_S33x32768 : S33x32768.ShapeCasts S33x32768
  inb_S33x32768_S1x32768_2_0 : ∀ a, (![2, 0] : Fin 2 → Nat) a + S1x32768.size a ≤ S33x32768.size a
  h_S1x32768 : 0 < S1x32768.numel
  shapeCasts_S1x32768_S1x32768 : S1x32768.ShapeCasts S1x32768
  inb_S33x32768_S1x32768_1_0 : ∀ a, (![1, 0] : Fin 2 → Nat) a + S1x32768.size a ≤ S33x32768.size a
  inb_S33x32768_S1x32768_3_0 : ∀ a, (![3, 0] : Fin 2 → Nat) a + S1x32768.size a ≤ S33x32768.size a
  inb_S33x32768_S2x32768_1_0 : ∀ a, (![1, 0] : Fin 2 → Nat) a + S2x32768.size a ≤ S33x32768.size a
  h_S2x32768 : 0 < S2x32768.numel
  shapeCasts_S2x32768_S2x32768 : S2x32768.ShapeCasts S2x32768
  broadcasts_S1x32768_S2x32768 : S1x32768.Broadcasts S2x32768
  inb_S33x32768_S2x32768_2_0 : ∀ a, (![2, 0] : Fin 2 → Nat) a + S2x32768.size a ≤ S33x32768.size a
  inb_S33x32768_S1x32768_4_0 : ∀ a, (![4, 0] : Fin 2 → Nat) a + S1x32768.size a ≤ S33x32768.size a
  inb_S33x32768_S3x32768_1_0 : ∀ a, (![1, 0] : Fin 2 → Nat) a + S3x32768.size a ≤ S33x32768.size a
  h_S3x32768 : 0 < S3x32768.numel
  shapeCasts_S3x32768_S3x32768 : S3x32768.ShapeCasts S3x32768
  broadcasts_S1x32768_S3x32768 : S1x32768.Broadcasts S3x32768
  inb_S33x32768_S3x32768_2_0 : ∀ a, (![2, 0] : Fin 2 → Nat) a + S3x32768.size a ≤ S33x32768.size a
  inb_S33x32768_S1x32768_5_0 : ∀ a, (![5, 0] : Fin 2 → Nat) a + S1x32768.size a ≤ S33x32768.size a
  inb_S33x32768_S4x32768_1_0 : ∀ a, (![1, 0] : Fin 2 → Nat) a + S4x32768.size a ≤ S33x32768.size a
  h_S4x32768 : 0 < S4x32768.numel
  shapeCasts_S4x32768_S4x32768 : S4x32768.ShapeCasts S4x32768
  broadcasts_S1x32768_S4x32768 : S1x32768.Broadcasts S4x32768
  inb_S33x32768_S4x32768_2_0 : ∀ a, (![2, 0] : Fin 2 → Nat) a + S4x32768.size a ≤ S33x32768.size a
  inb_S33x32768_S1x32768_6_0 : ∀ a, (![6, 0] : Fin 2 → Nat) a + S1x32768.size a ≤ S33x32768.size a
  inb_S33x32768_S5x32768_1_0 : ∀ a, (![1, 0] : Fin 2 → Nat) a + S5x32768.size a ≤ S33x32768.size a
  h_S5x32768 : 0 < S5x32768.numel
  shapeCasts_S5x32768_S5x32768 : S5x32768.ShapeCasts S5x32768
  broadcasts_S1x32768_S5x32768 : S1x32768.Broadcasts S5x32768
  inb_S33x32768_S5x32768_2_0 : ∀ a, (![2, 0] : Fin 2 → Nat) a + S5x32768.size a ≤ S33x32768.size a
  inb_S33x32768_S1x32768_7_0 : ∀ a, (![7, 0] : Fin 2 → Nat) a + S1x32768.size a ≤ S33x32768.size a
  inb_S33x32768_S6x32768_1_0 : ∀ a, (![1, 0] : Fin 2 → Nat) a + S6x32768.size a ≤ S33x32768.size a
  h_S6x32768 : 0 < S6x32768.numel
  shapeCasts_S6x32768_S6x32768 : S6x32768.ShapeCasts S6x32768
  broadcasts_S1x32768_S6x32768 : S1x32768.Broadcasts S6x32768
  inb_S33x32768_S6x32768_2_0 : ∀ a, (![2, 0] : Fin 2 → Nat) a + S6x32768.size a ≤ S33x32768.size a
  inb_S33x32768_S1x32768_8_0 : ∀ a, (![8, 0] : Fin 2 → Nat) a + S1x32768.size a ≤ S33x32768.size a
  inb_S33x32768_S7x32768_1_0 : ∀ a, (![1, 0] : Fin 2 → Nat) a + S7x32768.size a ≤ S33x32768.size a
  h_S7x32768 : 0 < S7x32768.numel
  shapeCasts_S7x32768_S7x32768 : S7x32768.ShapeCasts S7x32768
  broadcasts_S1x32768_S7x32768 : S1x32768.Broadcasts S7x32768
  inb_S33x32768_S7x32768_2_0 : ∀ a, (![2, 0] : Fin 2 → Nat) a + S7x32768.size a ≤ S33x32768.size a
  inb_S33x32768_S1x32768_9_0 : ∀ a, (![9, 0] : Fin 2 → Nat) a + S1x32768.size a ≤ S33x32768.size a
  inb_S33x32768_S8x32768_1_0 : ∀ a, (![1, 0] : Fin 2 → Nat) a + S8x32768.size a ≤ S33x32768.size a
  h_S8x32768 : 0 < S8x32768.numel
  shapeCasts_S8x32768_S8x32768 : S8x32768.ShapeCasts S8x32768
  broadcasts_S1x32768_S8x32768 : S1x32768.Broadcasts S8x32768
  inb_S33x32768_S8x32768_2_0 : ∀ a, (![2, 0] : Fin 2 → Nat) a + S8x32768.size a ≤ S33x32768.size a
  inb_S33x32768_S1x32768_10_0 : ∀ a, (![10, 0] : Fin 2 → Nat) a + S1x32768.size a ≤ S33x32768.size a
  inb_S33x32768_S9x32768_1_0 : ∀ a, (![1, 0] : Fin 2 → Nat) a + S9x32768.size a ≤ S33x32768.size a
  h_S9x32768 : 0 < S9x32768.numel
  shapeCasts_S9x32768_S9x32768 : S9x32768.ShapeCasts S9x32768
  broadcasts_S1x32768_S9x32768 : S1x32768.Broadcasts S9x32768
  inb_S33x32768_S9x32768_2_0 : ∀ a, (![2, 0] : Fin 2 → Nat) a + S9x32768.size a ≤ S33x32768.size a
  inb_S33x32768_S1x32768_11_0 : ∀ a, (![11, 0] : Fin 2 → Nat) a + S1x32768.size a ≤ S33x32768.size a
  inb_S33x32768_S10x32768_1_0 : ∀ a, (![1, 0] : Fin 2 → Nat) a + S10x32768.size a ≤ S33x32768.size a
  h_S10x32768 : 0 < S10x32768.numel
  shapeCasts_S10x32768_S10x32768 : S10x32768.ShapeCasts S10x32768
  broadcasts_S1x32768_S10x32768 : S1x32768.Broadcasts S10x32768
  inb_S33x32768_S10x32768_2_0 : ∀ a, (![2, 0] : Fin 2 → Nat) a + S10x32768.size a ≤ S33x32768.size a
  inb_S33x32768_S1x32768_12_0 : ∀ a, (![12, 0] : Fin 2 → Nat) a + S1x32768.size a ≤ S33x32768.size a
  inb_S33x32768_S11x32768_1_0 : ∀ a, (![1, 0] : Fin 2 → Nat) a + S11x32768.size a ≤ S33x32768.size a
  h_S11x32768 : 0 < S11x32768.numel
  shapeCasts_S11x32768_S11x32768 : S11x32768.ShapeCasts S11x32768
  broadcasts_S1x32768_S11x32768 : S1x32768.Broadcasts S11x32768
  inb_S33x32768_S11x32768_2_0 : ∀ a, (![2, 0] : Fin 2 → Nat) a + S11x32768.size a ≤ S33x32768.size a
  inb_S33x32768_S1x32768_13_0 : ∀ a, (![13, 0] : Fin 2 → Nat) a + S1x32768.size a ≤ S33x32768.size a
  inb_S33x32768_S12x32768_1_0 : ∀ a, (![1, 0] : Fin 2 → Nat) a + S12x32768.size a ≤ S33x32768.size a
  h_S12x32768 : 0 < S12x32768.numel
  shapeCasts_S12x32768_S12x32768 : S12x32768.ShapeCasts S12x32768
  broadcasts_S1x32768_S12x32768 : S1x32768.Broadcasts S12x32768
  inb_S33x32768_S12x32768_2_0 : ∀ a, (![2, 0] : Fin 2 → Nat) a + S12x32768.size a ≤ S33x32768.size a
  inb_S33x32768_S1x32768_14_0 : ∀ a, (![14, 0] : Fin 2 → Nat) a + S1x32768.size a ≤ S33x32768.size a
  inb_S33x32768_S13x32768_1_0 : ∀ a, (![1, 0] : Fin 2 → Nat) a + S13x32768.size a ≤ S33x32768.size a
  h_S13x32768 : 0 < S13x32768.numel
  shapeCasts_S13x32768_S13x32768 : S13x32768.ShapeCasts S13x32768
  broadcasts_S1x32768_S13x32768 : S1x32768.Broadcasts S13x32768
  inb_S33x32768_S13x32768_2_0 : ∀ a, (![2, 0] : Fin 2 → Nat) a + S13x32768.size a ≤ S33x32768.size a
  inb_S33x32768_S1x32768_15_0 : ∀ a, (![15, 0] : Fin 2 → Nat) a + S1x32768.size a ≤ S33x32768.size a
  inb_S33x32768_S14x32768_1_0 : ∀ a, (![1, 0] : Fin 2 → Nat) a + S14x32768.size a ≤ S33x32768.size a
  h_S14x32768 : 0 < S14x32768.numel
  shapeCasts_S14x32768_S14x32768 : S14x32768.ShapeCasts S14x32768
  broadcasts_S1x32768_S14x32768 : S1x32768.Broadcasts S14x32768
  inb_S33x32768_S14x32768_2_0 : ∀ a, (![2, 0] : Fin 2 → Nat) a + S14x32768.size a ≤ S33x32768.size a
  inb_S33x32768_S1x32768_16_0 : ∀ a, (![16, 0] : Fin 2 → Nat) a + S1x32768.size a ≤ S33x32768.size a
  inb_S33x32768_S15x32768_1_0 : ∀ a, (![1, 0] : Fin 2 → Nat) a + S15x32768.size a ≤ S33x32768.size a
  h_S15x32768 : 0 < S15x32768.numel
  shapeCasts_S15x32768_S15x32768 : S15x32768.ShapeCasts S15x32768
  broadcasts_S1x32768_S15x32768 : S1x32768.Broadcasts S15x32768
  inb_S33x32768_S15x32768_2_0 : ∀ a, (![2, 0] : Fin 2 → Nat) a + S15x32768.size a ≤ S33x32768.size a
  inb_S33x32768_S1x32768_17_0 : ∀ a, (![17, 0] : Fin 2 → Nat) a + S1x32768.size a ≤ S33x32768.size a
  inb_S33x32768_S16x32768_1_0 : ∀ a, (![1, 0] : Fin 2 → Nat) a + S16x32768.size a ≤ S33x32768.size a
  h_S16x32768 : 0 < S16x32768.numel
  shapeCasts_S16x32768_S16x32768 : S16x32768.ShapeCasts S16x32768
  broadcasts_S1x32768_S16x32768 : S1x32768.Broadcasts S16x32768
  inb_S33x32768_S16x32768_2_0 : ∀ a, (![2, 0] : Fin 2 → Nat) a + S16x32768.size a ≤ S33x32768.size a
  inb_S33x32768_S1x32768_18_0 : ∀ a, (![18, 0] : Fin 2 → Nat) a + S1x32768.size a ≤ S33x32768.size a
  inb_S33x32768_S17x32768_1_0 : ∀ a, (![1, 0] : Fin 2 → Nat) a + S17x32768.size a ≤ S33x32768.size a
  h_S17x32768 : 0 < S17x32768.numel
  shapeCasts_S17x32768_S17x32768 : S17x32768.ShapeCasts S17x32768
  broadcasts_S1x32768_S17x32768 : S1x32768.Broadcasts S17x32768
  inb_S33x32768_S17x32768_2_0 : ∀ a, (![2, 0] : Fin 2 → Nat) a + S17x32768.size a ≤ S33x32768.size a
  inb_S33x32768_S1x32768_19_0 : ∀ a, (![19, 0] : Fin 2 → Nat) a + S1x32768.size a ≤ S33x32768.size a
  inb_S33x32768_S18x32768_1_0 : ∀ a, (![1, 0] : Fin 2 → Nat) a + S18x32768.size a ≤ S33x32768.size a
  h_S18x32768 : 0 < S18x32768.numel
  shapeCasts_S18x32768_S18x32768 : S18x32768.ShapeCasts S18x32768
  broadcasts_S1x32768_S18x32768 : S1x32768.Broadcasts S18x32768
  inb_S33x32768_S18x32768_2_0 : ∀ a, (![2, 0] : Fin 2 → Nat) a + S18x32768.size a ≤ S33x32768.size a
  inb_S33x32768_S1x32768_20_0 : ∀ a, (![20, 0] : Fin 2 → Nat) a + S1x32768.size a ≤ S33x32768.size a
  inb_S33x32768_S19x32768_1_0 : ∀ a, (![1, 0] : Fin 2 → Nat) a + S19x32768.size a ≤ S33x32768.size a
  h_S19x32768 : 0 < S19x32768.numel
  shapeCasts_S19x32768_S19x32768 : S19x32768.ShapeCasts S19x32768
  broadcasts_S1x32768_S19x32768 : S1x32768.Broadcasts S19x32768
  inb_S33x32768_S19x32768_2_0 : ∀ a, (![2, 0] : Fin 2 → Nat) a + S19x32768.size a ≤ S33x32768.size a
  inb_S33x32768_S1x32768_21_0 : ∀ a, (![21, 0] : Fin 2 → Nat) a + S1x32768.size a ≤ S33x32768.size a
  inb_S33x32768_S20x32768_1_0 : ∀ a, (![1, 0] : Fin 2 → Nat) a + S20x32768.size a ≤ S33x32768.size a
  h_S20x32768 : 0 < S20x32768.numel
  shapeCasts_S20x32768_S20x32768 : S20x32768.ShapeCasts S20x32768
  broadcasts_S1x32768_S20x32768 : S1x32768.Broadcasts S20x32768
  inb_S33x32768_S20x32768_2_0 : ∀ a, (![2, 0] : Fin 2 → Nat) a + S20x32768.size a ≤ S33x32768.size a
  inb_S33x32768_S1x32768_22_0 : ∀ a, (![22, 0] : Fin 2 → Nat) a + S1x32768.size a ≤ S33x32768.size a
  inb_S33x32768_S21x32768_1_0 : ∀ a, (![1, 0] : Fin 2 → Nat) a + S21x32768.size a ≤ S33x32768.size a
  h_S21x32768 : 0 < S21x32768.numel
  shapeCasts_S21x32768_S21x32768 : S21x32768.ShapeCasts S21x32768
  broadcasts_S1x32768_S21x32768 : S1x32768.Broadcasts S21x32768
  inb_S33x32768_S21x32768_2_0 : ∀ a, (![2, 0] : Fin 2 → Nat) a + S21x32768.size a ≤ S33x32768.size a
  inb_S33x32768_S1x32768_23_0 : ∀ a, (![23, 0] : Fin 2 → Nat) a + S1x32768.size a ≤ S33x32768.size a
  inb_S33x32768_S22x32768_1_0 : ∀ a, (![1, 0] : Fin 2 → Nat) a + S22x32768.size a ≤ S33x32768.size a
  h_S22x32768 : 0 < S22x32768.numel
  shapeCasts_S22x32768_S22x32768 : S22x32768.ShapeCasts S22x32768
  broadcasts_S1x32768_S22x32768 : S1x32768.Broadcasts S22x32768
  inb_S33x32768_S22x32768_2_0 : ∀ a, (![2, 0] : Fin 2 → Nat) a + S22x32768.size a ≤ S33x32768.size a
  inb_S33x32768_S1x32768_24_0 : ∀ a, (![24, 0] : Fin 2 → Nat) a + S1x32768.size a ≤ S33x32768.size a
  inb_S33x32768_S23x32768_1_0 : ∀ a, (![1, 0] : Fin 2 → Nat) a + S23x32768.size a ≤ S33x32768.size a
  h_S23x32768 : 0 < S23x32768.numel
  shapeCasts_S23x32768_S23x32768 : S23x32768.ShapeCasts S23x32768
  broadcasts_S1x32768_S23x32768 : S1x32768.Broadcasts S23x32768
  inb_S33x32768_S23x32768_2_0 : ∀ a, (![2, 0] : Fin 2 → Nat) a + S23x32768.size a ≤ S33x32768.size a
  inb_S33x32768_S1x32768_25_0 : ∀ a, (![25, 0] : Fin 2 → Nat) a + S1x32768.size a ≤ S33x32768.size a
  inb_S33x32768_S24x32768_1_0 : ∀ a, (![1, 0] : Fin 2 → Nat) a + S24x32768.size a ≤ S33x32768.size a
  h_S24x32768 : 0 < S24x32768.numel
  shapeCasts_S24x32768_S24x32768 : S24x32768.ShapeCasts S24x32768
  broadcasts_S1x32768_S24x32768 : S1x32768.Broadcasts S24x32768
  inb_S33x32768_S24x32768_2_0 : ∀ a, (![2, 0] : Fin 2 → Nat) a + S24x32768.size a ≤ S33x32768.size a
  inb_S33x32768_S1x32768_26_0 : ∀ a, (![26, 0] : Fin 2 → Nat) a + S1x32768.size a ≤ S33x32768.size a
  inb_S33x32768_S25x32768_1_0 : ∀ a, (![1, 0] : Fin 2 → Nat) a + S25x32768.size a ≤ S33x32768.size a
  h_S25x32768 : 0 < S25x32768.numel
  shapeCasts_S25x32768_S25x32768 : S25x32768.ShapeCasts S25x32768
  broadcasts_S1x32768_S25x32768 : S1x32768.Broadcasts S25x32768
  inb_S33x32768_S25x32768_2_0 : ∀ a, (![2, 0] : Fin 2 → Nat) a + S25x32768.size a ≤ S33x32768.size a
  inb_S33x32768_S1x32768_27_0 : ∀ a, (![27, 0] : Fin 2 → Nat) a + S1x32768.size a ≤ S33x32768.size a
  inb_S33x32768_S26x32768_1_0 : ∀ a, (![1, 0] : Fin 2 → Nat) a + S26x32768.size a ≤ S33x32768.size a
  h_S26x32768 : 0 < S26x32768.numel
  shapeCasts_S26x32768_S26x32768 : S26x32768.ShapeCasts S26x32768
  broadcasts_S1x32768_S26x32768 : S1x32768.Broadcasts S26x32768
  inb_S33x32768_S26x32768_2_0 : ∀ a, (![2, 0] : Fin 2 → Nat) a + S26x32768.size a ≤ S33x32768.size a
  inb_S33x32768_S1x32768_28_0 : ∀ a, (![28, 0] : Fin 2 → Nat) a + S1x32768.size a ≤ S33x32768.size a
  inb_S33x32768_S27x32768_1_0 : ∀ a, (![1, 0] : Fin 2 → Nat) a + S27x32768.size a ≤ S33x32768.size a
  h_S27x32768 : 0 < S27x32768.numel
  shapeCasts_S27x32768_S27x32768 : S27x32768.ShapeCasts S27x32768
  broadcasts_S1x32768_S27x32768 : S1x32768.Broadcasts S27x32768
  inb_S33x32768_S27x32768_2_0 : ∀ a, (![2, 0] : Fin 2 → Nat) a + S27x32768.size a ≤ S33x32768.size a
  inb_S33x32768_S1x32768_29_0 : ∀ a, (![29, 0] : Fin 2 → Nat) a + S1x32768.size a ≤ S33x32768.size a
  inb_S33x32768_S28x32768_1_0 : ∀ a, (![1, 0] : Fin 2 → Nat) a + S28x32768.size a ≤ S33x32768.size a
  h_S28x32768 : 0 < S28x32768.numel
  shapeCasts_S28x32768_S28x32768 : S28x32768.ShapeCasts S28x32768
  broadcasts_S1x32768_S28x32768 : S1x32768.Broadcasts S28x32768
  inb_S33x32768_S28x32768_2_0 : ∀ a, (![2, 0] : Fin 2 → Nat) a + S28x32768.size a ≤ S33x32768.size a
  inb_S33x32768_S1x32768_30_0 : ∀ a, (![30, 0] : Fin 2 → Nat) a + S1x32768.size a ≤ S33x32768.size a
  inb_S33x32768_S29x32768_1_0 : ∀ a, (![1, 0] : Fin 2 → Nat) a + S29x32768.size a ≤ S33x32768.size a
  h_S29x32768 : 0 < S29x32768.numel
  shapeCasts_S29x32768_S29x32768 : S29x32768.ShapeCasts S29x32768
  broadcasts_S1x32768_S29x32768 : S1x32768.Broadcasts S29x32768
  inb_S33x32768_S29x32768_2_0 : ∀ a, (![2, 0] : Fin 2 → Nat) a + S29x32768.size a ≤ S33x32768.size a
  inb_S33x32768_S1x32768_31_0 : ∀ a, (![31, 0] : Fin 2 → Nat) a + S1x32768.size a ≤ S33x32768.size a
  inb_S33x32768_S30x32768_1_0 : ∀ a, (![1, 0] : Fin 2 → Nat) a + S30x32768.size a ≤ S33x32768.size a
  h_S30x32768 : 0 < S30x32768.numel
  shapeCasts_S30x32768_S30x32768 : S30x32768.ShapeCasts S30x32768
  broadcasts_S1x32768_S30x32768 : S1x32768.Broadcasts S30x32768
  inb_S33x32768_S30x32768_2_0 : ∀ a, (![2, 0] : Fin 2 → Nat) a + S30x32768.size a ≤ S33x32768.size a
  inb_S33x32768_S1x32768_32_0 : ∀ a, (![32, 0] : Fin 2 → Nat) a + S1x32768.size a ≤ S33x32768.size a
  inb_S33x32768_S31x32768_1_0 : ∀ a, (![1, 0] : Fin 2 → Nat) a + S31x32768.size a ≤ S33x32768.size a
  h_S31x32768 : 0 < S31x32768.numel
  shapeCasts_S31x32768_S31x32768 : S31x32768.ShapeCasts S31x32768
  broadcasts_S1x32768_S31x32768 : S1x32768.Broadcasts S31x32768
  inb_S33x32768_S31x32768_2_0 : ∀ a, (![2, 0] : Fin 2 → Nat) a + S31x32768.size a ≤ S33x32768.size a
  shapeCasts_S33x1048576_S33x16x65536 : S33x1048576.ShapeCasts S33x16x65536
  transposes_S33x16x65536_S16x65536x33_1_2_0 : S33x16x65536.Transposes [1, 2, 0] S16x65536x33
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S33x32768.size a ≤ S33x1048576.size a
  hwx0_0 : ∀ i : grid0.Coords, EltTy.bits .f32 = 32 ∨ (Rect.block (s := S33x1048576) S33x32768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S33x32768.size a ≤ S33x1048576.size a
  hwx0_1 : ∀ i : grid0.Coords, EltTy.bits .f32 = 32 ∨ (Rect.block (s := S33x1048576) S33x32768.size (cc0_transform_1 i) (hinb0_1 i)).WholeWords (EltTy.packing .f32)

variable [Facts₀]

abbrev win0_0 : Pipeline.Window sig grid0 :=
  Pipeline.Window.ofSpec (Memref.whole main_v1) S33x32768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S33x32768.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16x65536x33 : Shape := ⟨3, ![16, 65536, 33]⟩
abbrev S_ : Shape := ⟨0, ![]⟩
abbrev S16x65536x1 : Shape := ⟨3, ![16, 65536, 1]⟩
abbrev S1 : Shape := ⟨1, ![1]⟩
abbrev S16x65536x2 : Shape := ⟨3, ![16, 65536, 2]⟩
abbrev S16x65536x3 : Shape := ⟨3, ![16, 65536, 3]⟩
abbrev S16x65536x4 : Shape := ⟨3, ![16, 65536, 4]⟩
abbrev S16x65536x5 : Shape := ⟨3, ![16, 65536, 5]⟩
abbrev S16x65536x6 : Shape := ⟨3, ![16, 65536, 6]⟩
abbrev S16x65536x7 : Shape := ⟨3, ![16, 65536, 7]⟩
abbrev S16x65536x8 : Shape := ⟨3, ![16, 65536, 8]⟩
abbrev S16x65536x9 : Shape := ⟨3, ![16, 65536, 9]⟩
abbrev S16x65536x10 : Shape := ⟨3, ![16, 65536, 10]⟩
abbrev S16x65536x11 : Shape := ⟨3, ![16, 65536, 11]⟩
abbrev S16x65536x12 : Shape := ⟨3, ![16, 65536, 12]⟩
abbrev S16x65536x13 : Shape := ⟨3, ![16, 65536, 13]⟩
abbrev S16x65536x14 : Shape := ⟨3, ![16, 65536, 14]⟩
abbrev S16x65536x15 : Shape := ⟨3, ![16, 65536, 15]⟩
abbrev S16x65536x16 : Shape := ⟨3, ![16, 65536, 16]⟩
abbrev S16x65536x17 : Shape := ⟨3, ![16, 65536, 17]⟩
abbrev S16x65536x18 : Shape := ⟨3, ![16, 65536, 18]⟩
abbrev S16x65536x19 : Shape := ⟨3, ![16, 65536, 19]⟩
abbrev S16x65536x20 : Shape := ⟨3, ![16, 65536, 20]⟩
abbrev S16x65536x21 : Shape := ⟨3, ![16, 65536, 21]⟩
abbrev S16x65536x22 : Shape := ⟨3, ![16, 65536, 22]⟩
abbrev S16x65536x23 : Shape := ⟨3, ![16, 65536, 23]⟩
abbrev S16x65536x24 : Shape := ⟨3, ![16, 65536, 24]⟩
abbrev S16x65536x25 : Shape := ⟨3, ![16, 65536, 25]⟩
abbrev S16x65536x26 : Shape := ⟨3, ![16, 65536, 26]⟩
abbrev S16x65536x27 : Shape := ⟨3, ![16, 65536, 27]⟩
abbrev S16x65536x28 : Shape := ⟨3, ![16, 65536, 28]⟩
abbrev S16x65536x29 : Shape := ⟨3, ![16, 65536, 29]⟩
abbrev S16x65536x30 : Shape := ⟨3, ![16, 65536, 30]⟩
abbrev S16x65536x31 : Shape := ⟨3, ![16, 65536, 31]⟩

abbrev nBuf : Space → Nat
  | .hbm => 282
  | .vmem => 0
  | .smem => 0
  | _ => 0

abbrev hbmTy0_0 (i : Nat) : BufTy := match i % 128 with
  | 0 => ⟨S16x65536x33, .f32⟩
  | 1 => ⟨S_, .f32⟩
  | 2 => ⟨S16x65536x33, .f32⟩
  | 3 => ⟨S16x65536x33, .f32⟩
  | 4 => ⟨S16x65536x1, .f32⟩
  | 5 => ⟨S16x65536x1, .f32⟩
  | 6 => ⟨S16x65536x1, .f32⟩
  | 7 => ⟨S16x65536x1, .f32⟩
  | 8 => ⟨S16x65536x1, .f32⟩
  | 9 => ⟨S_, .i32⟩
  | 10 => ⟨S1, .i32⟩
  | 11 => ⟨S16x65536x33, .f32⟩
  | 12 => ⟨S16x65536x1, .f32⟩
  | 13 => ⟨S16x65536x2, .f32⟩
  | 14 => ⟨S16x65536x2, .f32⟩
  | 15 => ⟨S16x65536x2, .f32⟩
  | 16 => ⟨S16x65536x2, .f32⟩
  | 17 => ⟨S16x65536x2, .f32⟩
  | 18 => ⟨S_, .i32⟩
  | 19 => ⟨S1, .i32⟩
  | 20 => ⟨S16x65536x33, .f32⟩
  | 21 => ⟨S16x65536x1, .f32⟩
  | 22 => ⟨S16x65536x3, .f32⟩
  | 23 => ⟨S16x65536x3, .f32⟩
  | 24 => ⟨S16x65536x3, .f32⟩
  | 25 => ⟨S16x65536x3, .f32⟩
  | 26 => ⟨S16x65536x3, .f32⟩
  | 27 => ⟨S_, .i32⟩
  | 28 => ⟨S1, .i32⟩
  | 29 => ⟨S16x65536x33, .f32⟩
  | 30 => ⟨S16x65536x1, .f32⟩
  | 31 => ⟨S16x65536x4, .f32⟩
  | 32 => ⟨S16x65536x4, .f32⟩
  | 33 => ⟨S16x65536x4, .f32⟩
  | 34 => ⟨S16x65536x4, .f32⟩
  | 35 => ⟨S16x65536x4, .f32⟩
  | 36 => ⟨S_, .i32⟩
  | 37 => ⟨S1, .i32⟩
  | 38 => ⟨S16x65536x33, .f32⟩
  | 39 => ⟨S16x65536x1, .f32⟩
  | 40 => ⟨S16x65536x5, .f32⟩
  | 41 => ⟨S16x65536x5, .f32⟩
  | 42 => ⟨S16x65536x5, .f32⟩
  | 43 => ⟨S16x65536x5, .f32⟩
  | 44 => ⟨S16x65536x5, .f32⟩
  | 45 => ⟨S_, .i32⟩
  | 46 => ⟨S1, .i32⟩
  | 47 => ⟨S16x65536x33, .f32⟩
  | 48 => ⟨S16x65536x1, .f32⟩
  | 49 => ⟨S16x65536x6, .f32⟩
  | 50 => ⟨S16x65536x6, .f32⟩
  | 51 => ⟨S16x65536x6, .f32⟩
  | 52 => ⟨S16x65536x6, .f32⟩
  | 53 => ⟨S16x65536x6, .f32⟩
  | 54 => ⟨S_, .i32⟩
  | 55 => ⟨S1, .i32⟩
  | 56 => ⟨S16x65536x33, .f32⟩
  | 57 => ⟨S16x65536x1, .f32⟩
  | 58 => ⟨S16x65536x7, .f32⟩
  | 59 => ⟨S16x65536x7, .f32⟩
  | 60 => ⟨S16x65536x7, .f32⟩
  | 61 => ⟨S16x65536x7, .f32⟩
  | 62 => ⟨S16x65536x7, .f32⟩
  | 63 => ⟨S_, .i32⟩
  | 64 => ⟨S1, .i32⟩
  | 65 => ⟨S16x65536x33, .f32⟩
  | 66 => ⟨S16x65536x1, .f32⟩
  | 67 => ⟨S16x65536x8, .f32⟩
  | 68 => ⟨S16x65536x8, .f32⟩
  | 69 => ⟨S16x65536x8, .f32⟩
  | 70 => ⟨S16x65536x8, .f32⟩
  | 71 => ⟨S16x65536x8, .f32⟩
  | 72 => ⟨S_, .i32⟩
  | 73 => ⟨S1, .i32⟩
  | 74 => ⟨S16x65536x33, .f32⟩
  | 75 => ⟨S16x65536x1, .f32⟩
  | 76 => ⟨S16x65536x9, .f32⟩
  | 77 => ⟨S16x65536x9, .f32⟩
  | 78 => ⟨S16x65536x9, .f32⟩
  | 79 => ⟨S16x65536x9, .f32⟩
  | 80 => ⟨S16x65536x9, .f32⟩
  | 81 => ⟨S_, .i32⟩
  | 82 => ⟨S1, .i32⟩
  | 83 => ⟨S16x65536x33, .f32⟩
  | 84 => ⟨S16x65536x1, .f32⟩
  | 85 => ⟨S16x65536x10, .f32⟩
  | 86 => ⟨S16x65536x10, .f32⟩
  | 87 => ⟨S16x65536x10, .f32⟩
  | 88 => ⟨S16x65536x10, .f32⟩
  | 89 => ⟨S16x65536x10, .f32⟩
  | 90 => ⟨S_, .i32⟩
  | 91 => ⟨S1, .i32⟩
  | 92 => ⟨S16x65536x33, .f32⟩
  | 93 => ⟨S16x65536x1, .f32⟩
  | 94 => ⟨S16x65536x11, .f32⟩
  | 95 => ⟨S16x65536x11, .f32⟩
  | 96 => ⟨S16x65536x11, .f32⟩
  | 97 => ⟨S16x65536x11, .f32⟩
  | 98 => ⟨S16x65536x11, .f32⟩
  | 99 => ⟨S_, .i32⟩
  | 100 => ⟨S1, .i32⟩
  | 101 => ⟨S16x65536x33, .f32⟩
  | 102 => ⟨S16x65536x1, .f32⟩
  | 103 => ⟨S16x65536x12, .f32⟩
  | 104 => ⟨S16x65536x12, .f32⟩
  | 105 => ⟨S16x65536x12, .f32⟩
  | 106 => ⟨S16x65536x12, .f32⟩
  | 107 => ⟨S16x65536x12, .f32⟩
  | 108 => ⟨S_, .i32⟩
  | 109 => ⟨S1, .i32⟩
  | 110 => ⟨S16x65536x33, .f32⟩
  | 111 => ⟨S16x65536x1, .f32⟩
  | 112 => ⟨S16x65536x13, .f32⟩
  | 113 => ⟨S16x65536x13, .f32⟩
  | 114 => ⟨S16x65536x13, .f32⟩
  | 115 => ⟨S16x65536x13, .f32⟩
  | 116 => ⟨S16x65536x13, .f32⟩
  | 117 => ⟨S_, .i32⟩
  | 118 => ⟨S1, .i32⟩
  | 119 => ⟨S16x65536x33, .f32⟩
  | 120 => ⟨S16x65536x1, .f32⟩
  | 121 => ⟨S16x65536x14, .f32⟩
  | 122 => ⟨S16x65536x14, .f32⟩
  | 123 => ⟨S16x65536x14, .f32⟩
  | 124 => ⟨S16x65536x14, .f32⟩
  | 125 => ⟨S16x65536x14, .f32⟩
  | 126 => ⟨S_, .i32⟩
  | 127 => ⟨S1, .i32⟩
  | _ => ⟨S16x65536x33, .f32⟩

abbrev hbmTy0_1 (i : Nat) : BufTy := match i % 128 with
  | 0 => ⟨S16x65536x33, .f32⟩
  | 1 => ⟨S16x65536x1, .f32⟩
  | 2 => ⟨S16x65536x15, .f32⟩
  | 3 => ⟨S16x65536x15, .f32⟩
  | 4 => ⟨S16x65536x15, .f32⟩
  | 5 => ⟨S16x65536x15, .f32⟩
  | 6 => ⟨S16x65536x15, .f32⟩
  | 7 => ⟨S_, .i32⟩
  | 8 => ⟨S1, .i32⟩
  | 9 => ⟨S16x65536x33, .f32⟩
  | 10 => ⟨S16x65536x1, .f32⟩
  | 11 => ⟨S16x65536x16, .f32⟩
  | 12 => ⟨S16x65536x16, .f32⟩
  | 13 => ⟨S16x65536x16, .f32⟩
  | 14 => ⟨S16x65536x16, .f32⟩
  | 15 => ⟨S16x65536x16, .f32⟩
  | 16 => ⟨S_, .i32⟩
  | 17 => ⟨S1, .i32⟩
  | 18 => ⟨S16x65536x33, .f32⟩
  | 19 => ⟨S16x65536x1, .f32⟩
  | 20 => ⟨S16x65536x17, .f32⟩
  | 21 => ⟨S16x65536x17, .f32⟩
  | 22 => ⟨S16x65536x17, .f32⟩
  | 23 => ⟨S16x65536x17, .f32⟩
  | 24 => ⟨S16x65536x17, .f32⟩
  | 25 => ⟨S_, .i32⟩
  | 26 => ⟨S1, .i32⟩
  | 27 => ⟨S16x65536x33, .f32⟩
  | 28 => ⟨S16x65536x1, .f32⟩
  | 29 => ⟨S16x65536x18, .f32⟩
  | 30 => ⟨S16x65536x18, .f32⟩
  | 31 => ⟨S16x65536x18, .f32⟩
  | 32 => ⟨S16x65536x18, .f32⟩
  | 33 => ⟨S16x65536x18, .f32⟩
  | 34 => ⟨S_, .i32⟩
  | 35 => ⟨S1, .i32⟩
  | 36 => ⟨S16x65536x33, .f32⟩
  | 37 => ⟨S16x65536x1, .f32⟩
  | 38 => ⟨S16x65536x19, .f32⟩
  | 39 => ⟨S16x65536x19, .f32⟩
  | 40 => ⟨S16x65536x19, .f32⟩
  | 41 => ⟨S16x65536x19, .f32⟩
  | 42 => ⟨S16x65536x19, .f32⟩
  | 43 => ⟨S_, .i32⟩
  | 44 => ⟨S1, .i32⟩
  | 45 => ⟨S16x65536x33, .f32⟩
  | 46 => ⟨S16x65536x1, .f32⟩
  | 47 => ⟨S16x65536x20, .f32⟩
  | 48 => ⟨S16x65536x20, .f32⟩
  | 49 => ⟨S16x65536x20, .f32⟩
  | 50 => ⟨S16x65536x20, .f32⟩
  | 51 => ⟨S16x65536x20, .f32⟩
  | 52 => ⟨S_, .i32⟩
  | 53 => ⟨S1, .i32⟩
  | 54 => ⟨S16x65536x33, .f32⟩
  | 55 => ⟨S16x65536x1, .f32⟩
  | 56 => ⟨S16x65536x21, .f32⟩
  | 57 => ⟨S16x65536x21, .f32⟩
  | 58 => ⟨S16x65536x21, .f32⟩
  | 59 => ⟨S16x65536x21, .f32⟩
  | 60 => ⟨S16x65536x21, .f32⟩
  | 61 => ⟨S_, .i32⟩
  | 62 => ⟨S1, .i32⟩
  | 63 => ⟨S16x65536x33, .f32⟩
  | 64 => ⟨S16x65536x1, .f32⟩
  | 65 => ⟨S16x65536x22, .f32⟩
  | 66 => ⟨S16x65536x22, .f32⟩
  | 67 => ⟨S16x65536x22, .f32⟩
  | 68 => ⟨S16x65536x22, .f32⟩
  | 69 => ⟨S16x65536x22, .f32⟩
  | 70 => ⟨S_, .i32⟩
  | 71 => ⟨S1, .i32⟩
  | 72 => ⟨S16x65536x33, .f32⟩
  | 73 => ⟨S16x65536x1, .f32⟩
  | 74 => ⟨S16x65536x23, .f32⟩
  | 75 => ⟨S16x65536x23, .f32⟩
  | 76 => ⟨S16x65536x23, .f32⟩
  | 77 => ⟨S16x65536x23, .f32⟩
  | 78 => ⟨S16x65536x23, .f32⟩
  | 79 => ⟨S_, .i32⟩
  | 80 => ⟨S1, .i32⟩
  | 81 => ⟨S16x65536x33, .f32⟩
  | 82 => ⟨S16x65536x1, .f32⟩
  | 83 => ⟨S16x65536x24, .f32⟩
  | 84 => ⟨S16x65536x24, .f32⟩
  | 85 => ⟨S16x65536x24, .f32⟩
  | 86 => ⟨S16x65536x24, .f32⟩
  | 87 => ⟨S16x65536x24, .f32⟩
  | 88 => ⟨S_, .i32⟩
  | 89 => ⟨S1, .i32⟩
  | 90 => ⟨S16x65536x33, .f32⟩
  | 91 => ⟨S16x65536x1, .f32⟩
  | 92 => ⟨S16x65536x25, .f32⟩
  | 93 => ⟨S16x65536x25, .f32⟩
  | 94 => ⟨S16x65536x25, .f32⟩
  | 95 => ⟨S16x65536x25, .f32⟩
  | 96 => ⟨S16x65536x25, .f32⟩
  | 97 => ⟨S_, .i32⟩
  | 98 => ⟨S1, .i32⟩
  | 99 => ⟨S16x65536x33, .f32⟩
  | 100 => ⟨S16x65536x1, .f32⟩
  | 101 => ⟨S16x65536x26, .f32⟩
  | 102 => ⟨S16x65536x26, .f32⟩
  | 103 => ⟨S16x65536x26, .f32⟩
  | 104 => ⟨S16x65536x26, .f32⟩
  | 105 => ⟨S16x65536x26, .f32⟩
  | 106 => ⟨S_, .i32⟩
  | 107 => ⟨S1, .i32⟩
  | 108 => ⟨S16x65536x33, .f32⟩
  | 109 => ⟨S16x65536x1, .f32⟩
  | 110 => ⟨S16x65536x27, .f32⟩
  | 111 => ⟨S16x65536x27, .f32⟩
  | 112 => ⟨S16x65536x27, .f32⟩
  | 113 => ⟨S16x65536x27, .f32⟩
  | 114 => ⟨S16x65536x27, .f32⟩
  | 115 => ⟨S_, .i32⟩
  | 116 => ⟨S1, .i32⟩
  | 117 => ⟨S16x65536x33, .f32⟩
  | 118 => ⟨S16x65536x1, .f32⟩
  | 119 => ⟨S16x65536x28, .f32⟩
  | 120 => ⟨S16x65536x28, .f32⟩
  | 121 => ⟨S16x65536x28, .f32⟩
  | 122 => ⟨S16x65536x28, .f32⟩
  | 123 => ⟨S16x65536x28, .f32⟩
  | 124 => ⟨S_, .i32⟩
  | 125 => ⟨S1, .i32⟩
  | 126 => ⟨S16x65536x33, .f32⟩
  | 127 => ⟨S16x65536x1, .f32⟩
  | _ => ⟨S16x65536x33, .f32⟩

abbrev hbmTy0_2 (i : Nat) : BufTy := match i % 128 with
  | 0 => ⟨S16x65536x29, .f32⟩
  | 1 => ⟨S16x65536x29, .f32⟩
  | 2 => ⟨S16x65536x29, .f32⟩
  | 3 => ⟨S16x65536x29, .f32⟩
  | 4 => ⟨S16x65536x29, .f32⟩
  | 5 => ⟨S_, .i32⟩
  | 6 => ⟨S1, .i32⟩
  | 7 => ⟨S16x65536x33, .f32⟩
  | 8 => ⟨S16x65536x1, .f32⟩
  | 9 => ⟨S16x65536x30, .f32⟩
  | 10 => ⟨S16x65536x30, .f32⟩
  | 11 => ⟨S16x65536x30, .f32⟩
  | 12 => ⟨S16x65536x30, .f32⟩
  | 13 => ⟨S16x65536x30, .f32⟩
  | 14 => ⟨S_, .i32⟩
  | 15 => ⟨S1, .i32⟩
  | 16 => ⟨S16x65536x33, .f32⟩
  | 17 => ⟨S16x65536x1, .f32⟩
  | 18 => ⟨S16x65536x31, .f32⟩
  | 19 => ⟨S16x65536x31, .f32⟩
  | 20 => ⟨S16x65536x31, .f32⟩
  | 21 => ⟨S16x65536x31, .f32⟩
  | 22 => ⟨S16x65536x31, .f32⟩
  | 23 => ⟨S_, .i32⟩
  | 24 => ⟨S1, .i32⟩
  | 25 => ⟨S16x65536x33, .f32⟩
  | _ => ⟨S16x65536x33, .f32⟩

abbrev hbmTy (i : Nat) : BufTy := match i / 128 with
  | 0 => hbmTy0_0 i
  | 1 => hbmTy0_1 i
  | 2 => hbmTy0_2 i
  | _ => ⟨S16x65536x33, .f32⟩

abbrev bufTy : (tb : Table) → Fin (tcTables nBuf tb) → BufTy
  | .hbm, ⟨i, _⟩ => hbmTy i
  | _, _ => ⟨S16x65536x33, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_c_0 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_c_1 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_c_2 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_c_3 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_c_4 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_c_5 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_c_6 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_c_7 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_c_8 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_c_9 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_c_10 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_c_11 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_c_12 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_v117 : Ref sig .tc := ⟨.hbm, 133, rfl⟩
abbrev main_v118 : Ref sig .tc := ⟨.hbm, 134, rfl⟩
abbrev main_c_13 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩
abbrev main_v122 : Ref sig .tc := ⟨.hbm, 139, rfl⟩
abbrev main_v123 : Ref sig .tc := ⟨.hbm, 140, rfl⟩
abbrev main_v124 : Ref sig .tc := ⟨.hbm, 141, rfl⟩
abbrev main_v125 : Ref sig .tc := ⟨.hbm, 142, rfl⟩
abbrev main_v126 : Ref sig .tc := ⟨.hbm, 143, rfl⟩
abbrev main_c_14 : Ref sig .tc := ⟨.hbm, 144, rfl⟩
abbrev main_v127 : Ref sig .tc := ⟨.hbm, 145, rfl⟩
abbrev main_v128 : Ref sig .tc := ⟨.hbm, 146, rfl⟩
abbrev main_v129 : Ref sig .tc := ⟨.hbm, 147, rfl⟩
abbrev main_v130 : Ref sig .tc := ⟨.hbm, 148, rfl⟩
abbrev main_v131 : Ref sig .tc := ⟨.hbm, 149, rfl⟩
abbrev main_v132 : Ref sig .tc := ⟨.hbm, 150, rfl⟩
abbrev main_v133 : Ref sig .tc := ⟨.hbm, 151, rfl⟩
abbrev main_v134 : Ref sig .tc := ⟨.hbm, 152, rfl⟩
abbrev main_c_15 : Ref sig .tc := ⟨.hbm, 153, rfl⟩
abbrev main_v135 : Ref sig .tc := ⟨.hbm, 154, rfl⟩
abbrev main_v136 : Ref sig .tc := ⟨.hbm, 155, rfl⟩
abbrev main_v137 : Ref sig .tc := ⟨.hbm, 156, rfl⟩
abbrev main_v138 : Ref sig .tc := ⟨.hbm, 157, rfl⟩
abbrev main_v139 : Ref sig .tc := ⟨.hbm, 158, rfl⟩
abbrev main_v140 : Ref sig .tc := ⟨.hbm, 159, rfl⟩
abbrev main_v141 : Ref sig .tc := ⟨.hbm, 160, rfl⟩
abbrev main_v142 : Ref sig .tc := ⟨.hbm, 161, rfl⟩
abbrev main_c_16 : Ref sig .tc := ⟨.hbm, 162, rfl⟩
abbrev main_v143 : Ref sig .tc := ⟨.hbm, 163, rfl⟩
abbrev main_v144 : Ref sig .tc := ⟨.hbm, 164, rfl⟩
abbrev main_v145 : Ref sig .tc := ⟨.hbm, 165, rfl⟩
abbrev main_v146 : Ref sig .tc := ⟨.hbm, 166, rfl⟩
abbrev main_v147 : Ref sig .tc := ⟨.hbm, 167, rfl⟩
abbrev main_v148 : Ref sig .tc := ⟨.hbm, 168, rfl⟩
abbrev main_v149 : Ref sig .tc := ⟨.hbm, 169, rfl⟩
abbrev main_v150 : Ref sig .tc := ⟨.hbm, 170, rfl⟩
abbrev main_c_17 : Ref sig .tc := ⟨.hbm, 171, rfl⟩
abbrev main_v151 : Ref sig .tc := ⟨.hbm, 172, rfl⟩
abbrev main_v152 : Ref sig .tc := ⟨.hbm, 173, rfl⟩
abbrev main_v153 : Ref sig .tc := ⟨.hbm, 174, rfl⟩
abbrev main_v154 : Ref sig .tc := ⟨.hbm, 175, rfl⟩
abbrev main_v155 : Ref sig .tc := ⟨.hbm, 176, rfl⟩
abbrev main_v156 : Ref sig .tc := ⟨.hbm, 177, rfl⟩
abbrev main_v157 : Ref sig .tc := ⟨.hbm, 178, rfl⟩
abbrev main_v158 : Ref sig .tc := ⟨.hbm, 179, rfl⟩
abbrev main_c_18 : Ref sig .tc := ⟨.hbm, 180, rfl⟩
abbrev main_v159 : Ref sig .tc := ⟨.hbm, 181, rfl⟩
abbrev main_v160 : Ref sig .tc := ⟨.hbm, 182, rfl⟩
abbrev main_v161 : Ref sig .tc := ⟨.hbm, 183, rfl⟩
abbrev main_v162 : Ref sig .tc := ⟨.hbm, 184, rfl⟩
abbrev main_v163 : Ref sig .tc := ⟨.hbm, 185, rfl⟩
abbrev main_v164 : Ref sig .tc := ⟨.hbm, 186, rfl⟩
abbrev main_v165 : Ref sig .tc := ⟨.hbm, 187, rfl⟩
abbrev main_v166 : Ref sig .tc := ⟨.hbm, 188, rfl⟩
abbrev main_c_19 : Ref sig .tc := ⟨.hbm, 189, rfl⟩
abbrev main_v167 : Ref sig .tc := ⟨.hbm, 190, rfl⟩
abbrev main_v168 : Ref sig .tc := ⟨.hbm, 191, rfl⟩
abbrev main_v169 : Ref sig .tc := ⟨.hbm, 192, rfl⟩
abbrev main_v170 : Ref sig .tc := ⟨.hbm, 193, rfl⟩
abbrev main_v171 : Ref sig .tc := ⟨.hbm, 194, rfl⟩
abbrev main_v172 : Ref sig .tc := ⟨.hbm, 195, rfl⟩
abbrev main_v173 : Ref sig .tc := ⟨.hbm, 196, rfl⟩
abbrev main_v174 : Ref sig .tc := ⟨.hbm, 197, rfl⟩
abbrev main_c_20 : Ref sig .tc := ⟨.hbm, 198, rfl⟩
abbrev main_v175 : Ref sig .tc := ⟨.hbm, 199, rfl⟩
abbrev main_v176 : Ref sig .tc := ⟨.hbm, 200, rfl⟩
abbrev main_v177 : Ref sig .tc := ⟨.hbm, 201, rfl⟩
abbrev main_v178 : Ref sig .tc := ⟨.hbm, 202, rfl⟩
abbrev main_v179 : Ref sig .tc := ⟨.hbm, 203, rfl⟩
abbrev main_v180 : Ref sig .tc := ⟨.hbm, 204, rfl⟩
abbrev main_v181 : Ref sig .tc := ⟨.hbm, 205, rfl⟩
abbrev main_v182 : Ref sig .tc := ⟨.hbm, 206, rfl⟩
abbrev main_c_21 : Ref sig .tc := ⟨.hbm, 207, rfl⟩
abbrev main_v183 : Ref sig .tc := ⟨.hbm, 208, rfl⟩
abbrev main_v184 : Ref sig .tc := ⟨.hbm, 209, rfl⟩
abbrev main_v185 : Ref sig .tc := ⟨.hbm, 210, rfl⟩
abbrev main_v186 : Ref sig .tc := ⟨.hbm, 211, rfl⟩
abbrev main_v187 : Ref sig .tc := ⟨.hbm, 212, rfl⟩
abbrev main_v188 : Ref sig .tc := ⟨.hbm, 213, rfl⟩
abbrev main_v189 : Ref sig .tc := ⟨.hbm, 214, rfl⟩
abbrev main_v190 : Ref sig .tc := ⟨.hbm, 215, rfl⟩
abbrev main_c_22 : Ref sig .tc := ⟨.hbm, 216, rfl⟩
abbrev main_v191 : Ref sig .tc := ⟨.hbm, 217, rfl⟩
abbrev main_v192 : Ref sig .tc := ⟨.hbm, 218, rfl⟩
abbrev main_v193 : Ref sig .tc := ⟨.hbm, 219, rfl⟩
abbrev main_v194 : Ref sig .tc := ⟨.hbm, 220, rfl⟩
abbrev main_v195 : Ref sig .tc := ⟨.hbm, 221, rfl⟩
abbrev main_v196 : Ref sig .tc := ⟨.hbm, 222, rfl⟩
abbrev main_v197 : Ref sig .tc := ⟨.hbm, 223, rfl⟩
abbrev main_v198 : Ref sig .tc := ⟨.hbm, 224, rfl⟩
abbrev main_c_23 : Ref sig .tc := ⟨.hbm, 225, rfl⟩
abbrev main_v199 : Ref sig .tc := ⟨.hbm, 226, rfl⟩
abbrev main_v200 : Ref sig .tc := ⟨.hbm, 227, rfl⟩
abbrev main_v201 : Ref sig .tc := ⟨.hbm, 228, rfl⟩
abbrev main_v202 : Ref sig .tc := ⟨.hbm, 229, rfl⟩
abbrev main_v203 : Ref sig .tc := ⟨.hbm, 230, rfl⟩
abbrev main_v204 : Ref sig .tc := ⟨.hbm, 231, rfl⟩
abbrev main_v205 : Ref sig .tc := ⟨.hbm, 232, rfl⟩
abbrev main_v206 : Ref sig .tc := ⟨.hbm, 233, rfl⟩
abbrev main_c_24 : Ref sig .tc := ⟨.hbm, 234, rfl⟩
abbrev main_v207 : Ref sig .tc := ⟨.hbm, 235, rfl⟩
abbrev main_v208 : Ref sig .tc := ⟨.hbm, 236, rfl⟩
abbrev main_v209 : Ref sig .tc := ⟨.hbm, 237, rfl⟩
abbrev main_v210 : Ref sig .tc := ⟨.hbm, 238, rfl⟩
abbrev main_v211 : Ref sig .tc := ⟨.hbm, 239, rfl⟩
abbrev main_v212 : Ref sig .tc := ⟨.hbm, 240, rfl⟩
abbrev main_v213 : Ref sig .tc := ⟨.hbm, 241, rfl⟩
abbrev main_v214 : Ref sig .tc := ⟨.hbm, 242, rfl⟩
abbrev main_c_25 : Ref sig .tc := ⟨.hbm, 243, rfl⟩
abbrev main_v215 : Ref sig .tc := ⟨.hbm, 244, rfl⟩
abbrev main_v216 : Ref sig .tc := ⟨.hbm, 245, rfl⟩
abbrev main_v217 : Ref sig .tc := ⟨.hbm, 246, rfl⟩
abbrev main_v218 : Ref sig .tc := ⟨.hbm, 247, rfl⟩
abbrev main_v219 : Ref sig .tc := ⟨.hbm, 248, rfl⟩
abbrev main_v220 : Ref sig .tc := ⟨.hbm, 249, rfl⟩
abbrev main_v221 : Ref sig .tc := ⟨.hbm, 250, rfl⟩
abbrev main_v222 : Ref sig .tc := ⟨.hbm, 251, rfl⟩
abbrev main_c_26 : Ref sig .tc := ⟨.hbm, 252, rfl⟩
abbrev main_v223 : Ref sig .tc := ⟨.hbm, 253, rfl⟩
abbrev main_v224 : Ref sig .tc := ⟨.hbm, 254, rfl⟩
abbrev main_v225 : Ref sig .tc := ⟨.hbm, 255, rfl⟩
abbrev main_v226 : Ref sig .tc := ⟨.hbm, 256, rfl⟩
abbrev main_v227 : Ref sig .tc := ⟨.hbm, 257, rfl⟩
abbrev main_v228 : Ref sig .tc := ⟨.hbm, 258, rfl⟩
abbrev main_v229 : Ref sig .tc := ⟨.hbm, 259, rfl⟩
abbrev main_v230 : Ref sig .tc := ⟨.hbm, 260, rfl⟩
abbrev main_c_27 : Ref sig .tc := ⟨.hbm, 261, rfl⟩
abbrev main_v231 : Ref sig .tc := ⟨.hbm, 262, rfl⟩
abbrev main_v232 : Ref sig .tc := ⟨.hbm, 263, rfl⟩
abbrev main_v233 : Ref sig .tc := ⟨.hbm, 264, rfl⟩
abbrev main_v234 : Ref sig .tc := ⟨.hbm, 265, rfl⟩
abbrev main_v235 : Ref sig .tc := ⟨.hbm, 266, rfl⟩
abbrev main_v236 : Ref sig .tc := ⟨.hbm, 267, rfl⟩
abbrev main_v237 : Ref sig .tc := ⟨.hbm, 268, rfl⟩
abbrev main_v238 : Ref sig .tc := ⟨.hbm, 269, rfl⟩
abbrev main_c_28 : Ref sig .tc := ⟨.hbm, 270, rfl⟩
abbrev main_v239 : Ref sig .tc := ⟨.hbm, 271, rfl⟩
abbrev main_v240 : Ref sig .tc := ⟨.hbm, 272, rfl⟩
abbrev main_v241 : Ref sig .tc := ⟨.hbm, 273, rfl⟩
abbrev main_v242 : Ref sig .tc := ⟨.hbm, 274, rfl⟩
abbrev main_v243 : Ref sig .tc := ⟨.hbm, 275, rfl⟩
abbrev main_v244 : Ref sig .tc := ⟨.hbm, 276, rfl⟩
abbrev main_v245 : Ref sig .tc := ⟨.hbm, 277, rfl⟩
abbrev main_v246 : Ref sig .tc := ⟨.hbm, 278, rfl⟩
abbrev main_c_29 : Ref sig .tc := ⟨.hbm, 279, rfl⟩
abbrev main_v247 : Ref sig .tc := ⟨.hbm, 280, rfl⟩
abbrev main_v248 : Ref sig .tc := ⟨.hbm, 281, rfl⟩

abbrev nD : Nat := 1
abbrev τ : Topo := Topo.v7x

variable {F : FTy → Type} [FloatOps F]

class Facts₀ : Prop where
  bcast_S_S16x65536x33 : S_.BroadcastsInDim S16x65536x33 (![] : Fin 0 → Fin S16x65536x33.rank)
  slices_S16x65536x33_S16x65536x1_0_0_2 : S16x65536x33.Slices ![0, 0, 2] S16x65536x1
  slices_S16x65536x33_S16x65536x1_0_0_1 : S16x65536x33.Slices ![0, 0, 1] S16x65536x1
  bcast_S_S1 : S_.BroadcastsInDim S1 (![] : Fin 0 → Fin S1.rank)
  slices_S16x65536x33_S16x65536x1_0_0_3 : S16x65536x33.Slices ![0, 0, 3] S16x65536x1
  slices_S16x65536x33_S16x65536x2_0_0_1 : S16x65536x33.Slices ![0, 0, 1] S16x65536x2
  bcast_S16x65536x1_S16x65536x2_0_1_2 : S16x65536x1.BroadcastsInDim S16x65536x2 (![0, 1, 2] : Fin 3 → Fin S16x65536x2.rank)
  slices_S16x65536x33_S16x65536x1_0_0_4 : S16x65536x33.Slices ![0, 0, 4] S16x65536x1
  slices_S16x65536x33_S16x65536x3_0_0_1 : S16x65536x33.Slices ![0, 0, 1] S16x65536x3
  bcast_S16x65536x1_S16x65536x3_0_1_2 : S16x65536x1.BroadcastsInDim S16x65536x3 (![0, 1, 2] : Fin 3 → Fin S16x65536x3.rank)
  slices_S16x65536x33_S16x65536x1_0_0_5 : S16x65536x33.Slices ![0, 0, 5] S16x65536x1
  slices_S16x65536x33_S16x65536x4_0_0_1 : S16x65536x33.Slices ![0, 0, 1] S16x65536x4
  bcast_S16x65536x1_S16x65536x4_0_1_2 : S16x65536x1.BroadcastsInDim S16x65536x4 (![0, 1, 2] : Fin 3 → Fin S16x65536x4.rank)
  slices_S16x65536x33_S16x65536x1_0_0_6 : S16x65536x33.Slices ![0, 0, 6] S16x65536x1
  slices_S16x65536x33_S16x65536x5_0_0_1 : S16x65536x33.Slices ![0, 0, 1] S16x65536x5
  bcast_S16x65536x1_S16x65536x5_0_1_2 : S16x65536x1.BroadcastsInDim S16x65536x5 (![0, 1, 2] : Fin 3 → Fin S16x65536x5.rank)
  slices_S16x65536x33_S16x65536x1_0_0_7 : S16x65536x33.Slices ![0, 0, 7] S16x65536x1
  slices_S16x65536x33_S16x65536x6_0_0_1 : S16x65536x33.Slices ![0, 0, 1] S16x65536x6
  bcast_S16x65536x1_S16x65536x6_0_1_2 : S16x65536x1.BroadcastsInDim S16x65536x6 (![0, 1, 2] : Fin 3 → Fin S16x65536x6.rank)
  slices_S16x65536x33_S16x65536x1_0_0_8 : S16x65536x33.Slices ![0, 0, 8] S16x65536x1
  slices_S16x65536x33_S16x65536x7_0_0_1 : S16x65536x33.Slices ![0, 0, 1] S16x65536x7
  bcast_S16x65536x1_S16x65536x7_0_1_2 : S16x65536x1.BroadcastsInDim S16x65536x7 (![0, 1, 2] : Fin 3 → Fin S16x65536x7.rank)
  slices_S16x65536x33_S16x65536x1_0_0_9 : S16x65536x33.Slices ![0, 0, 9] S16x65536x1
  slices_S16x65536x33_S16x65536x8_0_0_1 : S16x65536x33.Slices ![0, 0, 1] S16x65536x8
  bcast_S16x65536x1_S16x65536x8_0_1_2 : S16x65536x1.BroadcastsInDim S16x65536x8 (![0, 1, 2] : Fin 3 → Fin S16x65536x8.rank)
  slices_S16x65536x33_S16x65536x1_0_0_10 : S16x65536x33.Slices ![0, 0, 10] S16x65536x1
  slices_S16x65536x33_S16x65536x9_0_0_1 : S16x65536x33.Slices ![0, 0, 1] S16x65536x9
  bcast_S16x65536x1_S16x65536x9_0_1_2 : S16x65536x1.BroadcastsInDim S16x65536x9 (![0, 1, 2] : Fin 3 → Fin S16x65536x9.rank)
  slices_S16x65536x33_S16x65536x1_0_0_11 : S16x65536x33.Slices ![0, 0, 11] S16x65536x1
  slices_S16x65536x33_S16x65536x10_0_0_1 : S16x65536x33.Slices ![0, 0, 1] S16x65536x10
  bcast_S16x65536x1_S16x65536x10_0_1_2 : S16x65536x1.BroadcastsInDim S16x65536x10 (![0, 1, 2] : Fin 3 → Fin S16x65536x10.rank)
  slices_S16x65536x33_S16x65536x1_0_0_12 : S16x65536x33.Slices ![0, 0, 12] S16x65536x1
  slices_S16x65536x33_S16x65536x11_0_0_1 : S16x65536x33.Slices ![0, 0, 1] S16x65536x11
  bcast_S16x65536x1_S16x65536x11_0_1_2 : S16x65536x1.BroadcastsInDim S16x65536x11 (![0, 1, 2] : Fin 3 → Fin S16x65536x11.rank)
  slices_S16x65536x33_S16x65536x1_0_0_13 : S16x65536x33.Slices ![0, 0, 13] S16x65536x1
  slices_S16x65536x33_S16x65536x12_0_0_1 : S16x65536x33.Slices ![0, 0, 1] S16x65536x12
  bcast_S16x65536x1_S16x65536x12_0_1_2 : S16x65536x1.BroadcastsInDim S16x65536x12 (![0, 1, 2] : Fin 3 → Fin S16x65536x12.rank)
  slices_S16x65536x33_S16x65536x1_0_0_14 : S16x65536x33.Slices ![0, 0, 14] S16x65536x1
  slices_S16x65536x33_S16x65536x13_0_0_1 : S16x65536x33.Slices ![0, 0, 1] S16x65536x13
  bcast_S16x65536x1_S16x65536x13_0_1_2 : S16x65536x1.BroadcastsInDim S16x65536x13 (![0, 1, 2] : Fin 3 → Fin S16x65536x13.rank)
  slices_S16x65536x33_S16x65536x1_0_0_15 : S16x65536x33.Slices ![0, 0, 15] S16x65536x1
  slices_S16x65536x33_S16x65536x14_0_0_1 : S16x65536x33.Slices ![0, 0, 1] S16x65536x14
  bcast_S16x65536x1_S16x65536x14_0_1_2 : S16x65536x1.BroadcastsInDim S16x65536x14 (![0, 1, 2] : Fin 3 → Fin S16x65536x14.rank)
  slices_S16x65536x33_S16x65536x1_0_0_16 : S16x65536x33.Slices ![0, 0, 16] S16x65536x1
  slices_S16x65536x33_S16x65536x15_0_0_1 : S16x65536x33.Slices ![0, 0, 1] S16x65536x15
  bcast_S16x65536x1_S16x65536x15_0_1_2 : S16x65536x1.BroadcastsInDim S16x65536x15 (![0, 1, 2] : Fin 3 → Fin S16x65536x15.rank)
  slices_S16x65536x33_S16x65536x1_0_0_17 : S16x65536x33.Slices ![0, 0, 17] S16x65536x1
  slices_S16x65536x33_S16x65536x16_0_0_1 : S16x65536x33.Slices ![0, 0, 1] S16x65536x16
  bcast_S16x65536x1_S16x65536x16_0_1_2 : S16x65536x1.BroadcastsInDim S16x65536x16 (![0, 1, 2] : Fin 3 → Fin S16x65536x16.rank)
  slices_S16x65536x33_S16x65536x1_0_0_18 : S16x65536x33.Slices ![0, 0, 18] S16x65536x1
  slices_S16x65536x33_S16x65536x17_0_0_1 : S16x65536x33.Slices ![0, 0, 1] S16x65536x17
  bcast_S16x65536x1_S16x65536x17_0_1_2 : S16x65536x1.BroadcastsInDim S16x65536x17 (![0, 1, 2] : Fin 3 → Fin S16x65536x17.rank)
  slices_S16x65536x33_S16x65536x1_0_0_19 : S16x65536x33.Slices ![0, 0, 19] S16x65536x1
  slices_S16x65536x33_S16x65536x18_0_0_1 : S16x65536x33.Slices ![0, 0, 1] S16x65536x18
  bcast_S16x65536x1_S16x65536x18_0_1_2 : S16x65536x1.BroadcastsInDim S16x65536x18 (![0, 1, 2] : Fin 3 → Fin S16x65536x18.rank)
  slices_S16x65536x33_S16x65536x1_0_0_20 : S16x65536x33.Slices ![0, 0, 20] S16x65536x1
  slices_S16x65536x33_S16x65536x19_0_0_1 : S16x65536x33.Slices ![0, 0, 1] S16x65536x19
  bcast_S16x65536x1_S16x65536x19_0_1_2 : S16x65536x1.BroadcastsInDim S16x65536x19 (![0, 1, 2] : Fin 3 → Fin S16x65536x19.rank)
  slices_S16x65536x33_S16x65536x1_0_0_21 : S16x65536x33.Slices ![0, 0, 21] S16x65536x1
  slices_S16x65536x33_S16x65536x20_0_0_1 : S16x65536x33.Slices ![0, 0, 1] S16x65536x20
  bcast_S16x65536x1_S16x65536x20_0_1_2 : S16x65536x1.BroadcastsInDim S16x65536x20 (![0, 1, 2] : Fin 3 → Fin S16x65536x20.rank)
  slices_S16x65536x33_S16x65536x1_0_0_22 : S16x65536x33.Slices ![0, 0, 22] S16x65536x1
  slices_S16x65536x33_S16x65536x21_0_0_1 : S16x65536x33.Slices ![0, 0, 1] S16x65536x21
  bcast_S16x65536x1_S16x65536x21_0_1_2 : S16x65536x1.BroadcastsInDim S16x65536x21 (![0, 1, 2] : Fin 3 → Fin S16x65536x21.rank)
  slices_S16x65536x33_S16x65536x1_0_0_23 : S16x65536x33.Slices ![0, 0, 23] S16x65536x1
  slices_S16x65536x33_S16x65536x22_0_0_1 : S16x65536x33.Slices ![0, 0, 1] S16x65536x22
  bcast_S16x65536x1_S16x65536x22_0_1_2 : S16x65536x1.BroadcastsInDim S16x65536x22 (![0, 1, 2] : Fin 3 → Fin S16x65536x22.rank)
  slices_S16x65536x33_S16x65536x1_0_0_24 : S16x65536x33.Slices ![0, 0, 24] S16x65536x1
  slices_S16x65536x33_S16x65536x23_0_0_1 : S16x65536x33.Slices ![0, 0, 1] S16x65536x23
  bcast_S16x65536x1_S16x65536x23_0_1_2 : S16x65536x1.BroadcastsInDim S16x65536x23 (![0, 1, 2] : Fin 3 → Fin S16x65536x23.rank)
  slices_S16x65536x33_S16x65536x1_0_0_25 : S16x65536x33.Slices ![0, 0, 25] S16x65536x1
  slices_S16x65536x33_S16x65536x24_0_0_1 : S16x65536x33.Slices ![0, 0, 1] S16x65536x24
  bcast_S16x65536x1_S16x65536x24_0_1_2 : S16x65536x1.BroadcastsInDim S16x65536x24 (![0, 1, 2] : Fin 3 → Fin S16x65536x24.rank)
  slices_S16x65536x33_S16x65536x1_0_0_26 : S16x65536x33.Slices ![0, 0, 26] S16x65536x1
  slices_S16x65536x33_S16x65536x25_0_0_1 : S16x65536x33.Slices ![0, 0, 1] S16x65536x25
  bcast_S16x65536x1_S16x65536x25_0_1_2 : S16x65536x1.BroadcastsInDim S16x65536x25 (![0, 1, 2] : Fin 3 → Fin S16x65536x25.rank)
  slices_S16x65536x33_S16x65536x1_0_0_27 : S16x65536x33.Slices ![0, 0, 27] S16x65536x1
  slices_S16x65536x33_S16x65536x26_0_0_1 : S16x65536x33.Slices ![0, 0, 1] S16x65536x26
  bcast_S16x65536x1_S16x65536x26_0_1_2 : S16x65536x1.BroadcastsInDim S16x65536x26 (![0, 1, 2] : Fin 3 → Fin S16x65536x26.rank)
  slices_S16x65536x33_S16x65536x1_0_0_28 : S16x65536x33.Slices ![0, 0, 28] S16x65536x1
  slices_S16x65536x33_S16x65536x27_0_0_1 : S16x65536x33.Slices ![0, 0, 1] S16x65536x27
  bcast_S16x65536x1_S16x65536x27_0_1_2 : S16x65536x1.BroadcastsInDim S16x65536x27 (![0, 1, 2] : Fin 3 → Fin S16x65536x27.rank)
  slices_S16x65536x33_S16x65536x1_0_0_29 : S16x65536x33.Slices ![0, 0, 29] S16x65536x1
  slices_S16x65536x33_S16x65536x28_0_0_1 : S16x65536x33.Slices ![0, 0, 1] S16x65536x28
  bcast_S16x65536x1_S16x65536x28_0_1_2 : S16x65536x1.BroadcastsInDim S16x65536x28 (![0, 1, 2] : Fin 3 → Fin S16x65536x28.rank)
  slices_S16x65536x33_S16x65536x1_0_0_30 : S16x65536x33.Slices ![0, 0, 30] S16x65536x1
  slices_S16x65536x33_S16x65536x29_0_0_1 : S16x65536x33.Slices ![0, 0, 1] S16x65536x29
  bcast_S16x65536x1_S16x65536x29_0_1_2 : S16x65536x1.BroadcastsInDim S16x65536x29 (![0, 1, 2] : Fin 3 → Fin S16x65536x29.rank)
  slices_S16x65536x33_S16x65536x1_0_0_31 : S16x65536x33.Slices ![0, 0, 31] S16x65536x1
  slices_S16x65536x33_S16x65536x30_0_0_1 : S16x65536x33.Slices ![0, 0, 1] S16x65536x30
  bcast_S16x65536x1_S16x65536x30_0_1_2 : S16x65536x1.BroadcastsInDim S16x65536x30 (![0, 1, 2] : Fin 3 → Fin S16x65536x30.rank)
  slices_S16x65536x33_S16x65536x1_0_0_32 : S16x65536x33.Slices ![0, 0, 32] S16x65536x1
  slices_S16x65536x33_S16x65536x31_0_0_1 : S16x65536x33.Slices ![0, 0, 1] S16x65536x31
  bcast_S16x65536x1_S16x65536x31_0_1_2 : S16x65536x1.BroadcastsInDim S16x65536x31 (![0, 1, 2] : Fin 3 → Fin S16x65536x31.rank)
  scatter_S16x65536x33_S1_S16x65536x1_012_n_2_0_wf : ScatterDims.WF S16x65536x33 S1 S16x65536x1 [0, 1, 2] [] [2] 0
  scatter_S16x65536x33_S1_S16x65536x2_012_n_2_0_wf : ScatterDims.WF S16x65536x33 S1 S16x65536x2 [0, 1, 2] [] [2] 0
  scatter_S16x65536x33_S1_S16x65536x3_012_n_2_0_wf : ScatterDims.WF S16x65536x33 S1 S16x65536x3 [0, 1, 2] [] [2] 0
  scatter_S16x65536x33_S1_S16x65536x4_012_n_2_0_wf : ScatterDims.WF S16x65536x33 S1 S16x65536x4 [0, 1, 2] [] [2] 0
  scatter_S16x65536x33_S1_S16x65536x5_012_n_2_0_wf : ScatterDims.WF S16x65536x33 S1 S16x65536x5 [0, 1, 2] [] [2] 0
  scatter_S16x65536x33_S1_S16x65536x6_012_n_2_0_wf : ScatterDims.WF S16x65536x33 S1 S16x65536x6 [0, 1, 2] [] [2] 0
  scatter_S16x65536x33_S1_S16x65536x7_012_n_2_0_wf : ScatterDims.WF S16x65536x33 S1 S16x65536x7 [0, 1, 2] [] [2] 0
  scatter_S16x65536x33_S1_S16x65536x8_012_n_2_0_wf : ScatterDims.WF S16x65536x33 S1 S16x65536x8 [0, 1, 2] [] [2] 0
  scatter_S16x65536x33_S1_S16x65536x9_012_n_2_0_wf : ScatterDims.WF S16x65536x33 S1 S16x65536x9 [0, 1, 2] [] [2] 0
  scatter_S16x65536x33_S1_S16x65536x10_012_n_2_0_wf : ScatterDims.WF S16x65536x33 S1 S16x65536x10 [0, 1, 2] [] [2] 0
  scatter_S16x65536x33_S1_S16x65536x11_012_n_2_0_wf : ScatterDims.WF S16x65536x33 S1 S16x65536x11 [0, 1, 2] [] [2] 0
  scatter_S16x65536x33_S1_S16x65536x12_012_n_2_0_wf : ScatterDims.WF S16x65536x33 S1 S16x65536x12 [0, 1, 2] [] [2] 0
  scatter_S16x65536x33_S1_S16x65536x13_012_n_2_0_wf : ScatterDims.WF S16x65536x33 S1 S16x65536x13 [0, 1, 2] [] [2] 0
  scatter_S16x65536x33_S1_S16x65536x14_012_n_2_0_wf : ScatterDims.WF S16x65536x33 S1 S16x65536x14 [0, 1, 2] [] [2] 0
  scatter_S16x65536x33_S1_S16x65536x15_012_n_2_0_wf : ScatterDims.WF S16x65536x33 S1 S16x65536x15 [0, 1, 2] [] [2] 0
  scatter_S16x65536x33_S1_S16x65536x16_012_n_2_0_wf : ScatterDims.WF S16x65536x33 S1 S16x65536x16 [0, 1, 2] [] [2] 0
  scatter_S16x65536x33_S1_S16x65536x17_012_n_2_0_wf : ScatterDims.WF S16x65536x33 S1 S16x65536x17 [0, 1, 2] [] [2] 0
  scatter_S16x65536x33_S1_S16x65536x18_012_n_2_0_wf : ScatterDims.WF S16x65536x33 S1 S16x65536x18 [0, 1, 2] [] [2] 0
  scatter_S16x65536x33_S1_S16x65536x19_012_n_2_0_wf : ScatterDims.WF S16x65536x33 S1 S16x65536x19 [0, 1, 2] [] [2] 0
  scatter_S16x65536x33_S1_S16x65536x20_012_n_2_0_wf : ScatterDims.WF S16x65536x33 S1 S16x65536x20 [0, 1, 2] [] [2] 0
  scatter_S16x65536x33_S1_S16x65536x21_012_n_2_0_wf : ScatterDims.WF S16x65536x33 S1 S16x65536x21 [0, 1, 2] [] [2] 0
  scatter_S16x65536x33_S1_S16x65536x22_012_n_2_0_wf : ScatterDims.WF S16x65536x33 S1 S16x65536x22 [0, 1, 2] [] [2] 0
  scatter_S16x65536x33_S1_S16x65536x23_012_n_2_0_wf : ScatterDims.WF S16x65536x33 S1 S16x65536x23 [0, 1, 2] [] [2] 0
  scatter_S16x65536x33_S1_S16x65536x24_012_n_2_0_wf : ScatterDims.WF S16x65536x33 S1 S16x65536x24 [0, 1, 2] [] [2] 0
  scatter_S16x65536x33_S1_S16x65536x25_012_n_2_0_wf : ScatterDims.WF S16x65536x33 S1 S16x65536x25 [0, 1, 2] [] [2] 0
  scatter_S16x65536x33_S1_S16x65536x26_012_n_2_0_wf : ScatterDims.WF S16x65536x33 S1 S16x65536x26 [0, 1, 2] [] [2] 0
  scatter_S16x65536x33_S1_S16x65536x27_012_n_2_0_wf : ScatterDims.WF S16x65536x33 S1 S16x65536x27 [0, 1, 2] [] [2] 0
  scatter_S16x65536x33_S1_S16x65536x28_012_n_2_0_wf : ScatterDims.WF S16x65536x33 S1 S16x65536x28 [0, 1, 2] [] [2] 0
  scatter_S16x65536x33_S1_S16x65536x29_012_n_2_0_wf : ScatterDims.WF S16x65536x33 S1 S16x65536x29 [0, 1, 2] [] [2] 0
  scatter_S16x65536x33_S1_S16x65536x30_012_n_2_0_wf : ScatterDims.WF S16x65536x33 S1 S16x65536x30 [0, 1, 2] [] [2] 0
  scatter_S16x65536x33_S1_S16x65536x31_012_n_2_0_wf : ScatterDims.WF S16x65536x33 S1 S16x65536x31 [0, 1, 2] [] [2] 0

variable [Facts₀]

def scatter_S16x65536x33_S1_S16x65536x1_012_n_2_0 : ScatterDims S16x65536x33 S1 S16x65536x1 where
  updateWindowDims := [0, 1, 2]
  insertedWindowDims := []
  scatterDimsToOperandDims := [2]
  indexVectorDim := 0
  wf := scatter_S16x65536x33_S1_S16x65536x1_012_n_2_0_wf
def scatter_S16x65536x33_S1_S16x65536x2_012_n_2_0 : ScatterDims S16x65536x33 S1 S16x65536x2 where
  updateWindowDims := [0, 1, 2]
  insertedWindowDims := []
  scatterDimsToOperandDims := [2]
  indexVectorDim := 0
  wf := scatter_S16x65536x33_S1_S16x65536x2_012_n_2_0_wf
def scatter_S16x65536x33_S1_S16x65536x3_012_n_2_0 : ScatterDims S16x65536x33 S1 S16x65536x3 where
  updateWindowDims := [0, 1, 2]
  insertedWindowDims := []
  scatterDimsToOperandDims := [2]
  indexVectorDim := 0
  wf := scatter_S16x65536x33_S1_S16x65536x3_012_n_2_0_wf
def scatter_S16x65536x33_S1_S16x65536x4_012_n_2_0 : ScatterDims S16x65536x33 S1 S16x65536x4 where
  updateWindowDims := [0, 1, 2]
  insertedWindowDims := []
  scatterDimsToOperandDims := [2]
  indexVectorDim := 0
  wf := scatter_S16x65536x33_S1_S16x65536x4_012_n_2_0_wf
def scatter_S16x65536x33_S1_S16x65536x5_012_n_2_0 : ScatterDims S16x65536x33 S1 S16x65536x5 where
  updateWindowDims := [0, 1, 2]
  insertedWindowDims := []
  scatterDimsToOperandDims := [2]
  indexVectorDim := 0
  wf := scatter_S16x65536x33_S1_S16x65536x5_012_n_2_0_wf
def scatter_S16x65536x33_S1_S16x65536x6_012_n_2_0 : ScatterDims S16x65536x33 S1 S16x65536x6 where
  updateWindowDims := [0, 1, 2]
  insertedWindowDims := []
  scatterDimsToOperandDims := [2]
  indexVectorDim := 0
  wf := scatter_S16x65536x33_S1_S16x65536x6_012_n_2_0_wf
def scatter_S16x65536x33_S1_S16x65536x7_012_n_2_0 : ScatterDims S16x65536x33 S1 S16x65536x7 where
  updateWindowDims := [0, 1, 2]
  insertedWindowDims := []
  scatterDimsToOperandDims := [2]
  indexVectorDim := 0
  wf := scatter_S16x65536x33_S1_S16x65536x7_012_n_2_0_wf
def scatter_S16x65536x33_S1_S16x65536x8_012_n_2_0 : ScatterDims S16x65536x33 S1 S16x65536x8 where
  updateWindowDims := [0, 1, 2]
  insertedWindowDims := []
  scatterDimsToOperandDims := [2]
  indexVectorDim := 0
  wf := scatter_S16x65536x33_S1_S16x65536x8_012_n_2_0_wf
def scatter_S16x65536x33_S1_S16x65536x9_012_n_2_0 : ScatterDims S16x65536x33 S1 S16x65536x9 where
  updateWindowDims := [0, 1, 2]
  insertedWindowDims := []
  scatterDimsToOperandDims := [2]
  indexVectorDim := 0
  wf := scatter_S16x65536x33_S1_S16x65536x9_012_n_2_0_wf
def scatter_S16x65536x33_S1_S16x65536x10_012_n_2_0 : ScatterDims S16x65536x33 S1 S16x65536x10 where
  updateWindowDims := [0, 1, 2]
  insertedWindowDims := []
  scatterDimsToOperandDims := [2]
  indexVectorDim := 0
  wf := scatter_S16x65536x33_S1_S16x65536x10_012_n_2_0_wf
def scatter_S16x65536x33_S1_S16x65536x11_012_n_2_0 : ScatterDims S16x65536x33 S1 S16x65536x11 where
  updateWindowDims := [0, 1, 2]
  insertedWindowDims := []
  scatterDimsToOperandDims := [2]
  indexVectorDim := 0
  wf := scatter_S16x65536x33_S1_S16x65536x11_012_n_2_0_wf
def scatter_S16x65536x33_S1_S16x65536x12_012_n_2_0 : ScatterDims S16x65536x33 S1 S16x65536x12 where
  updateWindowDims := [0, 1, 2]
  insertedWindowDims := []
  scatterDimsToOperandDims := [2]
  indexVectorDim := 0
  wf := scatter_S16x65536x33_S1_S16x65536x12_012_n_2_0_wf
def scatter_S16x65536x33_S1_S16x65536x13_012_n_2_0 : ScatterDims S16x65536x33 S1 S16x65536x13 where
  updateWindowDims := [0, 1, 2]
  insertedWindowDims := []
  scatterDimsToOperandDims := [2]
  indexVectorDim := 0
  wf := scatter_S16x65536x33_S1_S16x65536x13_012_n_2_0_wf
def scatter_S16x65536x33_S1_S16x65536x14_012_n_2_0 : ScatterDims S16x65536x33 S1 S16x65536x14 where
  updateWindowDims := [0, 1, 2]
  insertedWindowDims := []
  scatterDimsToOperandDims := [2]
  indexVectorDim := 0
  wf := scatter_S16x65536x33_S1_S16x65536x14_012_n_2_0_wf
def scatter_S16x65536x33_S1_S16x65536x15_012_n_2_0 : ScatterDims S16x65536x33 S1 S16x65536x15 where
  updateWindowDims := [0, 1, 2]
  insertedWindowDims := []
  scatterDimsToOperandDims := [2]
  indexVectorDim := 0
  wf := scatter_S16x65536x33_S1_S16x65536x15_012_n_2_0_wf
def scatter_S16x65536x33_S1_S16x65536x16_012_n_2_0 : ScatterDims S16x65536x33 S1 S16x65536x16 where
  updateWindowDims := [0, 1, 2]
  insertedWindowDims := []
  scatterDimsToOperandDims := [2]
  indexVectorDim := 0
  wf := scatter_S16x65536x33_S1_S16x65536x16_012_n_2_0_wf
def scatter_S16x65536x33_S1_S16x65536x17_012_n_2_0 : ScatterDims S16x65536x33 S1 S16x65536x17 where
  updateWindowDims := [0, 1, 2]
  insertedWindowDims := []
  scatterDimsToOperandDims := [2]
  indexVectorDim := 0
  wf := scatter_S16x65536x33_S1_S16x65536x17_012_n_2_0_wf
def scatter_S16x65536x33_S1_S16x65536x18_012_n_2_0 : ScatterDims S16x65536x33 S1 S16x65536x18 where
  updateWindowDims := [0, 1, 2]
  insertedWindowDims := []
  scatterDimsToOperandDims := [2]
  indexVectorDim := 0
  wf := scatter_S16x65536x33_S1_S16x65536x18_012_n_2_0_wf
def scatter_S16x65536x33_S1_S16x65536x19_012_n_2_0 : ScatterDims S16x65536x33 S1 S16x65536x19 where
  updateWindowDims := [0, 1, 2]
  insertedWindowDims := []
  scatterDimsToOperandDims := [2]
  indexVectorDim := 0
  wf := scatter_S16x65536x33_S1_S16x65536x19_012_n_2_0_wf
def scatter_S16x65536x33_S1_S16x65536x20_012_n_2_0 : ScatterDims S16x65536x33 S1 S16x65536x20 where
  updateWindowDims := [0, 1, 2]
  insertedWindowDims := []
  scatterDimsToOperandDims := [2]
  indexVectorDim := 0
  wf := scatter_S16x65536x33_S1_S16x65536x20_012_n_2_0_wf
def scatter_S16x65536x33_S1_S16x65536x21_012_n_2_0 : ScatterDims S16x65536x33 S1 S16x65536x21 where
  updateWindowDims := [0, 1, 2]
  insertedWindowDims := []
  scatterDimsToOperandDims := [2]
  indexVectorDim := 0
  wf := scatter_S16x65536x33_S1_S16x65536x21_012_n_2_0_wf
def scatter_S16x65536x33_S1_S16x65536x22_012_n_2_0 : ScatterDims S16x65536x33 S1 S16x65536x22 where
  updateWindowDims := [0, 1, 2]
  insertedWindowDims := []
  scatterDimsToOperandDims := [2]
  indexVectorDim := 0
  wf := scatter_S16x65536x33_S1_S16x65536x22_012_n_2_0_wf
def scatter_S16x65536x33_S1_S16x65536x23_012_n_2_0 : ScatterDims S16x65536x33 S1 S16x65536x23 where
  updateWindowDims := [0, 1, 2]
  insertedWindowDims := []
  scatterDimsToOperandDims := [2]
  indexVectorDim := 0
  wf := scatter_S16x65536x33_S1_S16x65536x23_012_n_2_0_wf
def scatter_S16x65536x33_S1_S16x65536x24_012_n_2_0 : ScatterDims S16x65536x33 S1 S16x65536x24 where
  updateWindowDims := [0, 1, 2]
  insertedWindowDims := []
  scatterDimsToOperandDims := [2]
  indexVectorDim := 0
  wf := scatter_S16x65536x33_S1_S16x65536x24_012_n_2_0_wf
def scatter_S16x65536x33_S1_S16x65536x25_012_n_2_0 : ScatterDims S16x65536x33 S1 S16x65536x25 where
  updateWindowDims := [0, 1, 2]
  insertedWindowDims := []
  scatterDimsToOperandDims := [2]
  indexVectorDim := 0
  wf := scatter_S16x65536x33_S1_S16x65536x25_012_n_2_0_wf
def scatter_S16x65536x33_S1_S16x65536x26_012_n_2_0 : ScatterDims S16x65536x33 S1 S16x65536x26 where
  updateWindowDims := [0, 1, 2]
  insertedWindowDims := []
  scatterDimsToOperandDims := [2]
  indexVectorDim := 0
  wf := scatter_S16x65536x33_S1_S16x65536x26_012_n_2_0_wf
def scatter_S16x65536x33_S1_S16x65536x27_012_n_2_0 : ScatterDims S16x65536x33 S1 S16x65536x27 where
  updateWindowDims := [0, 1, 2]
  insertedWindowDims := []
  scatterDimsToOperandDims := [2]
  indexVectorDim := 0
  wf := scatter_S16x65536x33_S1_S16x65536x27_012_n_2_0_wf
def scatter_S16x65536x33_S1_S16x65536x28_012_n_2_0 : ScatterDims S16x65536x33 S1 S16x65536x28 where
  updateWindowDims := [0, 1, 2]
  insertedWindowDims := []
  scatterDimsToOperandDims := [2]
  indexVectorDim := 0
  wf := scatter_S16x65536x33_S1_S16x65536x28_012_n_2_0_wf
def scatter_S16x65536x33_S1_S16x65536x29_012_n_2_0 : ScatterDims S16x65536x33 S1 S16x65536x29 where
  updateWindowDims := [0, 1, 2]
  insertedWindowDims := []
  scatterDimsToOperandDims := [2]
  indexVectorDim := 0
  wf := scatter_S16x65536x33_S1_S16x65536x29_012_n_2_0_wf
def scatter_S16x65536x33_S1_S16x65536x30_012_n_2_0 : ScatterDims S16x65536x33 S1 S16x65536x30 where
  updateWindowDims := [0, 1, 2]
  insertedWindowDims := []
  scatterDimsToOperandDims := [2]
  indexVectorDim := 0
  wf := scatter_S16x65536x33_S1_S16x65536x30_012_n_2_0_wf
def scatter_S16x65536x33_S1_S16x65536x31_012_n_2_0 : ScatterDims S16x65536x33 S1 S16x65536x31 where
  updateWindowDims := [0, 1, 2]
  insertedWindowDims := []
  scatterDimsToOperandDims := [2]
  indexVectorDim := 0
  wf := scatter_S16x65536x33_S1_S16x65536x31_012_n_2_0_wf

class Facts : Prop extends Facts₀ where

variable [Facts]
-- ==== Proof.RefOps.lean ====
/-
  A scatter whose body keeps the update ("set"), read at one index.  The scatter is a left fold over the update
  indices; when two different update indices never land on the same operand index, the entry at an operand index is
  the update that lands there, or the operand's own entry when none does.  Then the case met in the recursion on
  [16, 65536, 33] arrays: a window of length L written at offset 1 of the last axis.
-/
import Idealize.ShloMosaic.PureOps.Ideal
import Idealize.ShloMosaic.Lib.ValueIdx
import Idealize.ShloMosaic.Lib.Pipeline.Value

noncomputable section

namespace Cert.ReferenceIdeal.RefLpc

open Idealize.ShloMosaic Idealize.ShloMosaic.ValueIdx

section Fold
variable {s si u : Shape} {α : Type} {w : Nat}

/-- One step of the scatter's fold with the body "take the update". -/
def setStep (d : ScatterDims s si u) (idx : IVec si w) (upd : u.Idx → α) (r : s.Idx → α) (n : Fin u.numel) : s.Idx → α :=
  match d.resultIdx? (u.rowMajor.symm n) idx with
  | some i => fun i' => if i' = i then upd (u.rowMajor.symm n) else r i'
  | none => r

theorem scatter_eq_foldl (d : ScatterDims s si u) (x : s.Idx → α) (idx : IVec si w) (upd : u.Idx → α) :
    Host.scatter d (fun _ b => b) x idx upd = (List.finRange u.numel).foldl (setStep d idx upd) x := rfl

/-- A step whose update index does not land on i' leaves entry i' alone. -/
theorem setStep_miss (d : ScatterDims s si u) (idx : IVec si w) (upd : u.Idx → α) (r : s.Idx → α) (n : Fin u.numel)
    (i' : s.Idx) (h : d.resultIdx? (u.rowMajor.symm n) idx ≠ some i') : setStep d idx upd r n i' = r i' := by
  unfold setStep
  cases hr : d.resultIdx? (u.rowMajor.symm n) idx with
  | none => rfl
  | some i =>
    have hne : i' ≠ i := fun e => h (by rw [hr, e])
    simp only [if_neg hne]

/-- A step whose update index lands on i' puts the update there. -/
theorem setStep_hit (d : ScatterDims s si u) (idx : IVec si w) (upd : u.Idx → α) (r : s.Idx → α) (n : Fin u.numel)
    (i' : s.Idx) (h : d.resultIdx? (u.rowMajor.symm n) idx = some i') : setStep d idx upd r n i' = upd (u.rowMajor.symm n) := by
  unfold setStep
  rw [h]
  exact if_pos rfl

/-- No update index of the list lands on i': the fold leaves entry i' alone. -/
theorem foldl_miss (d : ScatterDims s si u) (idx : IVec si w) (upd : u.Idx → α) (i' : s.Idx) :
    ∀ (l : List (Fin u.numel)) (r : s.Idx → α), (∀ n ∈ l, d.resultIdx? (u.rowMajor.symm n) idx ≠ some i') →
      l.foldl (setStep d idx upd) r i' = r i'
  | [], _, _ => rfl
  | n :: l, r, h => by
    rw [List.foldl_cons, foldl_miss d idx upd i' l _ (fun n' hn' => h n' (List.mem_cons_of_mem _ hn'))]
    exact setStep_miss d idx upd r n i' (h n List.mem_cons_self)

/-- Exactly one update index n of the list lands on i': the fold leaves that update there. -/
theorem foldl_hit (d : ScatterDims s si u) (idx : IVec si w) (upd : u.Idx → α) (i' : s.Idx) (n : Fin u.numel)
    (hn : d.resultIdx? (u.rowMajor.symm n) idx = some i') :
    ∀ (l : List (Fin u.numel)) (r : s.Idx → α), n ∈ l →
      (∀ n' ∈ l, d.resultIdx? (u.rowMajor.symm n') idx = some i' → n' = n) →
      l.foldl (setStep d idx upd) r i' = upd (u.rowMajor.symm n)
  | [], _, h, _ => absurd h List.not_mem_nil
  | n0 :: l, r, h, huniq => by
    rw [List.foldl_cons]
    by_cases hl : n ∈ l
    · exact foldl_hit d idx upd i' n hn l _ hl (fun n' hn' => huniq n' (List.mem_cons_of_mem _ hn'))
    · have h0 : n0 = n := by
        rcases List.mem_cons.1 h with e | e
        · exact e.symm
        · exact absurd e hl
      subst h0
      rw [foldl_miss d idx upd i' l _ (fun n' hn' e => hl (by rw [← huniq n' (List.mem_cons_of_mem _ hn') e]; exact hn'))]
      exact setStep_hit d idx upd r n0 i' hn

variable (d : ScatterDims s si u) (x : s.Idx → α) (idx : IVec si w) (upd : u.Idx → α)

/-- The set-scatter at an operand index that update index j lands on, no other update index landing there. -/
theorem scatter_set_hit (i' : s.Idx) (j : u.Idx) (hj : d.resultIdx? j idx = some i')
    (huniq : ∀ j' : u.Idx, d.resultIdx? j' idx = some i' → j' = j) :
    Host.scatter d (fun _ b => b) x idx upd i' = upd j := by
  rw [scatter_eq_foldl]
  have hs : u.rowMajor.symm (u.rowMajor j) = j := u.rowMajor.symm_apply_apply j
  have := foldl_hit d idx upd i' (u.rowMajor j) (by rw [hs]; exact hj) (List.finRange u.numel) x (List.mem_finRange _)
    (fun n' _ e => by rw [← huniq _ e, Equiv.apply_symm_apply])
  rw [this, hs]

/-- The set-scatter at an operand index no update index lands on. -/
theorem scatter_set_miss (i' : s.Idx) (h : ∀ j : u.Idx, d.resultIdx? j idx ≠ some i') :
    Host.scatter d (fun _ b => b) x idx upd i' = x i' := by
  rw [scatter_eq_foldl]
  exact foldl_miss d idx upd i' _ x (fun n _ => h _)

end Fold

/-! ### A window written at offset 1 of the last axis of a [16, 65536, 33] array -/

section Window
variable {α : Type} {L : ℕ}

/-- The start index vector of the recursion's scatters: one entry, the offset 1. -/
theorem one_toInt : ((1#32 : BitVec 32)).toInt = 1 := by decide

variable (d : ScatterDims ⟨3, ![16, 65536, 33]⟩ ⟨1, ![1]⟩ ⟨3, ![16, 65536, L]⟩)
  (h1 : d.updateWindowDims = [0, 1, 2]) (h2 : d.insertedWindowDims = []) (h3 : d.scatterDimsToOperandDims = [2])
  (idx : IVec ⟨1, ![1]⟩ 32) (hidx : ∀ q, idx q = 1#32)

include h1 h2 in
/-- The window coordinate on every operand axis is the update index's own coordinate. -/
theorem window_eq (j : (⟨3, ![16, 65536, L]⟩ : Shape).Idx) (a : Fin 3) : d.window j a = (j a).val := by
  obtain ⟨uw, iw, sd, iv, wf⟩ := d
  simp only at h1 h2
  subst h1 h2
  fin_cases a <;> rfl

include h3 hidx in
/-- The window starts at 1 on the last axis and at 0 on the others. -/
theorem start_eq (j : (⟨3, ![16, 65536, L]⟩ : Shape).Idx) (a : Fin 3) : d.start j idx a = if a = 2 then 1 else 0 := by
  obtain ⟨uw, iw, sd, iv, wf⟩ := d
  simp only at h3
  subst h3
  unfold ScatterDims.start
  by_cases ha : a = 2
  · subst ha
    have hm : (2 : Fin 3) ∈ ([2] : List (Fin 3)) := List.mem_singleton_self _
    rw [dif_pos hm, hidx, if_pos rfl, one_toInt]
  · have hm : ¬ a ∈ ([2] : List (Fin 3)) := by simpa using ha
    rw [dif_neg hm, if_neg ha]

include h1 h2 h3 hidx in
/-- Update index (b, n, p) lands on operand index (b, n, p + 1), always inside the operand. -/
theorem resultIdx_window (hL : L ≤ 32) (j : (⟨3, ![16, 65536, L]⟩ : Shape).Idx) :
    d.resultIdx? j idx = some (ix3 (j 0) (j 1) ⟨(j 2).val + 1, by have : (j 2).val < L := (j 2).isLt; omega⟩) := by
  have hst := start_eq d h3 idx hidx j
  have hw := window_eq d h1 h2 j
  have h0 : (j 0).val < 16 := (j 0).isLt
  have h1' : (j 1).val < 65536 := (j 1).isLt
  have h2' : (j 2).val < L := (j 2).isLt
  have hall : ∀ a : Fin 3, 0 ≤ d.start j idx a + (d.window j a : ℤ) ∧
      d.start j idx a + (d.window j a : ℤ) < ((⟨3, ![16, 65536, 33]⟩ : Shape).size a : ℤ) := by
    intro a
    rw [hst, hw]
    fin_cases a
    · simp; omega
    · simp; omega
    · simp; omega
  unfold ScatterDims.resultIdx?
  rw [dif_pos hall]
  congr 1
  funext a
  apply Fin.ext
  simp only [hst, hw]
  fin_cases a
  · simp
  · simp
  · simp; omega

include h1 h2 h3 hidx in
/-- The set-scatter of a length-L window at offset 1, read at (b, n, q): the update's entry q - 1 for 1 ≤ q ≤ L, the
    operand's own entry elsewhere. -/
theorem scatter_window_apply (hL : L ≤ 32) (x : (⟨3, ![16, 65536, 33]⟩ : Shape).Idx → α)
    (upd : (⟨3, ![16, 65536, L]⟩ : Shape).Idx → α) (b : Fin 16) (n : Fin 65536) (q : Fin 33) :
    Host.scatter d (fun _ b => b) x idx upd (ix3 b n q)
      = if h : 1 ≤ q.val ∧ q.val ≤ L then upd (ix3 b n ⟨q.val - 1, by omega⟩) else x (ix3 b n q) := by
  have hq : q.val < 33 := q.isLt
  by_cases h : 1 ≤ q.val ∧ q.val ≤ L
  · rw [dif_pos h]
    refine scatter_set_hit d x idx upd _ (ix3 b n ⟨q.val - 1, by omega⟩) ?_ ?_
    · rw [resultIdx_window d h1 h2 h3 idx hidx hL]
      congr 1
      funext a
      fin_cases a
      · rfl
      · rfl
      · exact Fin.ext (show q.val - 1 + 1 = q.val by omega)
    · intro j' hj'
      rw [resultIdx_window d h1 h2 h3 idx hidx hL] at hj'
      have hj'' := Option.some.inj hj'
      have e0 : j' 0 = b := congrFun hj'' 0
      have e1 : j' 1 = n := congrFun hj'' 1
      have e2 : (j' 2).val + 1 = q.val := congrArg Fin.val (congrFun hj'' 2)
      rw [eq_ix3 j']
      funext a
      fin_cases a
      · exact e0
      · exact e1
      · exact Fin.ext (show (j' 2).val = q.val - 1 by omega)
  · rw [dif_neg h]
    refine scatter_set_miss d x idx upd _ (fun j' hj' => h ?_)
    rw [resultIdx_window d h1 h2 h3 idx hidx hL] at hj'
    have e2 : (j' 2).val + 1 = q.val := congrArg Fin.val (congrFun (Option.some.inj hj') 2)
    have : (j' 2).val < L := (j' 2).isLt
    omega

end Window

end Cert.ReferenceIdeal.RefLpc

end
-- ==== Proof.LpcSpec.lean ====
/-
  The mathematics of both programs, one row at a time.  A row holds 33 extended reals; the recursion runs over the
  orders m = 2, …, 32 and at order m replaces every entry j with 1 ≤ j < m by
      r j + κ · r (m - j),          κ the input row's entry m,
  that is: the window r 1 … r (m-1) plus κ times the same window reversed.  Entries 0 and m, m+1, … are untouched by
  order m, so the entry an order reads as its coefficient is still the input's.
-/
import Idealize.ShloMosaic.PureOps.Ideal
import Idealize.ShloMosaic.Lib.ValueIdx

noncomputable section

namespace Cert.Lpc

open Idealize.ShloMosaic Idealize.ShloMosaic.ValueIdx

/-- One order of the recursion on a row: entries 1 … m-1 each gain κ times the entry mirrored inside that window. -/
def step (m : ℕ) (κ : EReal) (r : ℕ → EReal) : ℕ → EReal :=
  fun j => if 1 ≤ j ∧ j < m then r j + κ * r (m - j) else r j

/-- The row after the first s orders (m = 2, …, s+1), the coefficients read off the input row k. -/
def iter (k : ℕ → EReal) : ℕ → ℕ → EReal
  | 0 => k
  | s + 1 => step (s + 2) (k (s + 2)) (iter k s)

theorem iter_succ (k : ℕ → EReal) (s : ℕ) : iter k (s + 1) = step (s + 2) (k (s + 2)) (iter k s) := rfl

theorem step_inside {m : ℕ} {κ : EReal} {r : ℕ → EReal} {j : ℕ} (h1 : 1 ≤ j) (h2 : j < m) :
    step m κ r j = r j + κ * r (m - j) := by
  unfold step; rw [if_pos ⟨h1, h2⟩]

theorem step_outside {m : ℕ} {κ : EReal} {r : ℕ → EReal} {j : ℕ} (h : ¬ (1 ≤ j ∧ j < m)) :
    step m κ r j = r j := by
  unfold step; rw [if_neg h]

/-- An entry at or beyond the next order is still the input's. -/
theorem iter_above (k : ℕ → EReal) : ∀ (s j : ℕ), s + 2 ≤ j → iter k s j = k j
  | 0, _, _ => rfl
  | s + 1, j, h => by
    rw [iter_succ, step_outside (by omega)]
    exact iter_above k s j (by omega)

/-- Entry 0 is never written. -/
theorem iter_zero (k : ℕ → EReal) : ∀ s : ℕ, iter k s 0 = k 0
  | 0 => rfl
  | s + 1 => by rw [iter_succ, step_outside (by omega)]; exact iter_zero k s

/-- A row of a [16, 65536, 33] array as a function on ℕ (zero beyond its 33 entries, which nothing reads). -/
def rowOf (x : (⟨3, ![16, 65536, 33]⟩ : Shape).Idx → EReal) (b : Fin 16) (n : Fin 65536) : ℕ → EReal :=
  fun j => if h : j < 33 then x (ix3 b n ⟨j, h⟩) else 0

theorem rowOf_lt (x : (⟨3, ![16, 65536, 33]⟩ : Shape).Idx → EReal) (b : Fin 16) (n : Fin 65536) (j : ℕ) (h : j < 33) :
    rowOf x b n j = x (ix3 b n ⟨j, h⟩) := by
  unfold rowOf; rw [dif_pos h]

/-- The result array after the first s orders: every row put through `iter`. -/
def after (s : ℕ) (x : (⟨3, ![16, 65536, 33]⟩ : Shape).Idx → EReal) : (⟨3, ![16, 65536, 33]⟩ : Shape).Idx → EReal :=
  fun i => iter (rowOf x (i 0) (i 1)) s (i 2).val

/-- The whole result: all 31 orders. -/
def G (x : (⟨3, ![16, 65536, 33]⟩ : Shape).Idx → EReal) : (⟨3, ![16, 65536, 33]⟩ : Shape).Idx → EReal :=
  after 31 x

end Cert.Lpc

end
-- ==== Proof.RefSteps.lean ====
/-
  One order of the recursion as the reference states it — slice the window, reverse it, scale by the order's
  coefficient, add, write the window back — is one step of the row recursion on every row.
-/
import proofs.«100385_j55009941127436_2_alg».proof.Proof.RefOps
import proofs.«100385_j55009941127436_2_alg».proof.Proof.LpcSpec

noncomputable section

namespace Cert.ReferenceIdeal.RefLpc

open Idealize.ShloMosaic Idealize.ShloMosaic.ValueIdx Cert.Lpc

/-- The array after s orders, read at coordinates. -/
theorem after_ix3 (s : ℕ) (x : (⟨3, ![16, 65536, 33]⟩ : Shape).Idx → EReal) (b : Fin 16) (n : Fin 65536) (q : Fin 33) :
    after s x (ix3 b n q) = iter (rowOf x b n) s q.val := rfl

/-- Before any order the array is the input. -/
theorem after_zero (x : (⟨3, ![16, 65536, 33]⟩ : Shape).Idx → EReal) : after 0 x = x := by
  funext i
  obtain ⟨b, n, q, rfl⟩ : ∃ b n q, i = ix3 b n q := ⟨i 0, i 1, i 2, eq_ix3 i⟩
  rw [after_ix3]
  show rowOf x b n q.val = _
  rw [rowOf_lt x b n q.val q.isLt]

/-- Dividing by the constant 1.0 changes nothing. -/
theorem div_one_eq (x : FVec Ideal ⟨3, ![16, 65536, 33]⟩ .f32) (h : (⟨0, ![]⟩ : Shape).BroadcastsInDim ⟨3, ![16, 65536, 33]⟩ ![]) :
    Host.divf x (broadcastInDim ⟨3, ![16, 65536, 33]⟩ ![] h (constant (F := Ideal) ⟨0, ![]⟩ .f32 0x3F800000#32)) = x := by
  funext i
  show Ideal.div (x i) (Ideal.ofBits .f32 0x3F800000#32) = x i
  have h1 : Ideal.ofBits .f32 0x3F800000#32 = ((1 : ℝ) : EReal) := by
    simp [Ideal.ofBits, Ideal.ieee, -EReal.coe_mul]; norm_num
  rw [h1, Ideal.div_coe one_ne_zero]
  simp

/-- The window of length L at offset 1, read at (b, n, p): the array's entry p + 1. -/
theorem window_apply {L : ℕ} (hL : L ≤ 32) (A : (⟨3, ![16, 65536, 33]⟩ : Shape).Idx → EReal)
    (hs : (⟨3, ![16, 65536, 33]⟩ : Shape).Slices ![0, 0, 1] ⟨3, ![16, 65536, L]⟩) (b : Fin 16) (n : Fin 65536) (p : Fin L) :
    extractStridedSlice ⟨3, ![16, 65536, L]⟩ ![0, 0, 1] A hs (ix3 b n p) = A (ix3 b n ⟨p.val + 1, by omega⟩) := by
  refine extractStridedSlice_apply _ A hs _ _ (fun a => ?_)
  fin_cases a
  · show b.val = 0 + b.val; omega
  · show n.val = 0 + n.val; omega
  · show p.val + 1 = 1 + p.val; omega

/-- Reversing the last axis: position p reads position L - 1 - p. -/
theorem reverse_apply {L : ℕ} (W : (⟨3, ![16, 65536, L]⟩ : Shape).Idx → EReal) (b : Fin 16) (n : Fin 65536) (p : Fin L) :
    Host.reverse [2] W (ix3 b n p) = W (ix3 b n p.rev) := by
  unfold Host.reverse
  refine congrArg W (funext fun a => ?_)
  fin_cases a
  · rfl
  · rfl
  · rfl

/-- The order's coefficient, sliced out of the input at position m and broadcast along the window. -/
theorem coef_bcast_apply {L m : ℕ} (hm : m ≤ 32) (k : (⟨3, ![16, 65536, 33]⟩ : Shape).Idx → EReal)
    (hs : (⟨3, ![16, 65536, 33]⟩ : Shape).Slices ![0, 0, m] ⟨3, ![16, 65536, 1]⟩)
    (hb : (⟨3, ![16, 65536, 1]⟩ : Shape).BroadcastsInDim ⟨3, ![16, 65536, L]⟩ ![0, 1, 2])
    (b : Fin 16) (n : Fin 65536) (p : Fin L) :
    broadcastInDim ⟨3, ![16, 65536, L]⟩ ![0, 1, 2] hb (extractStridedSlice ⟨3, ![16, 65536, 1]⟩ ![0, 0, m] k hs) (ix3 b n p)
      = k (ix3 b n ⟨m, by omega⟩) := by
  rw [broadcastInDim_apply _ hb _ _ (ix3 b n (0 : Fin 1)) (fun a => by fin_cases a <;> simp <;> rfl)]
  refine extractStridedSlice_apply _ k hs _ _ (fun a => ?_)
  fin_cases a
  · show b.val = 0 + b.val; omega
  · show n.val = 0 + n.val; omega
  · show m = m + 0; omega

/-- The order's coefficient sliced out of the input at position m, the window having length 1. -/
theorem coef_slice_apply {m : ℕ} (hm : m ≤ 32) (k : (⟨3, ![16, 65536, 33]⟩ : Shape).Idx → EReal)
    (hs : (⟨3, ![16, 65536, 33]⟩ : Shape).Slices ![0, 0, m] ⟨3, ![16, 65536, 1]⟩)
    (b : Fin 16) (n : Fin 65536) (p : Fin 1) :
    extractStridedSlice ⟨3, ![16, 65536, 1]⟩ ![0, 0, m] k hs (ix3 b n p) = k (ix3 b n ⟨m, by omega⟩) := by
  refine extractStridedSlice_apply _ k hs _ _ (fun a => ?_)
  fin_cases a
  · show b.val = 0 + b.val; omega
  · show n.val = 0 + n.val; omega
  · show m = m + p.val; omega

/-- ONE ORDER.  From the array after s orders, the reference's order s + 2 — the window of length L = s + 1 at
    offset 1 plus the coefficient (the input's entry m = s + 2) times the window reversed, written back over the
    window — gives the array after s + 1 orders. -/
theorem order_eq {s L m : ℕ} (hL : L = s + 1) (hm : m = s + 2) (hm32 : m ≤ 32)
    (d : ScatterDims ⟨3, ![16, 65536, 33]⟩ ⟨1, ![1]⟩ ⟨3, ![16, 65536, L]⟩)
    (h1 : d.updateWindowDims = [0, 1, 2]) (h2 : d.insertedWindowDims = []) (h3 : d.scatterDimsToOperandDims = [2])
    (idx : IVec ⟨1, ![1]⟩ 32) (hidx : ∀ q, idx q = 1#32)
    (hs : (⟨3, ![16, 65536, 33]⟩ : Shape).Slices ![0, 0, 1] ⟨3, ![16, 65536, L]⟩)
    (k A : FVec Ideal ⟨3, ![16, 65536, 33]⟩ .f32) (W c : FVec Ideal ⟨3, ![16, 65536, L]⟩ .f32)
    (hA : A = after s k) (hW : W = extractStridedSlice ⟨3, ![16, 65536, L]⟩ ![0, 0, 1] A hs)
    (hc : ∀ (b : Fin 16) (n : Fin 65536) (p : Fin L), c (ix3 b n p) = k (ix3 b n ⟨m, by omega⟩)) :
    Host.scatter d (fun _ b => b) A idx (addf W (mulf c (Host.reverse [2] W))) = after (s + 1) k := by
  subst hL hm hA hW
  funext i
  obtain ⟨b, n, q, rfl⟩ : ∃ b n q, i = ix3 b n q := ⟨i 0, i 1, i 2, eq_ix3 i⟩
  have hq : q.val < 33 := q.isLt
  rw [scatter_window_apply d h1 h2 h3 idx hidx (by omega) _ _ b n q, after_ix3 (s + 1), iter_succ]
  by_cases h : 1 ≤ q.val ∧ q.val ≤ s + 1
  · rw [dif_pos h, step_inside h.1 (by omega), addf_apply, mulf_apply, hc, reverse_apply,
      window_apply (by omega), window_apply (by omega), after_ix3, after_ix3, rowOf_lt k b n (s + 2) (by omega)]
    have e1 : q.val - 1 + 1 = q.val := by omega
    have e2 : (Fin.rev (⟨q.val - 1, by omega⟩ : Fin (s + 1))).val + 1 = s + 2 - q.val := by
      show s + 1 - (q.val - 1 + 1) + 1 = s + 2 - q.val
      omega
    simp only [e1, e2]
  · rw [dif_neg h, step_outside (by omega), after_ix3]

end Cert.ReferenceIdeal.RefLpc

end
-- ==== Proof.RefLpc.lean ====
/-
  The reference's run, order by order: the named stage after each order is the row recursion's array after that many
  orders, so the result is the recursion's array after all 31.
-/
import proofs.«100385_j55009941127436_2_alg».proof.Proof.RefSteps
import proofs.«100385_j55009941127436_2_alg».proof.Proof.Gen.ReferenceIdeal.Run
import proofs.«100385_j55009941127436_2_alg».proof.Proof.Gen.Pre_finite_inputs
import proofs.«100385_j55009941127436_2_alg».proof.Defs

set_option maxRecDepth 8192

noncomputable section

namespace Cert.ReferenceIdeal.RefLpc

open Cert.ReferenceIdeal Cert.ReferenceIdeal.Gen Cert.ReferenceIdeal.Value Idealize.ShloMosaic Idealize.ShloMosaic.TcCoe Idealize.SL.Sem
  Idealize.ShloMosaic.StableHlo Idealize.ShloMosaic.ValueIdx Cert.Lpc

/-- The input array of a valuation, as a function on indices. -/
abbrev arg (V0 : Valuation τ sig (Elt Ideal)) : (⟨3, ![16, 65536, 33]⟩ : Shape).Idx → EReal :=
  V0 (Proc.devRef .tc main_arg0)

/-- Before the first order: the input divided by 1.0 is the input. -/
theorem after_0 (V0 : Valuation τ sig (Elt Ideal)) : res_main_v1 V0 = after 0 (arg V0) := by
  rw [after_zero]
  exact div_one_eq _ _

/-- Order 2 (window length 1; the coefficient needs no broadcast). -/
theorem after_1 (V0 : Valuation τ sig (Elt Ideal)) : res_main_v8 V0 = after 1 (arg V0) :=
  order_eq (s := 0) (L := 1) (m := 2) rfl rfl (by norm_num) scatter_S16x65536x33_S1_S16x65536x1_012_n_2_0 rfl rfl rfl _ (fun _ => rfl)
    slices_S16x65536x33_S16x65536x1_0_0_1 (arg V0) (res_main_v1 V0) (res_main_v3 V0) _ (after_0 V0) rfl
    (coef_slice_apply (by norm_num) _ slices_S16x65536x33_S16x65536x1_0_0_2)

/-- Order 3 (window length 2). -/
theorem after_2 (V0 : Valuation τ sig (Elt Ideal)) : res_main_v16 V0 = after 2 (arg V0) :=
  order_eq (s := 1) (L := 2) (m := 3) rfl rfl (by norm_num) scatter_S16x65536x33_S1_S16x65536x2_012_n_2_0 rfl rfl rfl _ (fun _ => rfl)
    slices_S16x65536x33_S16x65536x2_0_0_1 (arg V0) (res_main_v8 V0) (res_main_v10 V0) _ (after_1 V0) rfl
    (coef_bcast_apply (by norm_num) _ slices_S16x65536x33_S16x65536x1_0_0_3 bcast_S16x65536x1_S16x65536x2_0_1_2)

/-- Order 4 (window length 3). -/
theorem after_3 (V0 : Valuation τ sig (Elt Ideal)) : res_main_v24 V0 = after 3 (arg V0) :=
  order_eq (s := 2) (L := 3) (m := 4) rfl rfl (by norm_num) scatter_S16x65536x33_S1_S16x65536x3_012_n_2_0 rfl rfl rfl _ (fun _ => rfl)
    slices_S16x65536x33_S16x65536x3_0_0_1 (arg V0) (res_main_v16 V0) (res_main_v18 V0) _ (after_2 V0) rfl
    (coef_bcast_apply (by norm_num) _ slices_S16x65536x33_S16x65536x1_0_0_4 bcast_S16x65536x1_S16x65536x3_0_1_2)

/-- Order 5 (window length 4). -/
theorem after_4 (V0 : Valuation τ sig (Elt Ideal)) : res_main_v32 V0 = after 4 (arg V0) :=
  order_eq (s := 3) (L := 4) (m := 5) rfl rfl (by norm_num) scatter_S16x65536x33_S1_S16x65536x4_012_n_2_0 rfl rfl rfl _ (fun _ => rfl)
    slices_S16x65536x33_S16x65536x4_0_0_1 (arg V0) (res_main_v24 V0) (res_main_v26 V0) _ (after_3 V0) rfl
    (coef_bcast_apply (by norm_num) _ slices_S16x65536x33_S16x65536x1_0_0_5 bcast_S16x65536x1_S16x65536x4_0_1_2)

/-- Order 6 (window length 5). -/
theorem after_5 (V0 : Valuation τ sig (Elt Ideal)) : res_main_v40 V0 = after 5 (arg V0) :=
  order_eq (s := 4) (L := 5) (m := 6) rfl rfl (by norm_num) scatter_S16x65536x33_S1_S16x65536x5_012_n_2_0 rfl rfl rfl _ (fun _ => rfl)
    slices_S16x65536x33_S16x65536x5_0_0_1 (arg V0) (res_main_v32 V0) (res_main_v34 V0) _ (after_4 V0) rfl
    (coef_bcast_apply (by norm_num) _ slices_S16x65536x33_S16x65536x1_0_0_6 bcast_S16x65536x1_S16x65536x5_0_1_2)

/-- Order 7 (window length 6). -/
theorem after_6 (V0 : Valuation τ sig (Elt Ideal)) : res_main_v48 V0 = after 6 (arg V0) :=
  order_eq (s := 5) (L := 6) (m := 7) rfl rfl (by norm_num) scatter_S16x65536x33_S1_S16x65536x6_012_n_2_0 rfl rfl rfl _ (fun _ => rfl)
    slices_S16x65536x33_S16x65536x6_0_0_1 (arg V0) (res_main_v40 V0) (res_main_v42 V0) _ (after_5 V0) rfl
    (coef_bcast_apply (by norm_num) _ slices_S16x65536x33_S16x65536x1_0_0_7 bcast_S16x65536x1_S16x65536x6_0_1_2)

/-- Order 8 (window length 7). -/
theorem after_7 (V0 : Valuation τ sig (Elt Ideal)) : res_main_v56 V0 = after 7 (arg V0) :=
  order_eq (s := 6) (L := 7) (m := 8) rfl rfl (by norm_num) scatter_S16x65536x33_S1_S16x65536x7_012_n_2_0 rfl rfl rfl _ (fun _ => rfl)
    slices_S16x65536x33_S16x65536x7_0_0_1 (arg V0) (res_main_v48 V0) (res_main_v50 V0) _ (after_6 V0) rfl
    (coef_bcast_apply (by norm_num) _ slices_S16x65536x33_S16x65536x1_0_0_8 bcast_S16x65536x1_S16x65536x7_0_1_2)

/-- Order 9 (window length 8). -/
theorem after_8 (V0 : Valuation τ sig (Elt Ideal)) : res_main_v64 V0 = after 8 (arg V0) :=
  order_eq (s := 7) (L := 8) (m := 9) rfl rfl (by norm_num) scatter_S16x65536x33_S1_S16x65536x8_012_n_2_0 rfl rfl rfl _ (fun _ => rfl)
    slices_S16x65536x33_S16x65536x8_0_0_1 (arg V0) (res_main_v56 V0) (res_main_v58 V0) _ (after_7 V0) rfl
    (coef_bcast_apply (by norm_num) _ slices_S16x65536x33_S16x65536x1_0_0_9 bcast_S16x65536x1_S16x65536x8_0_1_2)

/-- Order 10 (window length 9). -/
theorem after_9 (V0 : Valuation τ sig (Elt Ideal)) : res_main_v72 V0 = after 9 (arg V0) :=
  order_eq (s := 8) (L := 9) (m := 10) rfl rfl (by norm_num) scatter_S16x65536x33_S1_S16x65536x9_012_n_2_0 rfl rfl rfl _ (fun _ => rfl)
    slices_S16x65536x33_S16x65536x9_0_0_1 (arg V0) (res_main_v64 V0) (res_main_v66 V0) _ (after_8 V0) rfl
    (coef_bcast_apply (by norm_num) _ slices_S16x65536x33_S16x65536x1_0_0_10 bcast_S16x65536x1_S16x65536x9_0_1_2)

/-- Order 11 (window length 10). -/
theorem after_10 (V0 : Valuation τ sig (Elt Ideal)) : res_main_v80 V0 = after 10 (arg V0) :=
  order_eq (s := 9) (L := 10) (m := 11) rfl rfl (by norm_num) scatter_S16x65536x33_S1_S16x65536x10_012_n_2_0 rfl rfl rfl _ (fun _ => rfl)
    slices_S16x65536x33_S16x65536x10_0_0_1 (arg V0) (res_main_v72 V0) (res_main_v74 V0) _ (after_9 V0) rfl
    (coef_bcast_apply (by norm_num) _ slices_S16x65536x33_S16x65536x1_0_0_11 bcast_S16x65536x1_S16x65536x10_0_1_2)

/-- Order 12 (window length 11). -/
theorem after_11 (V0 : Valuation τ sig (Elt Ideal)) : res_main_v88 V0 = after 11 (arg V0) :=
  order_eq (s := 10) (L := 11) (m := 12) rfl rfl (by norm_num) scatter_S16x65536x33_S1_S16x65536x11_012_n_2_0 rfl rfl rfl _ (fun _ => rfl)
    slices_S16x65536x33_S16x65536x11_0_0_1 (arg V0) (res_main_v80 V0) (res_main_v82 V0) _ (after_10 V0) rfl
    (coef_bcast_apply (by norm_num) _ slices_S16x65536x33_S16x65536x1_0_0_12 bcast_S16x65536x1_S16x65536x11_0_1_2)

/-- Order 13 (window length 12). -/
theorem after_12 (V0 : Valuation τ sig (Elt Ideal)) : res_main_v96 V0 = after 12 (arg V0) :=
  order_eq (s := 11) (L := 12) (m := 13) rfl rfl (by norm_num) scatter_S16x65536x33_S1_S16x65536x12_012_n_2_0 rfl rfl rfl _ (fun _ => rfl)
    slices_S16x65536x33_S16x65536x12_0_0_1 (arg V0) (res_main_v88 V0) (res_main_v90 V0) _ (after_11 V0) rfl
    (coef_bcast_apply (by norm_num) _ slices_S16x65536x33_S16x65536x1_0_0_13 bcast_S16x65536x1_S16x65536x12_0_1_2)

/-- Order 14 (window length 13). -/
theorem after_13 (V0 : Valuation τ sig (Elt Ideal)) : res_main_v104 V0 = after 13 (arg V0) :=
  order_eq (s := 12) (L := 13) (m := 14) rfl rfl (by norm_num) scatter_S16x65536x33_S1_S16x65536x13_012_n_2_0 rfl rfl rfl _ (fun _ => rfl)
    slices_S16x65536x33_S16x65536x13_0_0_1 (arg V0) (res_main_v96 V0) (res_main_v98 V0) _ (after_12 V0) rfl
    (coef_bcast_apply (by norm_num) _ slices_S16x65536x33_S16x65536x1_0_0_14 bcast_S16x65536x1_S16x65536x13_0_1_2)

/-- Order 15 (window length 14). -/
theorem after_14 (V0 : Valuation τ sig (Elt Ideal)) : res_main_v112 V0 = after 14 (arg V0) :=
  order_eq (s := 13) (L := 14) (m := 15) rfl rfl (by norm_num) scatter_S16x65536x33_S1_S16x65536x14_012_n_2_0 rfl rfl rfl _ (fun _ => rfl)
    slices_S16x65536x33_S16x65536x14_0_0_1 (arg V0) (res_main_v104 V0) (res_main_v106 V0) _ (after_13 V0) rfl
    (coef_bcast_apply (by norm_num) _ slices_S16x65536x33_S16x65536x1_0_0_15 bcast_S16x65536x1_S16x65536x14_0_1_2)

/-- Order 16 (window length 15). -/
theorem after_15 (V0 : Valuation τ sig (Elt Ideal)) : res_main_v120 V0 = after 15 (arg V0) :=
  order_eq (s := 14) (L := 15) (m := 16) rfl rfl (by norm_num) scatter_S16x65536x33_S1_S16x65536x15_012_n_2_0 rfl rfl rfl _ (fun _ => rfl)
    slices_S16x65536x33_S16x65536x15_0_0_1 (arg V0) (res_main_v112 V0) (res_main_v114 V0) _ (after_14 V0) rfl
    (coef_bcast_apply (by norm_num) _ slices_S16x65536x33_S16x65536x1_0_0_16 bcast_S16x65536x1_S16x65536x15_0_1_2)

/-- Order 17 (window length 16). -/
theorem after_16 (V0 : Valuation τ sig (Elt Ideal)) : res_main_v128 V0 = after 16 (arg V0) :=
  order_eq (s := 15) (L := 16) (m := 17) rfl rfl (by norm_num) scatter_S16x65536x33_S1_S16x65536x16_012_n_2_0 rfl rfl rfl _ (fun _ => rfl)
    slices_S16x65536x33_S16x65536x16_0_0_1 (arg V0) (res_main_v120 V0) (res_main_v122 V0) _ (after_15 V0) rfl
    (coef_bcast_apply (by norm_num) _ slices_S16x65536x33_S16x65536x1_0_0_17 bcast_S16x65536x1_S16x65536x16_0_1_2)

/-- Order 18 (window length 17). -/
theorem after_17 (V0 : Valuation τ sig (Elt Ideal)) : res_main_v136 V0 = after 17 (arg V0) :=
  order_eq (s := 16) (L := 17) (m := 18) rfl rfl (by norm_num) scatter_S16x65536x33_S1_S16x65536x17_012_n_2_0 rfl rfl rfl _ (fun _ => rfl)
    slices_S16x65536x33_S16x65536x17_0_0_1 (arg V0) (res_main_v128 V0) (res_main_v130 V0) _ (after_16 V0) rfl
    (coef_bcast_apply (by norm_num) _ slices_S16x65536x33_S16x65536x1_0_0_18 bcast_S16x65536x1_S16x65536x17_0_1_2)

/-- Order 19 (window length 18). -/
theorem after_18 (V0 : Valuation τ sig (Elt Ideal)) : res_main_v144 V0 = after 18 (arg V0) :=
  order_eq (s := 17) (L := 18) (m := 19) rfl rfl (by norm_num) scatter_S16x65536x33_S1_S16x65536x18_012_n_2_0 rfl rfl rfl _ (fun _ => rfl)
    slices_S16x65536x33_S16x65536x18_0_0_1 (arg V0) (res_main_v136 V0) (res_main_v138 V0) _ (after_17 V0) rfl
    (coef_bcast_apply (by norm_num) _ slices_S16x65536x33_S16x65536x1_0_0_19 bcast_S16x65536x1_S16x65536x18_0_1_2)

/-- Order 20 (window length 19). -/
theorem after_19 (V0 : Valuation τ sig (Elt Ideal)) : res_main_v152 V0 = after 19 (arg V0) :=
  order_eq (s := 18) (L := 19) (m := 20) rfl rfl (by norm_num) scatter_S16x65536x33_S1_S16x65536x19_012_n_2_0 rfl rfl rfl _ (fun _ => rfl)
    slices_S16x65536x33_S16x65536x19_0_0_1 (arg V0) (res_main_v144 V0) (res_main_v146 V0) _ (after_18 V0) rfl
    (coef_bcast_apply (by norm_num) _ slices_S16x65536x33_S16x65536x1_0_0_20 bcast_S16x65536x1_S16x65536x19_0_1_2)

/-- Order 21 (window length 20). -/
theorem after_20 (V0 : Valuation τ sig (Elt Ideal)) : res_main_v160 V0 = after 20 (arg V0) :=
  order_eq (s := 19) (L := 20) (m := 21) rfl rfl (by norm_num) scatter_S16x65536x33_S1_S16x65536x20_012_n_2_0 rfl rfl rfl _ (fun _ => rfl)
    slices_S16x65536x33_S16x65536x20_0_0_1 (arg V0) (res_main_v152 V0) (res_main_v154 V0) _ (after_19 V0) rfl
    (coef_bcast_apply (by norm_num) _ slices_S16x65536x33_S16x65536x1_0_0_21 bcast_S16x65536x1_S16x65536x20_0_1_2)

/-- Order 22 (window length 21). -/
theorem after_21 (V0 : Valuation τ sig (Elt Ideal)) : res_main_v168 V0 = after 21 (arg V0) :=
  order_eq (s := 20) (L := 21) (m := 22) rfl rfl (by norm_num) scatter_S16x65536x33_S1_S16x65536x21_012_n_2_0 rfl rfl rfl _ (fun _ => rfl)
    slices_S16x65536x33_S16x65536x21_0_0_1 (arg V0) (res_main_v160 V0) (res_main_v162 V0) _ (after_20 V0) rfl
    (coef_bcast_apply (by norm_num) _ slices_S16x65536x33_S16x65536x1_0_0_22 bcast_S16x65536x1_S16x65536x21_0_1_2)

/-- Order 23 (window length 22). -/
theorem after_22 (V0 : Valuation τ sig (Elt Ideal)) : res_main_v176 V0 = after 22 (arg V0) :=
  order_eq (s := 21) (L := 22) (m := 23) rfl rfl (by norm_num) scatter_S16x65536x33_S1_S16x65536x22_012_n_2_0 rfl rfl rfl _ (fun _ => rfl)
    slices_S16x65536x33_S16x65536x22_0_0_1 (arg V0) (res_main_v168 V0) (res_main_v170 V0) _ (after_21 V0) rfl
    (coef_bcast_apply (by norm_num) _ slices_S16x65536x33_S16x65536x1_0_0_23 bcast_S16x65536x1_S16x65536x22_0_1_2)

/-- Order 24 (window length 23). -/
theorem after_23 (V0 : Valuation τ sig (Elt Ideal)) : res_main_v184 V0 = after 23 (arg V0) :=
  order_eq (s := 22) (L := 23) (m := 24) rfl rfl (by norm_num) scatter_S16x65536x33_S1_S16x65536x23_012_n_2_0 rfl rfl rfl _ (fun _ => rfl)
    slices_S16x65536x33_S16x65536x23_0_0_1 (arg V0) (res_main_v176 V0) (res_main_v178 V0) _ (after_22 V0) rfl
    (coef_bcast_apply (by norm_num) _ slices_S16x65536x33_S16x65536x1_0_0_24 bcast_S16x65536x1_S16x65536x23_0_1_2)

/-- Order 25 (window length 24). -/
theorem after_24 (V0 : Valuation τ sig (Elt Ideal)) : res_main_v192 V0 = after 24 (arg V0) :=
  order_eq (s := 23) (L := 24) (m := 25) rfl rfl (by norm_num) scatter_S16x65536x33_S1_S16x65536x24_012_n_2_0 rfl rfl rfl _ (fun _ => rfl)
    slices_S16x65536x33_S16x65536x24_0_0_1 (arg V0) (res_main_v184 V0) (res_main_v186 V0) _ (after_23 V0) rfl
    (coef_bcast_apply (by norm_num) _ slices_S16x65536x33_S16x65536x1_0_0_25 bcast_S16x65536x1_S16x65536x24_0_1_2)

/-- Order 26 (window length 25). -/
theorem after_25 (V0 : Valuation τ sig (Elt Ideal)) : res_main_v200 V0 = after 25 (arg V0) :=
  order_eq (s := 24) (L := 25) (m := 26) rfl rfl (by norm_num) scatter_S16x65536x33_S1_S16x65536x25_012_n_2_0 rfl rfl rfl _ (fun _ => rfl)
    slices_S16x65536x33_S16x65536x25_0_0_1 (arg V0) (res_main_v192 V0) (res_main_v194 V0) _ (after_24 V0) rfl
    (coef_bcast_apply (by norm_num) _ slices_S16x65536x33_S16x65536x1_0_0_26 bcast_S16x65536x1_S16x65536x25_0_1_2)

/-- Order 27 (window length 26). -/
theorem after_26 (V0 : Valuation τ sig (Elt Ideal)) : res_main_v208 V0 = after 26 (arg V0) :=
  order_eq (s := 25) (L := 26) (m := 27) rfl rfl (by norm_num) scatter_S16x65536x33_S1_S16x65536x26_012_n_2_0 rfl rfl rfl _ (fun _ => rfl)
    slices_S16x65536x33_S16x65536x26_0_0_1 (arg V0) (res_main_v200 V0) (res_main_v202 V0) _ (after_25 V0) rfl
    (coef_bcast_apply (by norm_num) _ slices_S16x65536x33_S16x65536x1_0_0_27 bcast_S16x65536x1_S16x65536x26_0_1_2)

/-- Order 28 (window length 27). -/
theorem after_27 (V0 : Valuation τ sig (Elt Ideal)) : res_main_v216 V0 = after 27 (arg V0) :=
  order_eq (s := 26) (L := 27) (m := 28) rfl rfl (by norm_num) scatter_S16x65536x33_S1_S16x65536x27_012_n_2_0 rfl rfl rfl _ (fun _ => rfl)
    slices_S16x65536x33_S16x65536x27_0_0_1 (arg V0) (res_main_v208 V0) (res_main_v210 V0) _ (after_26 V0) rfl
    (coef_bcast_apply (by norm_num) _ slices_S16x65536x33_S16x65536x1_0_0_28 bcast_S16x65536x1_S16x65536x27_0_1_2)

/-- Order 29 (window length 28). -/
theorem after_28 (V0 : Valuation τ sig (Elt Ideal)) : res_main_v224 V0 = after 28 (arg V0) :=
  order_eq (s := 27) (L := 28) (m := 29) rfl rfl (by norm_num) scatter_S16x65536x33_S1_S16x65536x28_012_n_2_0 rfl rfl rfl _ (fun _ => rfl)
    slices_S16x65536x33_S16x65536x28_0_0_1 (arg V0) (res_main_v216 V0) (res_main_v218 V0) _ (after_27 V0) rfl
    (coef_bcast_apply (by norm_num) _ slices_S16x65536x33_S16x65536x1_0_0_29 bcast_S16x65536x1_S16x65536x28_0_1_2)

/-- Order 30 (window length 29). -/
theorem after_29 (V0 : Valuation τ sig (Elt Ideal)) : res_main_v232 V0 = after 29 (arg V0) :=
  order_eq (s := 28) (L := 29) (m := 30) rfl rfl (by norm_num) scatter_S16x65536x33_S1_S16x65536x29_012_n_2_0 rfl rfl rfl _ (fun _ => rfl)
    slices_S16x65536x33_S16x65536x29_0_0_1 (arg V0) (res_main_v224 V0) (res_main_v226 V0) _ (after_28 V0) rfl
    (coef_bcast_apply (by norm_num) _ slices_S16x65536x33_S16x65536x1_0_0_30 bcast_S16x65536x1_S16x65536x29_0_1_2)

/-- Order 31 (window length 30). -/
theorem after_30 (V0 : Valuation τ sig (Elt Ideal)) : res_main_v240 V0 = after 30 (arg V0) :=
  order_eq (s := 29) (L := 30) (m := 31) rfl rfl (by norm_num) scatter_S16x65536x33_S1_S16x65536x30_012_n_2_0 rfl rfl rfl _ (fun _ => rfl)
    slices_S16x65536x33_S16x65536x30_0_0_1 (arg V0) (res_main_v232 V0) (res_main_v234 V0) _ (after_29 V0) rfl
    (coef_bcast_apply (by norm_num) _ slices_S16x65536x33_S16x65536x1_0_0_31 bcast_S16x65536x1_S16x65536x30_0_1_2)

/-- Order 32 (window length 31), the last: the reference's result is the recursion's array after all 31 orders. -/
theorem result_eq (V0 : Valuation τ sig (Elt Ideal)) :
    Host.scatter scatter_S16x65536x33_S1_S16x65536x31_012_n_2_0 (fun _ b => b) (res_main_v240 V0) (broadcastInDim S1 ![] bcast_S_S1 (constantI S_ 32 1#32)) (addf (res_main_v242 V0) (mulf (broadcastInDim S16x65536x31 ![0, 1, 2] bcast_S16x65536x1_S16x65536x31_0_1_2 (extractStridedSlice S16x65536x1 ![0, 0, 32] (V0 (Proc.devRef .tc main_arg0)) slices_S16x65536x33_S16x65536x1_0_0_32)) (Host.reverse [2] (res_main_v242 V0))))
      = Cert.Lpc.G (V0 (Proc.devRef .tc main_arg0)) :=
  order_eq (s := 30) (L := 31) (m := 32) rfl rfl (by norm_num) scatter_S16x65536x33_S1_S16x65536x31_012_n_2_0 rfl rfl rfl _ (fun _ => rfl)
    slices_S16x65536x33_S16x65536x31_0_0_1 (arg V0) (res_main_v240 V0) (res_main_v242 V0) _ (after_30 V0) rfl
    (coef_bcast_apply (by norm_num) _ slices_S16x65536x33_S16x65536x1_0_0_32 bcast_S16x65536x1_S16x65536x31_0_1_2)

/-- The reference runs and leaves its argument unchanged. -/
theorem frame : Cert.frame_ReferenceIdeal :=
  fun m ρ _ => (θ_run Cert.ReferenceIdeal.defs _ _).mono (fun _ h c => (h c).2) (Cert.ReferenceIdeal.Value.run (F := Ideal) m ρ)

end Cert.ReferenceIdeal.RefLpc

end
-- ==== Proof.KerRows.lean ====
/-
  A [M, N] buffer written and read whole rows at a time.  The stores of the recursion each overwrite a band of rows
  r0 … r0+L-1 (all N columns); the contents the stores leave are read entry by entry: an entry inside the newest band is
  that store's value, an entry outside it is what the older stores left.  A load of a band reads those contents at the
  band's rows.  On top of this, one order of the recursion as the two buffers see it: the running rows O and the
  mirrored window AR with AR j = O (m - j) for 1 ≤ j < m.
-/
import Idealize.ShloMosaic.Lib.ValueIdx
import Idealize.ShloMosaic.Lib.Pipeline.Value
import Idealize.ShloMosaic.Lib.Pipeline.FrameBody
import proofs.«100385_j55009941127436_2_alg».proof.Proof.LpcSpec

noncomputable section

namespace Cert.Lpc

open Idealize.ShloMosaic Idealize.ShloMosaic.ValueIdx

/-- Dividing by the float 1.0 changes nothing, at every extended real. -/
theorem div_one_f32 (x : EReal) : Ideal.div x (Ideal.ofBits .f32 0x3F800000#32) = x := by
  have h1 : Ideal.ofBits .f32 0x3F800000#32 = ((1 : ℝ) : EReal) := by
    rw [EReal.coe_one]; simp [Ideal.ofBits, Ideal.ieee, -EReal.coe_mul]; norm_num
  rw [h1, Ideal.div_coe one_ne_zero, one_div, inv_one, EReal.coe_one, mul_one]

section bands

variable {M N : ℕ} {Val : EltTy → Type} [∀ e, Nonempty (Val e)] {e : EltTy}

/-- An entry inside the newest band reads that store's value. -/
theorem canon_rows_hit (r0 L : ℕ)
    (inb : ∀ a, (![r0, 0] : Fin 2 → ℕ) a + (![L, N] : Fin 2 → ℕ) a ≤ (⟨2, ![M, N]⟩ : Shape).size a)
    (w : (⟨2, ![L, N]⟩ : Shape).Idx → Val e) (rest : List (View.Piece Val ⟨2, ![M, N]⟩ e))
    (j : Fin M) (q : Fin N) (p : Fin L) (hj : j.val = r0 + p.val) :
    View.canon (⟨Rect.unit (s := ⟨2, ![M, N]⟩) ![r0, 0] ![L, N] inb, w⟩ :: rest) (ix2 j q) = w (ix2 p q) := by
  have h : (ix2 j q : (⟨2, ![M, N]⟩ : Shape).Idx)
      = (Rect.unit (s := ⟨2, ![M, N]⟩) ![r0, 0] ![L, N] inb).emb (ix2 p q) := by
    funext a; apply Fin.ext
    match a with
    | ⟨0, _⟩ => show j.val = r0 + 1 * p.val; omega
    | ⟨1, _⟩ => show q.val = 0 + 1 * q.val; omega
  rw [h]; exact View.canon_cons_emb (Rect.unit (s := ⟨2, ![M, N]⟩) ![r0, 0] ![L, N] inb) w rest (ix2 p q)

/-- An entry outside the newest band reads what the older stores left. -/
theorem canon_rows_miss (r0 L : ℕ)
    (inb : ∀ a, (![r0, 0] : Fin 2 → ℕ) a + (![L, N] : Fin 2 → ℕ) a ≤ (⟨2, ![M, N]⟩ : Shape).size a)
    (w : (⟨2, ![L, N]⟩ : Shape).Idx → Val e) (rest : List (View.Piece Val ⟨2, ![M, N]⟩ e))
    (j : Fin M) (q : Fin N) (hj : j.val < r0 ∨ r0 + L ≤ j.val) :
    View.canon (⟨Rect.unit (s := ⟨2, ![M, N]⟩) ![r0, 0] ![L, N] inb, w⟩ :: rest) (ix2 j q)
      = View.canon rest (ix2 j q) := by
  refine View.canon_cons_of_not_mem _ rest ?_
  intro hmem
  have h0 : r0 ≤ j.val ∧ j.val < r0 + L :=
    ((Rect.mem_set_unit (s := ⟨2, ![M, N]⟩) (off := ![r0, 0]) (size := ![L, N]) (inb := inb)).mp hmem) (0 : Fin 2)
  omega

/-- A load of a band reads the contents the stores left, at the band's rows. -/
theorem readCov_rows {sig : RefSig} {κ : Kind} {sp : Space} (v : View sig κ sp ⟨2, ![M, N]⟩ e)
    (Lst : List (View.Piece Val ⟨2, ![M, N]⟩ e)) (r0 L : ℕ)
    (inb : ∀ a, (![r0, 0] : Fin 2 → ℕ) a + (![L, N] : Fin 2 → ℕ) a ≤ (⟨2, ![M, N]⟩ : Shape).size a)
    (p : Fin L) (q : Fin N) (j : Fin M) (hj : j.val = r0 + p.val) :
    v.readCov Lst (Rect.unit (s := ⟨2, ![M, N]⟩) ![r0, 0] ![L, N] inb).toLoadRect (ix2 p q)
      = View.canon Lst (ix2 j q) := by
  rw [View.readCov_eq_canon']
  refine congrArg (View.canon Lst) ?_
  funext a; apply Fin.ext
  match a with
  | ⟨0, _⟩ => show r0 + 1 * p.val = j.val; omega
  | ⟨1, _⟩ => show 0 + 1 * q.val = q.val; omega

/-- One row repeated down L rows, read at an entry. -/
theorem bcastRow_apply {α : Type} (L : ℕ) (h : (⟨2, ![1, N]⟩ : Shape).Broadcasts ⟨2, ![L, N]⟩)
    (x : (⟨2, ![1, N]⟩ : Shape).Idx → α) (p : Fin L) (q : Fin N) :
    broadcastTo ⟨2, ![L, N]⟩ x h (ix2 p q) = x (ix2 0 q) := by
  refine broadcastTo_apply x h _ _ (fun a => ?_)
  match a with
  | ⟨0, _⟩ => show (0 : ℕ) = if (1 : ℕ) = 1 then 0 else _; rw [if_pos rfl]
  | ⟨1, _⟩ =>
    show q.val = if N = 1 then 0 else q.val
    by_cases hN : N = 1
    · rw [if_pos hN]; have := q.isLt; omega
    · rw [if_neg hN]

end bands

/-! ## One order of the recursion, as the two buffers see it -/

/-- The first s orders write entries 1 … s only: an entry from s+1 on is still the input's. -/
theorem iter_beyond (k : ℕ → EReal) : ∀ (s j : ℕ), s + 1 ≤ j → iter k s j = k j
  | 0, _, _ => rfl
  | s + 1, j, h => by
    rw [iter_succ, step_outside (by omega)]
    exact iter_beyond k s j (by omega)

section order

variable {M N : ℕ}

/-- The store of order m = s+2 into the running rows: rows 1 … s+1 become a + km·ar, where a is those rows, ar the
    mirrored window and km row m repeated; every other row stays.  The rows then hold the row after s+1 orders. -/
theorem stepO_core (s L : ℕ) (hL : L = s + 1)
    (inbA : ∀ a, (![1, 0] : Fin 2 → ℕ) a + (![L, N] : Fin 2 → ℕ) a ≤ (⟨2, ![M, N]⟩ : Shape).size a)
    (Lo : List (View.Piece (Elt Ideal) ⟨2, ![M, N]⟩ .f32)) (row : Fin N → ℕ → EReal)
    (a ar km : (⟨2, ![L, N]⟩ : Shape).Idx → EReal)
    (hO : ∀ (j : Fin M) (q : Fin N), View.canon Lo (ix2 j q) = iter (row q) s j.val)
    (ha : ∀ (p : Fin L) (q : Fin N), a (ix2 p q) = iter (row q) s (1 + p.val))
    (har : ∀ (p : Fin L) (q : Fin N), ar (ix2 p q) = iter (row q) s (s + 1 - p.val))
    (hkm : ∀ (p : Fin L) (q : Fin N), km (ix2 p q) = iter (row q) s (s + 2)) :
    ∀ (j : Fin M) (q : Fin N),
      View.canon (⟨Rect.unit (s := ⟨2, ![M, N]⟩) ![1, 0] ![L, N] inbA, addf (F := Ideal) (φ := .f32) a (mulf km ar)⟩ :: Lo) (ix2 j q)
        = iter (row q) (s + 1) j.val := by
  subst hL
  intro j q
  by_cases h : 1 ≤ j.val ∧ j.val < s + 2
  · obtain ⟨p, hp⟩ : ∃ p : Fin (s + 1), j.val = 1 + p.val := ⟨⟨j.val - 1, by omega⟩, by show j.val = 1 + (j.val - 1); omega⟩
    rw [canon_rows_hit 1 (s + 1) inbA _ Lo j q p hp]
    show a (ix2 p q) + km (ix2 p q) * ar (ix2 p q) = _
    rw [ha, har, hkm, iter_succ, step_inside h.1 h.2, iter_beyond _ s (s + 2) (by omega), hp]
    have e : s + 2 - (1 + p.val) = s + 1 - p.val := by omega
    rw [e]
  · rw [canon_rows_miss 1 (s + 1) inbA _ Lo j q (by omega), hO, iter_succ, step_outside h]

/-- The two stores of order m = s+2 into the mirror buffer: row 1 takes km, rows 2 … s+2 take ar + km·a.  Rows
    1 … s+2 then mirror the row after s+1 orders inside the window of the next order. -/
theorem stepAR_core (s L : ℕ) (hL : L = s + 1)
    (inbK : ∀ a, (![1, 0] : Fin 2 → ℕ) a + (![1, N] : Fin 2 → ℕ) a ≤ (⟨2, ![M, N]⟩ : Shape).size a)
    (inbR : ∀ a, (![2, 0] : Fin 2 → ℕ) a + (![L, N] : Fin 2 → ℕ) a ≤ (⟨2, ![M, N]⟩ : Shape).size a)
    (La : List (View.Piece (Elt Ideal) ⟨2, ![M, N]⟩ .f32)) (row : Fin N → ℕ → EReal)
    (pk : (⟨2, ![1, N]⟩ : Shape).Idx → EReal) (pr : (⟨2, ![L, N]⟩ : Shape).Idx → EReal)
    (hpk : ∀ q : Fin N, pk (ix2 0 q) = iter (row q) s (s + 2))
    (hpr : ∀ (p : Fin L) (q : Fin N), pr (ix2 p q)
        = iter (row q) s (s + 1 - p.val) + iter (row q) s (s + 2) * iter (row q) s (1 + p.val)) :
    ∀ (j : Fin M) (q : Fin N), 1 ≤ j.val → j.val < s + 3 →
      View.canon (⟨Rect.unit (s := ⟨2, ![M, N]⟩) ![1, 0] ![1, N] inbK, pk⟩
          :: ⟨Rect.unit (s := ⟨2, ![M, N]⟩) ![2, 0] ![L, N] inbR, pr⟩ :: La) (ix2 j q)
        = iter (row q) (s + 1) (s + 3 - j.val) := by
  subst hL
  intro j q h1 h2
  by_cases hj : j.val = 1
  · rw [canon_rows_hit (Val := Elt Ideal) (e := .f32) 1 1 inbK pk _ j q 0 (by show j.val = 1 + 0; omega), hpk, iter_beyond _ s (s + 2) (by omega),
      iter_beyond _ (s + 1) (s + 3 - j.val) (by omega)]
    have e : s + 3 - j.val = s + 2 := by omega
    rw [e]
  · obtain ⟨p, hp⟩ : ∃ p : Fin (s + 1), j.val = 2 + p.val := ⟨⟨j.val - 2, by omega⟩, by show j.val = 2 + (j.val - 2); omega⟩
    rw [canon_rows_miss (Val := Elt Ideal) (e := .f32) 1 1 inbK pk _ j q (by omega),
      canon_rows_hit (Val := Elt Ideal) (e := .f32) 2 (s + 1) inbR pr La j q p hp, hpr,
      iter_succ, step_inside (by omega : 1 ≤ s + 3 - j.val) (by omega), iter_beyond _ s (s + 2) (by omega)]
    have e1 : s + 3 - j.val = s + 1 - p.val := by omega
    have e2 : s + 2 - (s + 1 - p.val) = 1 + p.val := by omega
    rw [e1, e2]

end order

section readback

variable {M N : ℕ} {sig : RefSig} {κ : Kind} {sp : Space}

/-- Order m = s+2 on the running rows, in the form the body computes it: the rows and the mirror are loaded back
    from what the earlier stores left, the coefficient row m is repeated down the band. -/
theorem stepO (s L m : ℕ) (hL : L = s + 1) (hm : m = s + 2) (hM : m < M)
    (v2 v3 : View sig κ sp ⟨2, ![M, N]⟩ .f32)
    (Lo La : List (View.Piece (Elt Ideal) ⟨2, ![M, N]⟩ .f32)) (row : Fin N → ℕ → EReal)
    (inbA : ∀ a, (![1, 0] : Fin 2 → ℕ) a + (![L, N] : Fin 2 → ℕ) a ≤ (⟨2, ![M, N]⟩ : Shape).size a)
    (inbK : ∀ a, (![m, 0] : Fin 2 → ℕ) a + (![1, N] : Fin 2 → ℕ) a ≤ (⟨2, ![M, N]⟩ : Shape).size a)
    (hb : (⟨2, ![1, N]⟩ : Shape).Broadcasts ⟨2, ![L, N]⟩)
    (hc1 : (⟨2, ![1, N]⟩ : Shape).ShapeCasts ⟨2, ![1, N]⟩) (hcL : (⟨2, ![L, N]⟩ : Shape).ShapeCasts ⟨2, ![L, N]⟩)
    (hO : ∀ (j : Fin M) (q : Fin N), View.canon Lo (ix2 j q) = iter (row q) s j.val)
    (hAR : ∀ (j : Fin M) (q : Fin N), 1 ≤ j.val → j.val < s + 2 → View.canon La (ix2 j q) = iter (row q) s (s + 2 - j.val)) :
    ∀ (j : Fin M) (q : Fin N),
      View.canon (⟨Rect.unit (s := ⟨2, ![M, N]⟩) ![1, 0] ![L, N] inbA,
        addf (F := Ideal) (φ := .f32)
          (shapeCast (s := ⟨2, ![L, N]⟩) ⟨2, ![L, N]⟩ (v2.readCov Lo (Rect.unit (s := ⟨2, ![M, N]⟩) ![1, 0] ![L, N] inbA).toLoadRect) hcL)
          (mulf (broadcastTo ⟨2, ![L, N]⟩
              (shapeCast (s := ⟨2, ![1, N]⟩) ⟨2, ![1, N]⟩ (v2.readCov Lo (Rect.unit (s := ⟨2, ![M, N]⟩) ![m, 0] ![1, N] inbK).toLoadRect) hc1) hb)
            (v3.readCov La (Rect.unit (s := ⟨2, ![M, N]⟩) ![1, 0] ![L, N] inbA).toLoadRect))⟩ :: Lo) (ix2 j q)
        = iter (row q) (s + 1) j.val := by
  subst hL hm
  refine stepO_core s (s + 1) rfl inbA Lo row _ _ _ hO (fun p q => ?_) (fun p q => ?_) (fun p q => ?_)
  · rw [shapeCast_self, readCov_rows v2 Lo 1 (s + 1) inbA p q ⟨1 + p.val, by omega⟩ rfl, hO]
  · rw [readCov_rows v3 La 1 (s + 1) inbA p q ⟨1 + p.val, by omega⟩ rfl,
      hAR _ q (by show 1 ≤ 1 + p.val; omega) (by show 1 + p.val < s + 2; omega)]
    show iter (row q) s (s + 2 - (1 + p.val)) = _
    have e : s + 2 - (1 + p.val) = s + 1 - p.val := by omega
    rw [e]
  · rw [bcastRow_apply, shapeCast_self, readCov_rows v2 Lo (s + 2) 1 inbK 0 q ⟨s + 2, hM⟩ rfl, hO]

/-- Order m = s+2 on the mirror buffer, in the form the body computes it. -/
theorem stepAR (s L m : ℕ) (hL : L = s + 1) (hm : m = s + 2) (hM : m < M)
    (v2 v3 : View sig κ sp ⟨2, ![M, N]⟩ .f32)
    (Lo La : List (View.Piece (Elt Ideal) ⟨2, ![M, N]⟩ .f32)) (row : Fin N → ℕ → EReal)
    (inbA : ∀ a, (![1, 0] : Fin 2 → ℕ) a + (![L, N] : Fin 2 → ℕ) a ≤ (⟨2, ![M, N]⟩ : Shape).size a)
    (inbK : ∀ a, (![m, 0] : Fin 2 → ℕ) a + (![1, N] : Fin 2 → ℕ) a ≤ (⟨2, ![M, N]⟩ : Shape).size a)
    (inbK1 : ∀ a, (![1, 0] : Fin 2 → ℕ) a + (![1, N] : Fin 2 → ℕ) a ≤ (⟨2, ![M, N]⟩ : Shape).size a)
    (inbR : ∀ a, (![2, 0] : Fin 2 → ℕ) a + (![L, N] : Fin 2 → ℕ) a ≤ (⟨2, ![M, N]⟩ : Shape).size a)
    (hb : (⟨2, ![1, N]⟩ : Shape).Broadcasts ⟨2, ![L, N]⟩)
    (hc1 hc1' hc1'' : (⟨2, ![1, N]⟩ : Shape).ShapeCasts ⟨2, ![1, N]⟩)
    (hcL hcL' : (⟨2, ![L, N]⟩ : Shape).ShapeCasts ⟨2, ![L, N]⟩)
    (hO : ∀ (j : Fin M) (q : Fin N), View.canon Lo (ix2 j q) = iter (row q) s j.val)
    (hAR : ∀ (j : Fin M) (q : Fin N), 1 ≤ j.val → j.val < s + 2 → View.canon La (ix2 j q) = iter (row q) s (s + 2 - j.val)) :
    ∀ (j : Fin M) (q : Fin N), 1 ≤ j.val → j.val < s + 3 →
      View.canon (⟨Rect.unit (s := ⟨2, ![M, N]⟩) ![1, 0] ![1, N] inbK1,
          shapeCast (s := ⟨2, ![1, N]⟩) ⟨2, ![1, N]⟩ (shapeCast (s := ⟨2, ![1, N]⟩) ⟨2, ![1, N]⟩
            (v2.readCov Lo (Rect.unit (s := ⟨2, ![M, N]⟩) ![m, 0] ![1, N] inbK).toLoadRect) hc1) hc1'⟩
        :: ⟨Rect.unit (s := ⟨2, ![M, N]⟩) ![2, 0] ![L, N] inbR,
          shapeCast (s := ⟨2, ![L, N]⟩) ⟨2, ![L, N]⟩ (addf (F := Ideal) (φ := .f32)
            (v3.readCov La (Rect.unit (s := ⟨2, ![M, N]⟩) ![1, 0] ![L, N] inbA).toLoadRect)
            (mulf (broadcastTo ⟨2, ![L, N]⟩
                (shapeCast (s := ⟨2, ![1, N]⟩) ⟨2, ![1, N]⟩ (v2.readCov Lo (Rect.unit (s := ⟨2, ![M, N]⟩) ![m, 0] ![1, N] inbK).toLoadRect) hc1'') hb)
              (shapeCast (s := ⟨2, ![L, N]⟩) ⟨2, ![L, N]⟩ (v2.readCov Lo (Rect.unit (s := ⟨2, ![M, N]⟩) ![1, 0] ![L, N] inbA).toLoadRect) hcL))) hcL'⟩
        :: La) (ix2 j q)
        = iter (row q) (s + 1) (s + 3 - j.val) := by
  subst hL hm
  refine stepAR_core s (s + 1) rfl inbK1 inbR La row _ _ (fun q => ?_) (fun p q => ?_)
  · rw [shapeCast_self, shapeCast_self, readCov_rows v2 Lo (s + 2) 1 inbK 0 q ⟨s + 2, hM⟩ rfl, hO]
  · rw [shapeCast_self]
    rw [addf_apply, mulf_apply, bcastRow_apply, shapeCast_self, shapeCast_self,
      readCov_rows v3 La 1 (s + 1) inbA p q ⟨1 + p.val, by omega⟩ rfl,
      readCov_rows v2 Lo (s + 2) 1 inbK 0 q ⟨s + 2, hM⟩ rfl,
      readCov_rows v2 Lo 1 (s + 1) inbA p q ⟨1 + p.val, by omega⟩ rfl, hO, hO,
      hAR _ q (by show 1 ≤ 1 + p.val; omega) (by show 1 + p.val < s + 2; omega)]
    show iter (row q) s (s + 2 - (1 + p.val)) + _ = _
    have e : s + 2 - (1 + p.val) = s + 1 - p.val := by omega
    rw [e]

/-- The first order (m = 2): the band is one row, so the coefficient row is used as it is. -/
theorem stepO_first (hM : 2 < M)
    (v2 v3 : View sig κ sp ⟨2, ![M, N]⟩ .f32)
    (Lo La : List (View.Piece (Elt Ideal) ⟨2, ![M, N]⟩ .f32)) (row : Fin N → ℕ → EReal)
    (inbA : ∀ a, (![1, 0] : Fin 2 → ℕ) a + (![1, N] : Fin 2 → ℕ) a ≤ (⟨2, ![M, N]⟩ : Shape).size a)
    (inbK : ∀ a, (![2, 0] : Fin 2 → ℕ) a + (![1, N] : Fin 2 → ℕ) a ≤ (⟨2, ![M, N]⟩ : Shape).size a)
    (hc1 hc1' : (⟨2, ![1, N]⟩ : Shape).ShapeCasts ⟨2, ![1, N]⟩)
    (hO : ∀ (j : Fin M) (q : Fin N), View.canon Lo (ix2 j q) = iter (row q) 0 j.val)
    (hAR : ∀ (j : Fin M) (q : Fin N), 1 ≤ j.val → j.val < 0 + 2 → View.canon La (ix2 j q) = iter (row q) 0 (0 + 2 - j.val)) :
    ∀ (j : Fin M) (q : Fin N),
      View.canon (⟨Rect.unit (s := ⟨2, ![M, N]⟩) ![1, 0] ![1, N] inbA,
        addf (F := Ideal) (φ := .f32)
          (shapeCast (s := ⟨2, ![1, N]⟩) ⟨2, ![1, N]⟩ (v2.readCov Lo (Rect.unit (s := ⟨2, ![M, N]⟩) ![1, 0] ![1, N] inbA).toLoadRect) hc1)
          (mulf (shapeCast (s := ⟨2, ![1, N]⟩) ⟨2, ![1, N]⟩ (v2.readCov Lo (Rect.unit (s := ⟨2, ![M, N]⟩) ![2, 0] ![1, N] inbK).toLoadRect) hc1')
            (v3.readCov La (Rect.unit (s := ⟨2, ![M, N]⟩) ![1, 0] ![1, N] inbA).toLoadRect))⟩ :: Lo) (ix2 j q)
        = iter (row q) (0 + 1) j.val := by
  refine stepO_core 0 1 rfl inbA Lo row _ _ _ hO (fun p q => ?_) (fun p q => ?_) (fun p q => ?_)
  · rw [shapeCast_self, readCov_rows v2 Lo 1 1 inbA p q ⟨1 + p.val, by omega⟩ rfl, hO]
  · rw [readCov_rows v3 La 1 1 inbA p q ⟨1 + p.val, by omega⟩ rfl,
      hAR _ q (by show 1 ≤ 1 + p.val; omega) (by show 1 + p.val < 0 + 2; omega)]
    show iter (row q) 0 (0 + 2 - (1 + p.val)) = _
    have e : 0 + 2 - (1 + p.val) = 0 + 1 - p.val := by omega
    rw [e]
  · have hp : p = 0 := Fin.ext (by have := p.isLt; omega)
    subst hp
    rw [shapeCast_self, readCov_rows v2 Lo 2 1 inbK 0 q ⟨2, hM⟩ rfl, hO]

theorem stepAR_first (hM : 2 < M)
    (v2 v3 : View sig κ sp ⟨2, ![M, N]⟩ .f32)
    (Lo La : List (View.Piece (Elt Ideal) ⟨2, ![M, N]⟩ .f32)) (row : Fin N → ℕ → EReal)
    (inbA : ∀ a, (![1, 0] : Fin 2 → ℕ) a + (![1, N] : Fin 2 → ℕ) a ≤ (⟨2, ![M, N]⟩ : Shape).size a)
    (inbK : ∀ a, (![2, 0] : Fin 2 → ℕ) a + (![1, N] : Fin 2 → ℕ) a ≤ (⟨2, ![M, N]⟩ : Shape).size a)
    (inbR : ∀ a, (![2, 0] : Fin 2 → ℕ) a + (![1, N] : Fin 2 → ℕ) a ≤ (⟨2, ![M, N]⟩ : Shape).size a)
    (hc1 hc1' hc1'' hc1''' hc1'''' : (⟨2, ![1, N]⟩ : Shape).ShapeCasts ⟨2, ![1, N]⟩)
    (hO : ∀ (j : Fin M) (q : Fin N), View.canon Lo (ix2 j q) = iter (row q) 0 j.val)
    (hAR : ∀ (j : Fin M) (q : Fin N), 1 ≤ j.val → j.val < 0 + 2 → View.canon La (ix2 j q) = iter (row q) 0 (0 + 2 - j.val)) :
    ∀ (j : Fin M) (q : Fin N), 1 ≤ j.val → j.val < 0 + 3 →
      View.canon (⟨Rect.unit (s := ⟨2, ![M, N]⟩) ![1, 0] ![1, N] inbA,
          shapeCast (s := ⟨2, ![1, N]⟩) ⟨2, ![1, N]⟩ (shapeCast (s := ⟨2, ![1, N]⟩) ⟨2, ![1, N]⟩
            (v2.readCov Lo (Rect.unit (s := ⟨2, ![M, N]⟩) ![2, 0] ![1, N] inbK).toLoadRect) hc1) hc1'⟩
        :: ⟨Rect.unit (s := ⟨2, ![M, N]⟩) ![2, 0] ![1, N] inbR,
          shapeCast (s := ⟨2, ![1, N]⟩) ⟨2, ![1, N]⟩ (addf (F := Ideal) (φ := .f32)
            (v3.readCov La (Rect.unit (s := ⟨2, ![M, N]⟩) ![1, 0] ![1, N] inbA).toLoadRect)
            (mulf (shapeCast (s := ⟨2, ![1, N]⟩) ⟨2, ![1, N]⟩ (v2.readCov Lo (Rect.unit (s := ⟨2, ![M, N]⟩) ![2, 0] ![1, N] inbK).toLoadRect) hc1'')
              (shapeCast (s := ⟨2, ![1, N]⟩) ⟨2, ![1, N]⟩ (v2.readCov Lo (Rect.unit (s := ⟨2, ![M, N]⟩) ![1, 0] ![1, N] inbA).toLoadRect) hc1'''))) hc1''''⟩
        :: La) (ix2 j q)
        = iter (row q) (0 + 1) (0 + 3 - j.val) := by
  refine stepAR_core 0 1 rfl inbA inbR La row _ _ (fun q => ?_) (fun p q => ?_)
  · rw [shapeCast_self, shapeCast_self, readCov_rows v2 Lo 2 1 inbK 0 q ⟨2, hM⟩ rfl, hO]
  · have hp : p = 0 := Fin.ext (by have := p.isLt; omega)
    subst hp
    rw [shapeCast_self]
    rw [addf_apply, mulf_apply, shapeCast_self, shapeCast_self,
      readCov_rows v3 La 1 1 inbA 0 q ⟨1, by omega⟩ rfl,
      readCov_rows v2 Lo 2 1 inbK 0 q ⟨2, hM⟩ rfl,
      readCov_rows v2 Lo 1 1 inbA 0 q ⟨1, by omega⟩ rfl, hO, hO,
      hAR _ q (by show 1 ≤ 1; omega) (by show 1 < 0 + 2; omega)]
    rfl

end readback

end Cert.Lpc

end
-- ==== Proof.KerBody.lean ====
/-
  The kernel's body on one block of 32768 columns, read off the stores its run leaves.  The block is laid out with the
  33 entries of a row down a column.  Two buffers are written band by band: the running rows, and a mirror that keeps
  the current window reversed so that no reversal is ever computed.  Before order m = s+2 the running rows hold each
  column after s orders, and rows 1 … s+1 of the mirror hold entries s+1 … 1 of it; order m keeps both facts, with s+1
  in place of s.  After order 32 the running rows hold every column after all 31 orders.
-/
import proofs.«100385_j55009941127436_2_alg».proof.Proof.Gen.KernelIdeal.Frame
import proofs.«100385_j55009941127436_2_alg».proof.Proof.KerRows

set_option maxRecDepth 16384

noncomputable section

namespace Cert.KernelIdeal.Body

open Idealize.ShloMosaic Idealize.ShloMosaic.ValueIdx Cert.KernelIdeal Cert.KernelIdeal.Gen Cert.Lpc

/-- Column q of a [33, 32768] block as a row of 33 entries (zero beyond them, which nothing reads). -/
def colRow (x0 : Vec Ideal S33x32768 .f32) (q : Fin 32768) : ℕ → EReal :=
  fun j => if h : j < 33 then x0 (ix2 ⟨j, h⟩ q) else 0

theorem colRow_lt (x0 : Vec Ideal S33x32768 .f32) (q : Fin 32768) (j : Fin 33) : colRow x0 q j.val = x0 (ix2 j q) := by
  unfold colRow; rw [dif_pos j.isLt]

section body

variable (c : Dev nD) (i : grid0.Coords)
  (arg1 : Memref sig .tc .vmem S33x32768 .f32) (harg1 : arg1.IsWhole)
  (arg2 : Memref sig .tc .vmem S33x32768 .f32) (harg2 : arg2.IsWhole)
  (arg3 : Memref sig .tc .vmem S33x32768 .f32) (harg3 : arg3.IsWhole)
  (x0 : Vec Ideal S33x32768 .f32)

/-- Before the first order: the running rows are the block divided by 1.0, and the mirror is a copy of them. -/
theorem inv0 : (∀ (j : Fin 33) (q : Fin 32768), View.canon (kernelRun0_A.sl.H1_1 c arg1 harg1 x0) (ix2 j q) = iter (colRow x0 q) 0 j.val)
    ∧ (∀ (j : Fin 33) (q : Fin 32768), 1 ≤ j.val → j.val < 0 + 2 →
        View.canon (kernelRun0_A.sl.HS0_1 c arg1 harg1 arg2 x0) (ix2 j q) = iter (colRow x0 q) 0 (0 + 2 - j.val)) := by
  have hz : (![0, 0] : Fin 2 → Nat) = fun _ => 0 := funext fun a => by fin_cases a <;> rfl
  have hO : ∀ (j : Fin 33) (q : Fin 32768), View.canon (kernelRun0_A.sl.H1_1 c arg1 harg1 x0) (ix2 j q) = x0 (ix2 j q) := by
    intro j q
    refine (canon_rows_hit (Val := Elt Ideal) (e := .f32) (M := 33) (N := 32768) 0 33 inb_S33x32768_S33x32768_0_0 _ [] j q j (by omega)).trans ?_
    show Ideal.div _ (Ideal.ofBits .f32 0x3F800000#32) = _
    rw [div_one_f32]
    refine (congrFun (shapeCast_self (s := S33x32768) _ shapeCasts_S33x32768_S33x32768) (ix2 j q)).trans ?_
    rw [View.readAt_eq_ld, harg1.read_unread, View.ld_unit_zero (S := S33x32768) hz]
  refine ⟨fun j q => (hO j q).trans (colRow_lt x0 q j).symm, fun j q h1 h2 => ?_⟩
  refine (canon_rows_hit (Val := Elt Ideal) (e := .f32) (M := 33) (N := 32768) 0 33 inb_S33x32768_S33x32768_0_0 _ [] j q j (by omega)).trans ?_
  unfold k0_pay5
  rw [shapeCast_self, shapeCast_self]
  unfold kernelRun0_A.sl.v5
  refine (readCov_rows (M := 33) (N := 32768) arg2.view (kernelRun0_A.sl.H1_1 c arg1 harg1 x0) 0 33 inb_S33x32768_S33x32768_0_0 j q j (by omega)).trans ?_
  rw [hO]
  have e : 0 + 2 - j.val = j.val := by omega
  show _ = colRow x0 q (0 + 2 - j.val)
  rw [e, colRow_lt]

/-- After order 2. -/
theorem inv1 : (∀ (j : Fin 33) (q : Fin 32768), View.canon (kernelRun0_A.sl.H1_2 c arg1 harg1 arg2 arg3 x0) (ix2 j q) = iter (colRow x0 q) 1 j.val)
    ∧ (∀ (j : Fin 33) (q : Fin 32768), 1 ≤ j.val → j.val < 1 + 2 →
        View.canon (kernelRun0_A.sl.HS0_3 c arg1 harg1 arg2 arg3 x0) (ix2 j q) = iter (colRow x0 q) 1 (1 + 2 - j.val)) := by
  have hO := (inv0 c arg1 harg1 arg2 x0).1
  have hA := (inv0 c arg1 harg1 arg2 x0).2
  refine ⟨fun j q => ?_, fun j q h1 h2 => ?_⟩
  · unfold kernelRun0_A.sl.H1_2
    exact stepO_first (M := 33) (N := 32768) (by omega) arg2.view arg3.view (kernelRun0_A.sl.H1_1 c arg1 harg1 x0) (kernelRun0_A.sl.HS0_1 c arg1 harg1 arg2 x0) (colRow x0)
      inb_S33x32768_S1x32768_1_0 inb_S33x32768_S1x32768_2_0 shapeCasts_S1x32768_S1x32768 shapeCasts_S1x32768_S1x32768 hO hA j q
  · unfold kernelRun0_A.sl.HS0_3
    exact stepAR_first (M := 33) (N := 32768) (by omega) arg2.view arg3.view (kernelRun0_A.sl.H1_1 c arg1 harg1 x0) (kernelRun0_A.sl.HS0_1 c arg1 harg1 arg2 x0) (colRow x0)
      inb_S33x32768_S1x32768_1_0 inb_S33x32768_S1x32768_2_0 inb_S33x32768_S1x32768_2_0
      shapeCasts_S1x32768_S1x32768 shapeCasts_S1x32768_S1x32768 shapeCasts_S1x32768_S1x32768 shapeCasts_S1x32768_S1x32768 shapeCasts_S1x32768_S1x32768
      hO hA j q h1 h2

/-- After order 3. -/
theorem inv2 : (∀ (j : Fin 33) (q : Fin 32768), View.canon (kernelRun0_A.sl.H1_3 c arg1 harg1 arg2 arg3 x0) (ix2 j q) = iter (colRow x0 q) 2 j.val)
    ∧ (∀ (j : Fin 33) (q : Fin 32768), 1 ≤ j.val → j.val < 2 + 2 →
        View.canon (kernelRun0_A.sl.HS0_5 c arg1 harg1 arg2 arg3 x0) (ix2 j q) = iter (colRow x0 q) 2 (2 + 2 - j.val)) := by
  have hO := (inv1 c arg1 harg1 arg2 arg3 x0).1
  have hA := (inv1 c arg1 harg1 arg2 arg3 x0).2
  refine ⟨fun j q => ?_, fun j q h1 h2 => ?_⟩
  · unfold kernelRun0_A.sl.H1_3
    exact stepO (M := 33) (N := 32768) 1 2 3 rfl rfl (by omega) arg2.view arg3.view (kernelRun0_A.sl.H1_2 c arg1 harg1 arg2 arg3 x0) (kernelRun0_A.sl.HS0_3 c arg1 harg1 arg2 arg3 x0) (colRow x0)
      inb_S33x32768_S2x32768_1_0 inb_S33x32768_S1x32768_3_0 broadcasts_S1x32768_S2x32768
      shapeCasts_S1x32768_S1x32768 shapeCasts_S2x32768_S2x32768 hO hA j q
  · unfold kernelRun0_A.sl.HS0_5
    exact stepAR (M := 33) (N := 32768) 1 2 3 rfl rfl (by omega) arg2.view arg3.view (kernelRun0_A.sl.H1_2 c arg1 harg1 arg2 arg3 x0) (kernelRun0_A.sl.HS0_3 c arg1 harg1 arg2 arg3 x0) (colRow x0)
      inb_S33x32768_S2x32768_1_0 inb_S33x32768_S1x32768_3_0 inb_S33x32768_S1x32768_1_0 inb_S33x32768_S2x32768_2_0
      broadcasts_S1x32768_S2x32768 shapeCasts_S1x32768_S1x32768 shapeCasts_S1x32768_S1x32768 shapeCasts_S1x32768_S1x32768
      shapeCasts_S2x32768_S2x32768 shapeCasts_S2x32768_S2x32768 hO hA j q h1 h2

/-- After order 4. -/
theorem inv3 : (∀ (j : Fin 33) (q : Fin 32768), View.canon (kernelRun0_A.sl.H1_4 c arg1 harg1 arg2 arg3 x0) (ix2 j q) = iter (colRow x0 q) 3 j.val)
    ∧ (∀ (j : Fin 33) (q : Fin 32768), 1 ≤ j.val → j.val < 3 + 2 →
        View.canon (kernelRun0_A.sl.HS0_7 c arg1 harg1 arg2 arg3 x0) (ix2 j q) = iter (colRow x0 q) 3 (3 + 2 - j.val)) := by
  have hO := (inv2 c arg1 harg1 arg2 arg3 x0).1
  have hA := (inv2 c arg1 harg1 arg2 arg3 x0).2
  refine ⟨fun j q => ?_, fun j q h1 h2 => ?_⟩
  · unfold kernelRun0_A.sl.H1_4
    exact stepO (M := 33) (N := 32768) 2 3 4 rfl rfl (by omega) arg2.view arg3.view (kernelRun0_A.sl.H1_3 c arg1 harg1 arg2 arg3 x0) (kernelRun0_A.sl.HS0_5 c arg1 harg1 arg2 arg3 x0) (colRow x0)
      inb_S33x32768_S3x32768_1_0 inb_S33x32768_S1x32768_4_0 broadcasts_S1x32768_S3x32768
      shapeCasts_S1x32768_S1x32768 shapeCasts_S3x32768_S3x32768 hO hA j q
  · unfold kernelRun0_A.sl.HS0_7
    exact stepAR (M := 33) (N := 32768) 2 3 4 rfl rfl (by omega) arg2.view arg3.view (kernelRun0_A.sl.H1_3 c arg1 harg1 arg2 arg3 x0) (kernelRun0_A.sl.HS0_5 c arg1 harg1 arg2 arg3 x0) (colRow x0)
      inb_S33x32768_S3x32768_1_0 inb_S33x32768_S1x32768_4_0 inb_S33x32768_S1x32768_1_0 inb_S33x32768_S3x32768_2_0
      broadcasts_S1x32768_S3x32768 shapeCasts_S1x32768_S1x32768 shapeCasts_S1x32768_S1x32768 shapeCasts_S1x32768_S1x32768
      shapeCasts_S3x32768_S3x32768 shapeCasts_S3x32768_S3x32768 hO hA j q h1 h2

/-- After order 5. -/
theorem inv4 : (∀ (j : Fin 33) (q : Fin 32768), View.canon (kernelRun0_A.sl.H1_5 c arg1 harg1 arg2 arg3 x0) (ix2 j q) = iter (colRow x0 q) 4 j.val)
    ∧ (∀ (j : Fin 33) (q : Fin 32768), 1 ≤ j.val → j.val < 4 + 2 →
        View.canon (kernelRun0_A.sl.HS0_9 c arg1 harg1 arg2 arg3 x0) (ix2 j q) = iter (colRow x0 q) 4 (4 + 2 - j.val)) := by
  have hO := (inv3 c arg1 harg1 arg2 arg3 x0).1
  have hA := (inv3 c arg1 harg1 arg2 arg3 x0).2
  refine ⟨fun j q => ?_, fun j q h1 h2 => ?_⟩
  · unfold kernelRun0_A.sl.H1_5
    exact stepO (M := 33) (N := 32768) 3 4 5 rfl rfl (by omega) arg2.view arg3.view (kernelRun0_A.sl.H1_4 c arg1 harg1 arg2 arg3 x0) (kernelRun0_A.sl.HS0_7 c arg1 harg1 arg2 arg3 x0) (colRow x0)
      inb_S33x32768_S4x32768_1_0 inb_S33x32768_S1x32768_5_0 broadcasts_S1x32768_S4x32768
      shapeCasts_S1x32768_S1x32768 shapeCasts_S4x32768_S4x32768 hO hA j q
  · unfold kernelRun0_A.sl.HS0_9
    exact stepAR (M := 33) (N := 32768) 3 4 5 rfl rfl (by omega) arg2.view arg3.view (kernelRun0_A.sl.H1_4 c arg1 harg1 arg2 arg3 x0) (kernelRun0_A.sl.HS0_7 c arg1 harg1 arg2 arg3 x0) (colRow x0)
      inb_S33x32768_S4x32768_1_0 inb_S33x32768_S1x32768_5_0 inb_S33x32768_S1x32768_1_0 inb_S33x32768_S4x32768_2_0
      broadcasts_S1x32768_S4x32768 shapeCasts_S1x32768_S1x32768 shapeCasts_S1x32768_S1x32768 shapeCasts_S1x32768_S1x32768
      shapeCasts_S4x32768_S4x32768 shapeCasts_S4x32768_S4x32768 hO hA j q h1 h2

/-- After order 6. -/
theorem inv5 : (∀ (j : Fin 33) (q : Fin 32768), View.canon (kernelRun0_A.sl.H1_6 c arg1 harg1 arg2 arg3 x0) (ix2 j q) = iter (colRow x0 q) 5 j.val)
    ∧ (∀ (j : Fin 33) (q : Fin 32768), 1 ≤ j.val → j.val < 5 + 2 →
        View.canon (kernelRun0_A.sl.HS0_11 c arg1 harg1 arg2 arg3 x0) (ix2 j q) = iter (colRow x0 q) 5 (5 + 2 - j.val)) := by
  have hO := (inv4 c arg1 harg1 arg2 arg3 x0).1
  have hA := (inv4 c arg1 harg1 arg2 arg3 x0).2
  refine ⟨fun j q => ?_, fun j q h1 h2 => ?_⟩
  · unfold kernelRun0_A.sl.H1_6
    exact stepO (M := 33) (N := 32768) 4 5 6 rfl rfl (by omega) arg2.view arg3.view (kernelRun0_A.sl.H1_5 c arg1 harg1 arg2 arg3 x0) (kernelRun0_A.sl.HS0_9 c arg1 harg1 arg2 arg3 x0) (colRow x0)
      inb_S33x32768_S5x32768_1_0 inb_S33x32768_S1x32768_6_0 broadcasts_S1x32768_S5x32768
      shapeCasts_S1x32768_S1x32768 shapeCasts_S5x32768_S5x32768 hO hA j q
  · unfold kernelRun0_A.sl.HS0_11
    exact stepAR (M := 33) (N := 32768) 4 5 6 rfl rfl (by omega) arg2.view arg3.view (kernelRun0_A.sl.H1_5 c arg1 harg1 arg2 arg3 x0) (kernelRun0_A.sl.HS0_9 c arg1 harg1 arg2 arg3 x0) (colRow x0)
      inb_S33x32768_S5x32768_1_0 inb_S33x32768_S1x32768_6_0 inb_S33x32768_S1x32768_1_0 inb_S33x32768_S5x32768_2_0
      broadcasts_S1x32768_S5x32768 shapeCasts_S1x32768_S1x32768 shapeCasts_S1x32768_S1x32768 shapeCasts_S1x32768_S1x32768
      shapeCasts_S5x32768_S5x32768 shapeCasts_S5x32768_S5x32768 hO hA j q h1 h2

/-- After order 7. -/
theorem inv6 : (∀ (j : Fin 33) (q : Fin 32768), View.canon (kernelRun0_A.sl.H1_7 c arg1 harg1 arg2 arg3 x0) (ix2 j q) = iter (colRow x0 q) 6 j.val)
    ∧ (∀ (j : Fin 33) (q : Fin 32768), 1 ≤ j.val → j.val < 6 + 2 →
        View.canon (kernelRun0_A.sl.HS0_13 c arg1 harg1 arg2 arg3 x0) (ix2 j q) = iter (colRow x0 q) 6 (6 + 2 - j.val)) := by
  have hO := (inv5 c arg1 harg1 arg2 arg3 x0).1
  have hA := (inv5 c arg1 harg1 arg2 arg3 x0).2
  refine ⟨fun j q => ?_, fun j q h1 h2 => ?_⟩
  · unfold kernelRun0_A.sl.H1_7
    exact stepO (M := 33) (N := 32768) 5 6 7 rfl rfl (by omega) arg2.view arg3.view (kernelRun0_A.sl.H1_6 c arg1 harg1 arg2 arg3 x0) (kernelRun0_A.sl.HS0_11 c arg1 harg1 arg2 arg3 x0) (colRow x0)
      inb_S33x32768_S6x32768_1_0 inb_S33x32768_S1x32768_7_0 broadcasts_S1x32768_S6x32768
      shapeCasts_S1x32768_S1x32768 shapeCasts_S6x32768_S6x32768 hO hA j q
  · unfold kernelRun0_A.sl.HS0_13
    exact stepAR (M := 33) (N := 32768) 5 6 7 rfl rfl (by omega) arg2.view arg3.view (kernelRun0_A.sl.H1_6 c arg1 harg1 arg2 arg3 x0) (kernelRun0_A.sl.HS0_11 c arg1 harg1 arg2 arg3 x0) (colRow x0)
      inb_S33x32768_S6x32768_1_0 inb_S33x32768_S1x32768_7_0 inb_S33x32768_S1x32768_1_0 inb_S33x32768_S6x32768_2_0
      broadcasts_S1x32768_S6x32768 shapeCasts_S1x32768_S1x32768 shapeCasts_S1x32768_S1x32768 shapeCasts_S1x32768_S1x32768
      shapeCasts_S6x32768_S6x32768 shapeCasts_S6x32768_S6x32768 hO hA j q h1 h2

/-- After order 8. -/
theorem inv7 : (∀ (j : Fin 33) (q : Fin 32768), View.canon (kernelRun0_A.sl.H1_8 c arg1 harg1 arg2 arg3 x0) (ix2 j q) = iter (colRow x0 q) 7 j.val)
    ∧ (∀ (j : Fin 33) (q : Fin 32768), 1 ≤ j.val → j.val < 7 + 2 →
        View.canon (kernelRun0_A.sl.HS0_15 c arg1 harg1 arg2 arg3 x0) (ix2 j q) = iter (colRow x0 q) 7 (7 + 2 - j.val)) := by
  have hO := (inv6 c arg1 harg1 arg2 arg3 x0).1
  have hA := (inv6 c arg1 harg1 arg2 arg3 x0).2
  refine ⟨fun j q => ?_, fun j q h1 h2 => ?_⟩
  · unfold kernelRun0_A.sl.H1_8
    exact stepO (M := 33) (N := 32768) 6 7 8 rfl rfl (by omega) arg2.view arg3.view (kernelRun0_A.sl.H1_7 c arg1 harg1 arg2 arg3 x0) (kernelRun0_A.sl.HS0_13 c arg1 harg1 arg2 arg3 x0) (colRow x0)
      inb_S33x32768_S7x32768_1_0 inb_S33x32768_S1x32768_8_0 broadcasts_S1x32768_S7x32768
      shapeCasts_S1x32768_S1x32768 shapeCasts_S7x32768_S7x32768 hO hA j q
  · unfold kernelRun0_A.sl.HS0_15
    exact stepAR (M := 33) (N := 32768) 6 7 8 rfl rfl (by omega) arg2.view arg3.view (kernelRun0_A.sl.H1_7 c arg1 harg1 arg2 arg3 x0) (kernelRun0_A.sl.HS0_13 c arg1 harg1 arg2 arg3 x0) (colRow x0)
      inb_S33x32768_S7x32768_1_0 inb_S33x32768_S1x32768_8_0 inb_S33x32768_S1x32768_1_0 inb_S33x32768_S7x32768_2_0
      broadcasts_S1x32768_S7x32768 shapeCasts_S1x32768_S1x32768 shapeCasts_S1x32768_S1x32768 shapeCasts_S1x32768_S1x32768
      shapeCasts_S7x32768_S7x32768 shapeCasts_S7x32768_S7x32768 hO hA j q h1 h2

/-- After order 9. -/
theorem inv8 : (∀ (j : Fin 33) (q : Fin 32768), View.canon (kernelRun0_A.sl.H1_9 c arg1 harg1 arg2 arg3 x0) (ix2 j q) = iter (colRow x0 q) 8 j.val)
    ∧ (∀ (j : Fin 33) (q : Fin 32768), 1 ≤ j.val → j.val < 8 + 2 →
        View.canon (kernelRun0_A.sl.HS0_17 c arg1 harg1 arg2 arg3 x0) (ix2 j q) = iter (colRow x0 q) 8 (8 + 2 - j.val)) := by
  have hO := (inv7 c arg1 harg1 arg2 arg3 x0).1
  have hA := (inv7 c arg1 harg1 arg2 arg3 x0).2
  refine ⟨fun j q => ?_, fun j q h1 h2 => ?_⟩
  · unfold kernelRun0_A.sl.H1_9
    exact stepO (M := 33) (N := 32768) 7 8 9 rfl rfl (by omega) arg2.view arg3.view (kernelRun0_A.sl.H1_8 c arg1 harg1 arg2 arg3 x0) (kernelRun0_A.sl.HS0_15 c arg1 harg1 arg2 arg3 x0) (colRow x0)
      inb_S33x32768_S8x32768_1_0 inb_S33x32768_S1x32768_9_0 broadcasts_S1x32768_S8x32768
      shapeCasts_S1x32768_S1x32768 shapeCasts_S8x32768_S8x32768 hO hA j q
  · unfold kernelRun0_A.sl.HS0_17
    exact stepAR (M := 33) (N := 32768) 7 8 9 rfl rfl (by omega) arg2.view arg3.view (kernelRun0_A.sl.H1_8 c arg1 harg1 arg2 arg3 x0) (kernelRun0_A.sl.HS0_15 c arg1 harg1 arg2 arg3 x0) (colRow x0)
      inb_S33x32768_S8x32768_1_0 inb_S33x32768_S1x32768_9_0 inb_S33x32768_S1x32768_1_0 inb_S33x32768_S8x32768_2_0
      broadcasts_S1x32768_S8x32768 shapeCasts_S1x32768_S1x32768 shapeCasts_S1x32768_S1x32768 shapeCasts_S1x32768_S1x32768
      shapeCasts_S8x32768_S8x32768 shapeCasts_S8x32768_S8x32768 hO hA j q h1 h2

/-- After order 10. -/
theorem inv9 : (∀ (j : Fin 33) (q : Fin 32768), View.canon (kernelRun0_A.sl.H1_10 c arg1 harg1 arg2 arg3 x0) (ix2 j q) = iter (colRow x0 q) 9 j.val)
    ∧ (∀ (j : Fin 33) (q : Fin 32768), 1 ≤ j.val → j.val < 9 + 2 →
        View.canon (kernelRun0_A.sl.HS0_19 c arg1 harg1 arg2 arg3 x0) (ix2 j q) = iter (colRow x0 q) 9 (9 + 2 - j.val)) := by
  have hO := (inv8 c arg1 harg1 arg2 arg3 x0).1
  have hA := (inv8 c arg1 harg1 arg2 arg3 x0).2
  refine ⟨fun j q => ?_, fun j q h1 h2 => ?_⟩
  · unfold kernelRun0_A.sl.H1_10
    exact stepO (M := 33) (N := 32768) 8 9 10 rfl rfl (by omega) arg2.view arg3.view (kernelRun0_A.sl.H1_9 c arg1 harg1 arg2 arg3 x0) (kernelRun0_A.sl.HS0_17 c arg1 harg1 arg2 arg3 x0) (colRow x0)
      inb_S33x32768_S9x32768_1_0 inb_S33x32768_S1x32768_10_0 broadcasts_S1x32768_S9x32768
      shapeCasts_S1x32768_S1x32768 shapeCasts_S9x32768_S9x32768 hO hA j q
  · unfold kernelRun0_A.sl.HS0_19
    exact stepAR (M := 33) (N := 32768) 8 9 10 rfl rfl (by omega) arg2.view arg3.view (kernelRun0_A.sl.H1_9 c arg1 harg1 arg2 arg3 x0) (kernelRun0_A.sl.HS0_17 c arg1 harg1 arg2 arg3 x0) (colRow x0)
      inb_S33x32768_S9x32768_1_0 inb_S33x32768_S1x32768_10_0 inb_S33x32768_S1x32768_1_0 inb_S33x32768_S9x32768_2_0
      broadcasts_S1x32768_S9x32768 shapeCasts_S1x32768_S1x32768 shapeCasts_S1x32768_S1x32768 shapeCasts_S1x32768_S1x32768
      shapeCasts_S9x32768_S9x32768 shapeCasts_S9x32768_S9x32768 hO hA j q h1 h2

/-- After order 11. -/
theorem inv10 : (∀ (j : Fin 33) (q : Fin 32768), View.canon (kernelRun0_A.sl.H1_11 c arg1 harg1 arg2 arg3 x0) (ix2 j q) = iter (colRow x0 q) 10 j.val)
    ∧ (∀ (j : Fin 33) (q : Fin 32768), 1 ≤ j.val → j.val < 10 + 2 →
        View.canon (kernelRun0_A.sl.HS0_21 c arg1 harg1 arg2 arg3 x0) (ix2 j q) = iter (colRow x0 q) 10 (10 + 2 - j.val)) := by
  have hO := (inv9 c arg1 harg1 arg2 arg3 x0).1
  have hA := (inv9 c arg1 harg1 arg2 arg3 x0).2
  refine ⟨fun j q => ?_, fun j q h1 h2 => ?_⟩
  · unfold kernelRun0_A.sl.H1_11
    exact stepO (M := 33) (N := 32768) 9 10 11 rfl rfl (by omega) arg2.view arg3.view (kernelRun0_A.sl.H1_10 c arg1 harg1 arg2 arg3 x0) (kernelRun0_A.sl.HS0_19 c arg1 harg1 arg2 arg3 x0) (colRow x0)
      inb_S33x32768_S10x32768_1_0 inb_S33x32768_S1x32768_11_0 broadcasts_S1x32768_S10x32768
      shapeCasts_S1x32768_S1x32768 shapeCasts_S10x32768_S10x32768 hO hA j q
  · unfold kernelRun0_A.sl.HS0_21
    exact stepAR (M := 33) (N := 32768) 9 10 11 rfl rfl (by omega) arg2.view arg3.view (kernelRun0_A.sl.H1_10 c arg1 harg1 arg2 arg3 x0) (kernelRun0_A.sl.HS0_19 c arg1 harg1 arg2 arg3 x0) (colRow x0)
      inb_S33x32768_S10x32768_1_0 inb_S33x32768_S1x32768_11_0 inb_S33x32768_S1x32768_1_0 inb_S33x32768_S10x32768_2_0
      broadcasts_S1x32768_S10x32768 shapeCasts_S1x32768_S1x32768 shapeCasts_S1x32768_S1x32768 shapeCasts_S1x32768_S1x32768
      shapeCasts_S10x32768_S10x32768 shapeCasts_S10x32768_S10x32768 hO hA j q h1 h2

/-- After order 12. -/
theorem inv11 : (∀ (j : Fin 33) (q : Fin 32768), View.canon (kernelRun0_A.sl.H1_12 c arg1 harg1 arg2 arg3 x0) (ix2 j q) = iter (colRow x0 q) 11 j.val)
    ∧ (∀ (j : Fin 33) (q : Fin 32768), 1 ≤ j.val → j.val < 11 + 2 →
        View.canon (kernelRun0_A.sl.HS0_23 c arg1 harg1 arg2 arg3 x0) (ix2 j q) = iter (colRow x0 q) 11 (11 + 2 - j.val)) := by
  have hO := (inv10 c arg1 harg1 arg2 arg3 x0).1
  have hA := (inv10 c arg1 harg1 arg2 arg3 x0).2
  refine ⟨fun j q => ?_, fun j q h1 h2 => ?_⟩
  · unfold kernelRun0_A.sl.H1_12
    exact stepO (M := 33) (N := 32768) 10 11 12 rfl rfl (by omega) arg2.view arg3.view (kernelRun0_A.sl.H1_11 c arg1 harg1 arg2 arg3 x0) (kernelRun0_A.sl.HS0_21 c arg1 harg1 arg2 arg3 x0) (colRow x0)
      inb_S33x32768_S11x32768_1_0 inb_S33x32768_S1x32768_12_0 broadcasts_S1x32768_S11x32768
      shapeCasts_S1x32768_S1x32768 shapeCasts_S11x32768_S11x32768 hO hA j q
  · unfold kernelRun0_A.sl.HS0_23
    exact stepAR (M := 33) (N := 32768) 10 11 12 rfl rfl (by omega) arg2.view arg3.view (kernelRun0_A.sl.H1_11 c arg1 harg1 arg2 arg3 x0) (kernelRun0_A.sl.HS0_21 c arg1 harg1 arg2 arg3 x0) (colRow x0)
      inb_S33x32768_S11x32768_1_0 inb_S33x32768_S1x32768_12_0 inb_S33x32768_S1x32768_1_0 inb_S33x32768_S11x32768_2_0
      broadcasts_S1x32768_S11x32768 shapeCasts_S1x32768_S1x32768 shapeCasts_S1x32768_S1x32768 shapeCasts_S1x32768_S1x32768
      shapeCasts_S11x32768_S11x32768 shapeCasts_S11x32768_S11x32768 hO hA j q h1 h2

/-- After order 13. -/
theorem inv12 : (∀ (j : Fin 33) (q : Fin 32768), View.canon (kernelRun0_A.sl.H1_13 c arg1 harg1 arg2 arg3 x0) (ix2 j q) = iter (colRow x0 q) 12 j.val)
    ∧ (∀ (j : Fin 33) (q : Fin 32768), 1 ≤ j.val → j.val < 12 + 2 →
        View.canon (kernelRun0_A.sl.HS0_25 c arg1 harg1 arg2 arg3 x0) (ix2 j q) = iter (colRow x0 q) 12 (12 + 2 - j.val)) := by
  have hO := (inv11 c arg1 harg1 arg2 arg3 x0).1
  have hA := (inv11 c arg1 harg1 arg2 arg3 x0).2
  refine ⟨fun j q => ?_, fun j q h1 h2 => ?_⟩
  · unfold kernelRun0_A.sl.H1_13
    exact stepO (M := 33) (N := 32768) 11 12 13 rfl rfl (by omega) arg2.view arg3.view (kernelRun0_A.sl.H1_12 c arg1 harg1 arg2 arg3 x0) (kernelRun0_A.sl.HS0_23 c arg1 harg1 arg2 arg3 x0) (colRow x0)
      inb_S33x32768_S12x32768_1_0 inb_S33x32768_S1x32768_13_0 broadcasts_S1x32768_S12x32768
      shapeCasts_S1x32768_S1x32768 shapeCasts_S12x32768_S12x32768 hO hA j q
  · unfold kernelRun0_A.sl.HS0_25
    exact stepAR (M := 33) (N := 32768) 11 12 13 rfl rfl (by omega) arg2.view arg3.view (kernelRun0_A.sl.H1_12 c arg1 harg1 arg2 arg3 x0) (kernelRun0_A.sl.HS0_23 c arg1 harg1 arg2 arg3 x0) (colRow x0)
      inb_S33x32768_S12x32768_1_0 inb_S33x32768_S1x32768_13_0 inb_S33x32768_S1x32768_1_0 inb_S33x32768_S12x32768_2_0
      broadcasts_S1x32768_S12x32768 shapeCasts_S1x32768_S1x32768 shapeCasts_S1x32768_S1x32768 shapeCasts_S1x32768_S1x32768
      shapeCasts_S12x32768_S12x32768 shapeCasts_S12x32768_S12x32768 hO hA j q h1 h2

/-- After order 14. -/
theorem inv13 : (∀ (j : Fin 33) (q : Fin 32768), View.canon (kernelRun0_A.sl.H1_14 c arg1 harg1 arg2 arg3 x0) (ix2 j q) = iter (colRow x0 q) 13 j.val)
    ∧ (∀ (j : Fin 33) (q : Fin 32768), 1 ≤ j.val → j.val < 13 + 2 →
        View.canon (kernelRun0_A.sl.HS0_27 c arg1 harg1 arg2 arg3 x0) (ix2 j q) = iter (colRow x0 q) 13 (13 + 2 - j.val)) := by
  have hO := (inv12 c arg1 harg1 arg2 arg3 x0).1
  have hA := (inv12 c arg1 harg1 arg2 arg3 x0).2
  refine ⟨fun j q => ?_, fun j q h1 h2 => ?_⟩
  · unfold kernelRun0_A.sl.H1_14
    exact stepO (M := 33) (N := 32768) 12 13 14 rfl rfl (by omega) arg2.view arg3.view (kernelRun0_A.sl.H1_13 c arg1 harg1 arg2 arg3 x0) (kernelRun0_A.sl.HS0_25 c arg1 harg1 arg2 arg3 x0) (colRow x0)
      inb_S33x32768_S13x32768_1_0 inb_S33x32768_S1x32768_14_0 broadcasts_S1x32768_S13x32768
      shapeCasts_S1x32768_S1x32768 shapeCasts_S13x32768_S13x32768 hO hA j q
  · unfold kernelRun0_A.sl.HS0_27
    exact stepAR (M := 33) (N := 32768) 12 13 14 rfl rfl (by omega) arg2.view arg3.view (kernelRun0_A.sl.H1_13 c arg1 harg1 arg2 arg3 x0) (kernelRun0_A.sl.HS0_25 c arg1 harg1 arg2 arg3 x0) (colRow x0)
      inb_S33x32768_S13x32768_1_0 inb_S33x32768_S1x32768_14_0 inb_S33x32768_S1x32768_1_0 inb_S33x32768_S13x32768_2_0
      broadcasts_S1x32768_S13x32768 shapeCasts_S1x32768_S1x32768 shapeCasts_S1x32768_S1x32768 shapeCasts_S1x32768_S1x32768
      shapeCasts_S13x32768_S13x32768 shapeCasts_S13x32768_S13x32768 hO hA j q h1 h2

/-- After order 15. -/
theorem inv14 : (∀ (j : Fin 33) (q : Fin 32768), View.canon (kernelRun0_A.sl.H1_15 c arg1 harg1 arg2 arg3 x0) (ix2 j q) = iter (colRow x0 q) 14 j.val)
    ∧ (∀ (j : Fin 33) (q : Fin 32768), 1 ≤ j.val → j.val < 14 + 2 →
        View.canon (kernelRun0_A.sl.HS0_29 c arg1 harg1 arg2 arg3 x0) (ix2 j q) = iter (colRow x0 q) 14 (14 + 2 - j.val)) := by
  have hO := (inv13 c arg1 harg1 arg2 arg3 x0).1
  have hA := (inv13 c arg1 harg1 arg2 arg3 x0).2
  refine ⟨fun j q => ?_, fun j q h1 h2 => ?_⟩
  · unfold kernelRun0_A.sl.H1_15
    exact stepO (M := 33) (N := 32768) 13 14 15 rfl rfl (by omega) arg2.view arg3.view (kernelRun0_A.sl.H1_14 c arg1 harg1 arg2 arg3 x0) (kernelRun0_A.sl.HS0_27 c arg1 harg1 arg2 arg3 x0) (colRow x0)
      inb_S33x32768_S14x32768_1_0 inb_S33x32768_S1x32768_15_0 broadcasts_S1x32768_S14x32768
      shapeCasts_S1x32768_S1x32768 shapeCasts_S14x32768_S14x32768 hO hA j q
  · unfold kernelRun0_A.sl.HS0_29
    exact stepAR (M := 33) (N := 32768) 13 14 15 rfl rfl (by omega) arg2.view arg3.view (kernelRun0_A.sl.H1_14 c arg1 harg1 arg2 arg3 x0) (kernelRun0_A.sl.HS0_27 c arg1 harg1 arg2 arg3 x0) (colRow x0)
      inb_S33x32768_S14x32768_1_0 inb_S33x32768_S1x32768_15_0 inb_S33x32768_S1x32768_1_0 inb_S33x32768_S14x32768_2_0
      broadcasts_S1x32768_S14x32768 shapeCasts_S1x32768_S1x32768 shapeCasts_S1x32768_S1x32768 shapeCasts_S1x32768_S1x32768
      shapeCasts_S14x32768_S14x32768 shapeCasts_S14x32768_S14x32768 hO hA j q h1 h2

/-- After order 16. -/
theorem inv15 : (∀ (j : Fin 33) (q : Fin 32768), View.canon (kernelRun0_A.sl.H1_16 c arg1 harg1 arg2 arg3 x0) (ix2 j q) = iter (colRow x0 q) 15 j.val)
    ∧ (∀ (j : Fin 33) (q : Fin 32768), 1 ≤ j.val → j.val < 15 + 2 →
        View.canon (kernelRun0_A.sl.HS0_31 c arg1 harg1 arg2 arg3 x0) (ix2 j q) = iter (colRow x0 q) 15 (15 + 2 - j.val)) := by
  have hO := (inv14 c arg1 harg1 arg2 arg3 x0).1
  have hA := (inv14 c arg1 harg1 arg2 arg3 x0).2
  refine ⟨fun j q => ?_, fun j q h1 h2 => ?_⟩
  · unfold kernelRun0_A.sl.H1_16
    exact stepO (M := 33) (N := 32768) 14 15 16 rfl rfl (by omega) arg2.view arg3.view (kernelRun0_A.sl.H1_15 c arg1 harg1 arg2 arg3 x0) (kernelRun0_A.sl.HS0_29 c arg1 harg1 arg2 arg3 x0) (colRow x0)
      inb_S33x32768_S15x32768_1_0 inb_S33x32768_S1x32768_16_0 broadcasts_S1x32768_S15x32768
      shapeCasts_S1x32768_S1x32768 shapeCasts_S15x32768_S15x32768 hO hA j q
  · unfold kernelRun0_A.sl.HS0_31
    exact stepAR (M := 33) (N := 32768) 14 15 16 rfl rfl (by omega) arg2.view arg3.view (kernelRun0_A.sl.H1_15 c arg1 harg1 arg2 arg3 x0) (kernelRun0_A.sl.HS0_29 c arg1 harg1 arg2 arg3 x0) (colRow x0)
      inb_S33x32768_S15x32768_1_0 inb_S33x32768_S1x32768_16_0 inb_S33x32768_S1x32768_1_0 inb_S33x32768_S15x32768_2_0
      broadcasts_S1x32768_S15x32768 shapeCasts_S1x32768_S1x32768 shapeCasts_S1x32768_S1x32768 shapeCasts_S1x32768_S1x32768
      shapeCasts_S15x32768_S15x32768 shapeCasts_S15x32768_S15x32768 hO hA j q h1 h2

/-- After order 17. -/
theorem inv16 : (∀ (j : Fin 33) (q : Fin 32768), View.canon (kernelRun0_A.sl.H1_17 c arg1 harg1 arg2 arg3 x0) (ix2 j q) = iter (colRow x0 q) 16 j.val)
    ∧ (∀ (j : Fin 33) (q : Fin 32768), 1 ≤ j.val → j.val < 16 + 2 →
        View.canon (kernelRun0_A.sl.HS0_33 c arg1 harg1 arg2 arg3 x0) (ix2 j q) = iter (colRow x0 q) 16 (16 + 2 - j.val)) := by
  have hO := (inv15 c arg1 harg1 arg2 arg3 x0).1
  have hA := (inv15 c arg1 harg1 arg2 arg3 x0).2
  refine ⟨fun j q => ?_, fun j q h1 h2 => ?_⟩
  · unfold kernelRun0_A.sl.H1_17
    exact stepO (M := 33) (N := 32768) 15 16 17 rfl rfl (by omega) arg2.view arg3.view (kernelRun0_A.sl.H1_16 c arg1 harg1 arg2 arg3 x0) (kernelRun0_A.sl.HS0_31 c arg1 harg1 arg2 arg3 x0) (colRow x0)
      inb_S33x32768_S16x32768_1_0 inb_S33x32768_S1x32768_17_0 broadcasts_S1x32768_S16x32768
      shapeCasts_S1x32768_S1x32768 shapeCasts_S16x32768_S16x32768 hO hA j q
  · unfold kernelRun0_A.sl.HS0_33
    exact stepAR (M := 33) (N := 32768) 15 16 17 rfl rfl (by omega) arg2.view arg3.view (kernelRun0_A.sl.H1_16 c arg1 harg1 arg2 arg3 x0) (kernelRun0_A.sl.HS0_31 c arg1 harg1 arg2 arg3 x0) (colRow x0)
      inb_S33x32768_S16x32768_1_0 inb_S33x32768_S1x32768_17_0 inb_S33x32768_S1x32768_1_0 inb_S33x32768_S16x32768_2_0
      broadcasts_S1x32768_S16x32768 shapeCasts_S1x32768_S1x32768 shapeCasts_S1x32768_S1x32768 shapeCasts_S1x32768_S1x32768
      shapeCasts_S16x32768_S16x32768 shapeCasts_S16x32768_S16x32768 hO hA j q h1 h2

/-- After order 18. -/
theorem inv17 : (∀ (j : Fin 33) (q : Fin 32768), View.canon (kernelRun0_A.sl.H1_18 c arg1 harg1 arg2 arg3 x0) (ix2 j q) = iter (colRow x0 q) 17 j.val)
    ∧ (∀ (j : Fin 33) (q : Fin 32768), 1 ≤ j.val → j.val < 17 + 2 →
        View.canon (kernelRun0_A.sl.HS0_35 c arg1 harg1 arg2 arg3 x0) (ix2 j q) = iter (colRow x0 q) 17 (17 + 2 - j.val)) := by
  have hO := (inv16 c arg1 harg1 arg2 arg3 x0).1
  have hA := (inv16 c arg1 harg1 arg2 arg3 x0).2
  refine ⟨fun j q => ?_, fun j q h1 h2 => ?_⟩
  · unfold kernelRun0_A.sl.H1_18
    exact stepO (M := 33) (N := 32768) 16 17 18 rfl rfl (by omega) arg2.view arg3.view (kernelRun0_A.sl.H1_17 c arg1 harg1 arg2 arg3 x0) (kernelRun0_A.sl.HS0_33 c arg1 harg1 arg2 arg3 x0) (colRow x0)
      inb_S33x32768_S17x32768_1_0 inb_S33x32768_S1x32768_18_0 broadcasts_S1x32768_S17x32768
      shapeCasts_S1x32768_S1x32768 shapeCasts_S17x32768_S17x32768 hO hA j q
  · unfold kernelRun0_A.sl.HS0_35
    exact stepAR (M := 33) (N := 32768) 16 17 18 rfl rfl (by omega) arg2.view arg3.view (kernelRun0_A.sl.H1_17 c arg1 harg1 arg2 arg3 x0) (kernelRun0_A.sl.HS0_33 c arg1 harg1 arg2 arg3 x0) (colRow x0)
      inb_S33x32768_S17x32768_1_0 inb_S33x32768_S1x32768_18_0 inb_S33x32768_S1x32768_1_0 inb_S33x32768_S17x32768_2_0
      broadcasts_S1x32768_S17x32768 shapeCasts_S1x32768_S1x32768 shapeCasts_S1x32768_S1x32768 shapeCasts_S1x32768_S1x32768
      shapeCasts_S17x32768_S17x32768 shapeCasts_S17x32768_S17x32768 hO hA j q h1 h2

/-- After order 19. -/
theorem inv18 : (∀ (j : Fin 33) (q : Fin 32768), View.canon (kernelRun0_A.sl.H1_19 c arg1 harg1 arg2 arg3 x0) (ix2 j q) = iter (colRow x0 q) 18 j.val)
    ∧ (∀ (j : Fin 33) (q : Fin 32768), 1 ≤ j.val → j.val < 18 + 2 →
        View.canon (kernelRun0_A.sl.HS0_37 c arg1 harg1 arg2 arg3 x0) (ix2 j q) = iter (colRow x0 q) 18 (18 + 2 - j.val)) := by
  have hO := (inv17 c arg1 harg1 arg2 arg3 x0).1
  have hA := (inv17 c arg1 harg1 arg2 arg3 x0).2
  refine ⟨fun j q => ?_, fun j q h1 h2 => ?_⟩
  · unfold kernelRun0_A.sl.H1_19
    exact stepO (M := 33) (N := 32768) 17 18 19 rfl rfl (by omega) arg2.view arg3.view (kernelRun0_A.sl.H1_18 c arg1 harg1 arg2 arg3 x0) (kernelRun0_A.sl.HS0_35 c arg1 harg1 arg2 arg3 x0) (colRow x0)
      inb_S33x32768_S18x32768_1_0 inb_S33x32768_S1x32768_19_0 broadcasts_S1x32768_S18x32768
      shapeCasts_S1x32768_S1x32768 shapeCasts_S18x32768_S18x32768 hO hA j q
  · unfold kernelRun0_A.sl.HS0_37
    exact stepAR (M := 33) (N := 32768) 17 18 19 rfl rfl (by omega) arg2.view arg3.view (kernelRun0_A.sl.H1_18 c arg1 harg1 arg2 arg3 x0) (kernelRun0_A.sl.HS0_35 c arg1 harg1 arg2 arg3 x0) (colRow x0)
      inb_S33x32768_S18x32768_1_0 inb_S33x32768_S1x32768_19_0 inb_S33x32768_S1x32768_1_0 inb_S33x32768_S18x32768_2_0
      broadcasts_S1x32768_S18x32768 shapeCasts_S1x32768_S1x32768 shapeCasts_S1x32768_S1x32768 shapeCasts_S1x32768_S1x32768
      shapeCasts_S18x32768_S18x32768 shapeCasts_S18x32768_S18x32768 hO hA j q h1 h2

/-- After order 20. -/
theorem inv19 : (∀ (j : Fin 33) (q : Fin 32768), View.canon (kernelRun0_A.sl.H1_20 c arg1 harg1 arg2 arg3 x0) (ix2 j q) = iter (colRow x0 q) 19 j.val)
    ∧ (∀ (j : Fin 33) (q : Fin 32768), 1 ≤ j.val → j.val < 19 + 2 →
        View.canon (kernelRun0_A.sl.HS0_39 c arg1 harg1 arg2 arg3 x0) (ix2 j q) = iter (colRow x0 q) 19 (19 + 2 - j.val)) := by
  have hO := (inv18 c arg1 harg1 arg2 arg3 x0).1
  have hA := (inv18 c arg1 harg1 arg2 arg3 x0).2
  refine ⟨fun j q => ?_, fun j q h1 h2 => ?_⟩
  · unfold kernelRun0_A.sl.H1_20
    exact stepO (M := 33) (N := 32768) 18 19 20 rfl rfl (by omega) arg2.view arg3.view (kernelRun0_A.sl.H1_19 c arg1 harg1 arg2 arg3 x0) (kernelRun0_A.sl.HS0_37 c arg1 harg1 arg2 arg3 x0) (colRow x0)
      inb_S33x32768_S19x32768_1_0 inb_S33x32768_S1x32768_20_0 broadcasts_S1x32768_S19x32768
      shapeCasts_S1x32768_S1x32768 shapeCasts_S19x32768_S19x32768 hO hA j q
  · unfold kernelRun0_A.sl.HS0_39
    exact stepAR (M := 33) (N := 32768) 18 19 20 rfl rfl (by omega) arg2.view arg3.view (kernelRun0_A.sl.H1_19 c arg1 harg1 arg2 arg3 x0) (kernelRun0_A.sl.HS0_37 c arg1 harg1 arg2 arg3 x0) (colRow x0)
      inb_S33x32768_S19x32768_1_0 inb_S33x32768_S1x32768_20_0 inb_S33x32768_S1x32768_1_0 inb_S33x32768_S19x32768_2_0
      broadcasts_S1x32768_S19x32768 shapeCasts_S1x32768_S1x32768 shapeCasts_S1x32768_S1x32768 shapeCasts_S1x32768_S1x32768
      shapeCasts_S19x32768_S19x32768 shapeCasts_S19x32768_S19x32768 hO hA j q h1 h2

/-- After order 21. -/
theorem inv20 : (∀ (j : Fin 33) (q : Fin 32768), View.canon (kernelRun0_A.sl.H1_21 c arg1 harg1 arg2 arg3 x0) (ix2 j q) = iter (colRow x0 q) 20 j.val)
    ∧ (∀ (j : Fin 33) (q : Fin 32768), 1 ≤ j.val → j.val < 20 + 2 →
        View.canon (kernelRun0_A.sl.HS0_41 c arg1 harg1 arg2 arg3 x0) (ix2 j q) = iter (colRow x0 q) 20 (20 + 2 - j.val)) := by
  have hO := (inv19 c arg1 harg1 arg2 arg3 x0).1
  have hA := (inv19 c arg1 harg1 arg2 arg3 x0).2
  refine ⟨fun j q => ?_, fun j q h1 h2 => ?_⟩
  · unfold kernelRun0_A.sl.H1_21
    exact stepO (M := 33) (N := 32768) 19 20 21 rfl rfl (by omega) arg2.view arg3.view (kernelRun0_A.sl.H1_20 c arg1 harg1 arg2 arg3 x0) (kernelRun0_A.sl.HS0_39 c arg1 harg1 arg2 arg3 x0) (colRow x0)
      inb_S33x32768_S20x32768_1_0 inb_S33x32768_S1x32768_21_0 broadcasts_S1x32768_S20x32768
      shapeCasts_S1x32768_S1x32768 shapeCasts_S20x32768_S20x32768 hO hA j q
  · unfold kernelRun0_A.sl.HS0_41
    exact stepAR (M := 33) (N := 32768) 19 20 21 rfl rfl (by omega) arg2.view arg3.view (kernelRun0_A.sl.H1_20 c arg1 harg1 arg2 arg3 x0) (kernelRun0_A.sl.HS0_39 c arg1 harg1 arg2 arg3 x0) (colRow x0)
      inb_S33x32768_S20x32768_1_0 inb_S33x32768_S1x32768_21_0 inb_S33x32768_S1x32768_1_0 inb_S33x32768_S20x32768_2_0
      broadcasts_S1x32768_S20x32768 shapeCasts_S1x32768_S1x32768 shapeCasts_S1x32768_S1x32768 shapeCasts_S1x32768_S1x32768
      shapeCasts_S20x32768_S20x32768 shapeCasts_S20x32768_S20x32768 hO hA j q h1 h2

/-- After order 22. -/
theorem inv21 : (∀ (j : Fin 33) (q : Fin 32768), View.canon (kernelRun0_A.sl.H1_22 c arg1 harg1 arg2 arg3 x0) (ix2 j q) = iter (colRow x0 q) 21 j.val)
    ∧ (∀ (j : Fin 33) (q : Fin 32768), 1 ≤ j.val → j.val < 21 + 2 →
        View.canon (kernelRun0_A.sl.HS0_43 c arg1 harg1 arg2 arg3 x0) (ix2 j q) = iter (colRow x0 q) 21 (21 + 2 - j.val)) := by
  have hO := (inv20 c arg1 harg1 arg2 arg3 x0).1
  have hA := (inv20 c arg1 harg1 arg2 arg3 x0).2
  refine ⟨fun j q => ?_, fun j q h1 h2 => ?_⟩
  · unfold kernelRun0_A.sl.H1_22
    exact stepO (M := 33) (N := 32768) 20 21 22 rfl rfl (by omega) arg2.view arg3.view (kernelRun0_A.sl.H1_21 c arg1 harg1 arg2 arg3 x0) (kernelRun0_A.sl.HS0_41 c arg1 harg1 arg2 arg3 x0) (colRow x0)
      inb_S33x32768_S21x32768_1_0 inb_S33x32768_S1x32768_22_0 broadcasts_S1x32768_S21x32768
      shapeCasts_S1x32768_S1x32768 shapeCasts_S21x32768_S21x32768 hO hA j q
  · unfold kernelRun0_A.sl.HS0_43
    exact stepAR (M := 33) (N := 32768) 20 21 22 rfl rfl (by omega) arg2.view arg3.view (kernelRun0_A.sl.H1_21 c arg1 harg1 arg2 arg3 x0) (kernelRun0_A.sl.HS0_41 c arg1 harg1 arg2 arg3 x0) (colRow x0)
      inb_S33x32768_S21x32768_1_0 inb_S33x32768_S1x32768_22_0 inb_S33x32768_S1x32768_1_0 inb_S33x32768_S21x32768_2_0
      broadcasts_S1x32768_S21x32768 shapeCasts_S1x32768_S1x32768 shapeCasts_S1x32768_S1x32768 shapeCasts_S1x32768_S1x32768
      shapeCasts_S21x32768_S21x32768 shapeCasts_S21x32768_S21x32768 hO hA j q h1 h2

/-- After order 23. -/
theorem inv22 : (∀ (j : Fin 33) (q : Fin 32768), View.canon (kernelRun0_A.sl.H1_23 c arg1 harg1 arg2 arg3 x0) (ix2 j q) = iter (colRow x0 q) 22 j.val)
    ∧ (∀ (j : Fin 33) (q : Fin 32768), 1 ≤ j.val → j.val < 22 + 2 →
        View.canon (kernelRun0_A.sl.HS0_45 c arg1 harg1 arg2 arg3 x0) (ix2 j q) = iter (colRow x0 q) 22 (22 + 2 - j.val)) := by
  have hO := (inv21 c arg1 harg1 arg2 arg3 x0).1
  have hA := (inv21 c arg1 harg1 arg2 arg3 x0).2
  refine ⟨fun j q => ?_, fun j q h1 h2 => ?_⟩
  · unfold kernelRun0_A.sl.H1_23
    exact stepO (M := 33) (N := 32768) 21 22 23 rfl rfl (by omega) arg2.view arg3.view (kernelRun0_A.sl.H1_22 c arg1 harg1 arg2 arg3 x0) (kernelRun0_A.sl.HS0_43 c arg1 harg1 arg2 arg3 x0) (colRow x0)
      inb_S33x32768_S22x32768_1_0 inb_S33x32768_S1x32768_23_0 broadcasts_S1x32768_S22x32768
      shapeCasts_S1x32768_S1x32768 shapeCasts_S22x32768_S22x32768 hO hA j q
  · unfold kernelRun0_A.sl.HS0_45
    exact stepAR (M := 33) (N := 32768) 21 22 23 rfl rfl (by omega) arg2.view arg3.view (kernelRun0_A.sl.H1_22 c arg1 harg1 arg2 arg3 x0) (kernelRun0_A.sl.HS0_43 c arg1 harg1 arg2 arg3 x0) (colRow x0)
      inb_S33x32768_S22x32768_1_0 inb_S33x32768_S1x32768_23_0 inb_S33x32768_S1x32768_1_0 inb_S33x32768_S22x32768_2_0
      broadcasts_S1x32768_S22x32768 shapeCasts_S1x32768_S1x32768 shapeCasts_S1x32768_S1x32768 shapeCasts_S1x32768_S1x32768
      shapeCasts_S22x32768_S22x32768 shapeCasts_S22x32768_S22x32768 hO hA j q h1 h2

/-- After order 24. -/
theorem inv23 : (∀ (j : Fin 33) (q : Fin 32768), View.canon (kernelRun0_A.sl.H1_24 c arg1 harg1 arg2 arg3 x0) (ix2 j q) = iter (colRow x0 q) 23 j.val)
    ∧ (∀ (j : Fin 33) (q : Fin 32768), 1 ≤ j.val → j.val < 23 + 2 →
        View.canon (kernelRun0_A.sl.HS0_47 c arg1 harg1 arg2 arg3 x0) (ix2 j q) = iter (colRow x0 q) 23 (23 + 2 - j.val)) := by
  have hO := (inv22 c arg1 harg1 arg2 arg3 x0).1
  have hA := (inv22 c arg1 harg1 arg2 arg3 x0).2
  refine ⟨fun j q => ?_, fun j q h1 h2 => ?_⟩
  · unfold kernelRun0_A.sl.H1_24
    exact stepO (M := 33) (N := 32768) 22 23 24 rfl rfl (by omega) arg2.view arg3.view (kernelRun0_A.sl.H1_23 c arg1 harg1 arg2 arg3 x0) (kernelRun0_A.sl.HS0_45 c arg1 harg1 arg2 arg3 x0) (colRow x0)
      inb_S33x32768_S23x32768_1_0 inb_S33x32768_S1x32768_24_0 broadcasts_S1x32768_S23x32768
      shapeCasts_S1x32768_S1x32768 shapeCasts_S23x32768_S23x32768 hO hA j q
  · unfold kernelRun0_A.sl.HS0_47
    exact stepAR (M := 33) (N := 32768) 22 23 24 rfl rfl (by omega) arg2.view arg3.view (kernelRun0_A.sl.H1_23 c arg1 harg1 arg2 arg3 x0) (kernelRun0_A.sl.HS0_45 c arg1 harg1 arg2 arg3 x0) (colRow x0)
      inb_S33x32768_S23x32768_1_0 inb_S33x32768_S1x32768_24_0 inb_S33x32768_S1x32768_1_0 inb_S33x32768_S23x32768_2_0
      broadcasts_S1x32768_S23x32768 shapeCasts_S1x32768_S1x32768 shapeCasts_S1x32768_S1x32768 shapeCasts_S1x32768_S1x32768
      shapeCasts_S23x32768_S23x32768 shapeCasts_S23x32768_S23x32768 hO hA j q h1 h2

/-- After order 25. -/
theorem inv24 : (∀ (j : Fin 33) (q : Fin 32768), View.canon (kernelRun0_A.sl.H1_25 c arg1 harg1 arg2 arg3 x0) (ix2 j q) = iter (colRow x0 q) 24 j.val)
    ∧ (∀ (j : Fin 33) (q : Fin 32768), 1 ≤ j.val → j.val < 24 + 2 →
        View.canon (kernelRun0_A.sl.HS0_49 c arg1 harg1 arg2 arg3 x0) (ix2 j q) = iter (colRow x0 q) 24 (24 + 2 - j.val)) := by
  have hO := (inv23 c arg1 harg1 arg2 arg3 x0).1
  have hA := (inv23 c arg1 harg1 arg2 arg3 x0).2
  refine ⟨fun j q => ?_, fun j q h1 h2 => ?_⟩
  · unfold kernelRun0_A.sl.H1_25
    exact stepO (M := 33) (N := 32768) 23 24 25 rfl rfl (by omega) arg2.view arg3.view (kernelRun0_A.sl.H1_24 c arg1 harg1 arg2 arg3 x0) (kernelRun0_A.sl.HS0_47 c arg1 harg1 arg2 arg3 x0) (colRow x0)
      inb_S33x32768_S24x32768_1_0 inb_S33x32768_S1x32768_25_0 broadcasts_S1x32768_S24x32768
      shapeCasts_S1x32768_S1x32768 shapeCasts_S24x32768_S24x32768 hO hA j q
  · unfold kernelRun0_A.sl.HS0_49
    exact stepAR (M := 33) (N := 32768) 23 24 25 rfl rfl (by omega) arg2.view arg3.view (kernelRun0_A.sl.H1_24 c arg1 harg1 arg2 arg3 x0) (kernelRun0_A.sl.HS0_47 c arg1 harg1 arg2 arg3 x0) (colRow x0)
      inb_S33x32768_S24x32768_1_0 inb_S33x32768_S1x32768_25_0 inb_S33x32768_S1x32768_1_0 inb_S33x32768_S24x32768_2_0
      broadcasts_S1x32768_S24x32768 shapeCasts_S1x32768_S1x32768 shapeCasts_S1x32768_S1x32768 shapeCasts_S1x32768_S1x32768
      shapeCasts_S24x32768_S24x32768 shapeCasts_S24x32768_S24x32768 hO hA j q h1 h2

/-- After order 26. -/
theorem inv25 : (∀ (j : Fin 33) (q : Fin 32768), View.canon (kernelRun0_A.sl.H1_26 c arg1 harg1 arg2 arg3 x0) (ix2 j q) = iter (colRow x0 q) 25 j.val)
    ∧ (∀ (j : Fin 33) (q : Fin 32768), 1 ≤ j.val → j.val < 25 + 2 →
        View.canon (kernelRun0_A.sl.HS0_51 c arg1 harg1 arg2 arg3 x0) (ix2 j q) = iter (colRow x0 q) 25 (25 + 2 - j.val)) := by
  have hO := (inv24 c arg1 harg1 arg2 arg3 x0).1
  have hA := (inv24 c arg1 harg1 arg2 arg3 x0).2
  refine ⟨fun j q => ?_, fun j q h1 h2 => ?_⟩
  · unfold kernelRun0_A.sl.H1_26
    exact stepO (M := 33) (N := 32768) 24 25 26 rfl rfl (by omega) arg2.view arg3.view (kernelRun0_A.sl.H1_25 c arg1 harg1 arg2 arg3 x0) (kernelRun0_A.sl.HS0_49 c arg1 harg1 arg2 arg3 x0) (colRow x0)
      inb_S33x32768_S25x32768_1_0 inb_S33x32768_S1x32768_26_0 broadcasts_S1x32768_S25x32768
      shapeCasts_S1x32768_S1x32768 shapeCasts_S25x32768_S25x32768 hO hA j q
  · unfold kernelRun0_A.sl.HS0_51
    exact stepAR (M := 33) (N := 32768) 24 25 26 rfl rfl (by omega) arg2.view arg3.view (kernelRun0_A.sl.H1_25 c arg1 harg1 arg2 arg3 x0) (kernelRun0_A.sl.HS0_49 c arg1 harg1 arg2 arg3 x0) (colRow x0)
      inb_S33x32768_S25x32768_1_0 inb_S33x32768_S1x32768_26_0 inb_S33x32768_S1x32768_1_0 inb_S33x32768_S25x32768_2_0
      broadcasts_S1x32768_S25x32768 shapeCasts_S1x32768_S1x32768 shapeCasts_S1x32768_S1x32768 shapeCasts_S1x32768_S1x32768
      shapeCasts_S25x32768_S25x32768 shapeCasts_S25x32768_S25x32768 hO hA j q h1 h2

/-- After order 27. -/
theorem inv26 : (∀ (j : Fin 33) (q : Fin 32768), View.canon (kernelRun0_A.sl.H1_27 c arg1 harg1 arg2 arg3 x0) (ix2 j q) = iter (colRow x0 q) 26 j.val)
    ∧ (∀ (j : Fin 33) (q : Fin 32768), 1 ≤ j.val → j.val < 26 + 2 →
        View.canon (kernelRun0_A.sl.HS0_53 c arg1 harg1 arg2 arg3 x0) (ix2 j q) = iter (colRow x0 q) 26 (26 + 2 - j.val)) := by
  have hO := (inv25 c arg1 harg1 arg2 arg3 x0).1
  have hA := (inv25 c arg1 harg1 arg2 arg3 x0).2
  refine ⟨fun j q => ?_, fun j q h1 h2 => ?_⟩
  · unfold kernelRun0_A.sl.H1_27
    exact stepO (M := 33) (N := 32768) 25 26 27 rfl rfl (by omega) arg2.view arg3.view (kernelRun0_A.sl.H1_26 c arg1 harg1 arg2 arg3 x0) (kernelRun0_A.sl.HS0_51 c arg1 harg1 arg2 arg3 x0) (colRow x0)
      inb_S33x32768_S26x32768_1_0 inb_S33x32768_S1x32768_27_0 broadcasts_S1x32768_S26x32768
      shapeCasts_S1x32768_S1x32768 shapeCasts_S26x32768_S26x32768 hO hA j q
  · unfold kernelRun0_A.sl.HS0_53
    exact stepAR (M := 33) (N := 32768) 25 26 27 rfl rfl (by omega) arg2.view arg3.view (kernelRun0_A.sl.H1_26 c arg1 harg1 arg2 arg3 x0) (kernelRun0_A.sl.HS0_51 c arg1 harg1 arg2 arg3 x0) (colRow x0)
      inb_S33x32768_S26x32768_1_0 inb_S33x32768_S1x32768_27_0 inb_S33x32768_S1x32768_1_0 inb_S33x32768_S26x32768_2_0
      broadcasts_S1x32768_S26x32768 shapeCasts_S1x32768_S1x32768 shapeCasts_S1x32768_S1x32768 shapeCasts_S1x32768_S1x32768
      shapeCasts_S26x32768_S26x32768 shapeCasts_S26x32768_S26x32768 hO hA j q h1 h2

/-- After order 28. -/
theorem inv27 : (∀ (j : Fin 33) (q : Fin 32768), View.canon (kernelRun0_A.sl.H1_28 c arg1 harg1 arg2 arg3 x0) (ix2 j q) = iter (colRow x0 q) 27 j.val)
    ∧ (∀ (j : Fin 33) (q : Fin 32768), 1 ≤ j.val → j.val < 27 + 2 →
        View.canon (kernelRun0_A.sl.HS0_55 c arg1 harg1 arg2 arg3 x0) (ix2 j q) = iter (colRow x0 q) 27 (27 + 2 - j.val)) := by
  have hO := (inv26 c arg1 harg1 arg2 arg3 x0).1
  have hA := (inv26 c arg1 harg1 arg2 arg3 x0).2
  refine ⟨fun j q => ?_, fun j q h1 h2 => ?_⟩
  · unfold kernelRun0_A.sl.H1_28
    exact stepO (M := 33) (N := 32768) 26 27 28 rfl rfl (by omega) arg2.view arg3.view (kernelRun0_A.sl.H1_27 c arg1 harg1 arg2 arg3 x0) (kernelRun0_A.sl.HS0_53 c arg1 harg1 arg2 arg3 x0) (colRow x0)
      inb_S33x32768_S27x32768_1_0 inb_S33x32768_S1x32768_28_0 broadcasts_S1x32768_S27x32768
      shapeCasts_S1x32768_S1x32768 shapeCasts_S27x32768_S27x32768 hO hA j q
  · unfold kernelRun0_A.sl.HS0_55
    exact stepAR (M := 33) (N := 32768) 26 27 28 rfl rfl (by omega) arg2.view arg3.view (kernelRun0_A.sl.H1_27 c arg1 harg1 arg2 arg3 x0) (kernelRun0_A.sl.HS0_53 c arg1 harg1 arg2 arg3 x0) (colRow x0)
      inb_S33x32768_S27x32768_1_0 inb_S33x32768_S1x32768_28_0 inb_S33x32768_S1x32768_1_0 inb_S33x32768_S27x32768_2_0
      broadcasts_S1x32768_S27x32768 shapeCasts_S1x32768_S1x32768 shapeCasts_S1x32768_S1x32768 shapeCasts_S1x32768_S1x32768
      shapeCasts_S27x32768_S27x32768 shapeCasts_S27x32768_S27x32768 hO hA j q h1 h2

/-- After order 29. -/
theorem inv28 : (∀ (j : Fin 33) (q : Fin 32768), View.canon (kernelRun0_A.sl.H1_29 c arg1 harg1 arg2 arg3 x0) (ix2 j q) = iter (colRow x0 q) 28 j.val)
    ∧ (∀ (j : Fin 33) (q : Fin 32768), 1 ≤ j.val → j.val < 28 + 2 →
        View.canon (kernelRun0_A.sl.HS0_57 c arg1 harg1 arg2 arg3 x0) (ix2 j q) = iter (colRow x0 q) 28 (28 + 2 - j.val)) := by
  have hO := (inv27 c arg1 harg1 arg2 arg3 x0).1
  have hA := (inv27 c arg1 harg1 arg2 arg3 x0).2
  refine ⟨fun j q => ?_, fun j q h1 h2 => ?_⟩
  · unfold kernelRun0_A.sl.H1_29
    exact stepO (M := 33) (N := 32768) 27 28 29 rfl rfl (by omega) arg2.view arg3.view (kernelRun0_A.sl.H1_28 c arg1 harg1 arg2 arg3 x0) (kernelRun0_A.sl.HS0_55 c arg1 harg1 arg2 arg3 x0) (colRow x0)
      inb_S33x32768_S28x32768_1_0 inb_S33x32768_S1x32768_29_0 broadcasts_S1x32768_S28x32768
      shapeCasts_S1x32768_S1x32768 shapeCasts_S28x32768_S28x32768 hO hA j q
  · unfold kernelRun0_A.sl.HS0_57
    exact stepAR (M := 33) (N := 32768) 27 28 29 rfl rfl (by omega) arg2.view arg3.view (kernelRun0_A.sl.H1_28 c arg1 harg1 arg2 arg3 x0) (kernelRun0_A.sl.HS0_55 c arg1 harg1 arg2 arg3 x0) (colRow x0)
      inb_S33x32768_S28x32768_1_0 inb_S33x32768_S1x32768_29_0 inb_S33x32768_S1x32768_1_0 inb_S33x32768_S28x32768_2_0
      broadcasts_S1x32768_S28x32768 shapeCasts_S1x32768_S1x32768 shapeCasts_S1x32768_S1x32768 shapeCasts_S1x32768_S1x32768
      shapeCasts_S28x32768_S28x32768 shapeCasts_S28x32768_S28x32768 hO hA j q h1 h2

/-- After order 30. -/
theorem inv29 : (∀ (j : Fin 33) (q : Fin 32768), View.canon (kernelRun0_A.sl.H1_30 c arg1 harg1 arg2 arg3 x0) (ix2 j q) = iter (colRow x0 q) 29 j.val)
    ∧ (∀ (j : Fin 33) (q : Fin 32768), 1 ≤ j.val → j.val < 29 + 2 →
        View.canon (kernelRun0_A.sl.HS0_59 c arg1 harg1 arg2 arg3 x0) (ix2 j q) = iter (colRow x0 q) 29 (29 + 2 - j.val)) := by
  have hO := (inv28 c arg1 harg1 arg2 arg3 x0).1
  have hA := (inv28 c arg1 harg1 arg2 arg3 x0).2
  refine ⟨fun j q => ?_, fun j q h1 h2 => ?_⟩
  · unfold kernelRun0_A.sl.H1_30
    exact stepO (M := 33) (N := 32768) 28 29 30 rfl rfl (by omega) arg2.view arg3.view (kernelRun0_A.sl.H1_29 c arg1 harg1 arg2 arg3 x0) (kernelRun0_A.sl.HS0_57 c arg1 harg1 arg2 arg3 x0) (colRow x0)
      inb_S33x32768_S29x32768_1_0 inb_S33x32768_S1x32768_30_0 broadcasts_S1x32768_S29x32768
      shapeCasts_S1x32768_S1x32768 shapeCasts_S29x32768_S29x32768 hO hA j q
  · unfold kernelRun0_A.sl.HS0_59
    exact stepAR (M := 33) (N := 32768) 28 29 30 rfl rfl (by omega) arg2.view arg3.view (kernelRun0_A.sl.H1_29 c arg1 harg1 arg2 arg3 x0) (kernelRun0_A.sl.HS0_57 c arg1 harg1 arg2 arg3 x0) (colRow x0)
      inb_S33x32768_S29x32768_1_0 inb_S33x32768_S1x32768_30_0 inb_S33x32768_S1x32768_1_0 inb_S33x32768_S29x32768_2_0
      broadcasts_S1x32768_S29x32768 shapeCasts_S1x32768_S1x32768 shapeCasts_S1x32768_S1x32768 shapeCasts_S1x32768_S1x32768
      shapeCasts_S29x32768_S29x32768 shapeCasts_S29x32768_S29x32768 hO hA j q h1 h2

/-- After order 31. -/
theorem inv30 : (∀ (j : Fin 33) (q : Fin 32768), View.canon (kernelRun0_A.sl.H1_31 c arg1 harg1 arg2 arg3 x0) (ix2 j q) = iter (colRow x0 q) 30 j.val)
    ∧ (∀ (j : Fin 33) (q : Fin 32768), 1 ≤ j.val → j.val < 30 + 2 →
        View.canon (kernelRun0_A.sl.HS0_61 c arg1 harg1 arg2 arg3 x0) (ix2 j q) = iter (colRow x0 q) 30 (30 + 2 - j.val)) := by
  have hO := (inv29 c arg1 harg1 arg2 arg3 x0).1
  have hA := (inv29 c arg1 harg1 arg2 arg3 x0).2
  refine ⟨fun j q => ?_, fun j q h1 h2 => ?_⟩
  · unfold kernelRun0_A.sl.H1_31
    exact stepO (M := 33) (N := 32768) 29 30 31 rfl rfl (by omega) arg2.view arg3.view (kernelRun0_A.sl.H1_30 c arg1 harg1 arg2 arg3 x0) (kernelRun0_A.sl.HS0_59 c arg1 harg1 arg2 arg3 x0) (colRow x0)
      inb_S33x32768_S30x32768_1_0 inb_S33x32768_S1x32768_31_0 broadcasts_S1x32768_S30x32768
      shapeCasts_S1x32768_S1x32768 shapeCasts_S30x32768_S30x32768 hO hA j q
  · unfold kernelRun0_A.sl.HS0_61
    exact stepAR (M := 33) (N := 32768) 29 30 31 rfl rfl (by omega) arg2.view arg3.view (kernelRun0_A.sl.H1_30 c arg1 harg1 arg2 arg3 x0) (kernelRun0_A.sl.HS0_59 c arg1 harg1 arg2 arg3 x0) (colRow x0)
      inb_S33x32768_S30x32768_1_0 inb_S33x32768_S1x32768_31_0 inb_S33x32768_S1x32768_1_0 inb_S33x32768_S30x32768_2_0
      broadcasts_S1x32768_S30x32768 shapeCasts_S1x32768_S1x32768 shapeCasts_S1x32768_S1x32768 shapeCasts_S1x32768_S1x32768
      shapeCasts_S30x32768_S30x32768 shapeCasts_S30x32768_S30x32768 hO hA j q h1 h2

/-- After order 32, the last: what the body leaves in the output's buffer is every column after all 31 orders. -/
theorem out_eq : out0_A_1 c i arg1 harg1 arg2 harg2 arg3 harg3 x0
    = fun y : S33x32768.Idx => iter (colRow x0 (y 1)) 31 (y 0).val := by
  have hO := (inv30 c arg1 harg1 arg2 arg3 x0).1
  have hA := (inv30 c arg1 harg1 arg2 arg3 x0).2
  unfold out0_A_1
  rw [View.read_writes_junk_eq_canon]
  funext y
  obtain ⟨j, q, rfl⟩ : ∃ (j : Fin 33) (q : Fin 32768), y = ix2 j q := ⟨y 0, y 1, eq_ix2 y⟩
  unfold kernelRun0_A
  dsimp only
  exact stepO (M := 33) (N := 32768) 30 31 32 rfl rfl (by omega) arg2.view arg3.view (kernelRun0_A.sl.H1_31 c arg1 harg1 arg2 arg3 x0) (kernelRun0_A.sl.HS0_61 c arg1 harg1 arg2 arg3 x0) (colRow x0)
      inb_S33x32768_S31x32768_1_0 inb_S33x32768_S1x32768_32_0 broadcasts_S1x32768_S31x32768
      shapeCasts_S1x32768_S1x32768 shapeCasts_S31x32768_S31x32768 hO hA j q

end body

end Cert.KernelIdeal.Body

end
-- ==== Proof.KerValue.lean ====
/-
  From the blocks to the whole array.  The kernel call works on the [33, 1048576] array (the 33 entries of a row down a
  column) in 32 blocks of 32768 columns; block t holds columns 32768·t … 32768·t + 32767, all 33 rows.  The body turns
  every column of its block into that column after all 31 orders, the blocks tile the array, so the array the call
  leaves is every column of the array it found, put through all 31 orders.
-/
import proofs.«100385_j55009941127436_2_alg».proof.Proof.KerBody
import Idealize.ShloMosaic.Lib.Pipeline.Value

set_option maxRecDepth 16384

noncomputable section

namespace Cert.KernelIdeal.KValue

open Idealize.ShloMosaic Idealize.ShloMosaic.ValueIdx Idealize.ShloMosaic.TcCoe Idealize.SL.Sem
open Cert.KernelIdeal Cert.KernelIdeal.Gen Cert.Lpc Cert.KernelIdeal.Body

variable (m : (ℓ : Loc nD τ sig) → Buf (Elt Ideal) ℓ) (ρ : Dev nD → PrngReg)

/-- Every column of a [33, 1048576] array put through all 31 orders. -/
def KG (X : S33x1048576.Idx → EReal) : S33x1048576.Idx → EReal :=
  fun i => iter (fun j => if h : j < 33 then X (ix2 ⟨j, h⟩ (i 1)) else 0) 31 (i 0).val

/-- Both windows take block (0, t) at point t. -/
theorem idx_facts : ∀ t : Fin cfg0.N, win0_0.index t (0 : Fin 2) = 0 ∧ win0_0.index t (1 : Fin 2) = t.val
    ∧ win0_1.index t (0 : Fin 2) = 0 ∧ win0_1.index t (1 : Fin 2) = t.val :=
  (by decide +kernel : ∀ t : Fin grid0.N, _)

/-- What point t writes back is block t of `KG` of the array the call found. -/
theorem flushed_eq (c : Dev nD) (t : Fin cfg0.N) :
    (dats m 0 c).flushed 1 t = ((cfg0.win 1).blk t).view.read (Elt Ideal) (KG (V m c main_v1)) := by
  show (cfg0.win 1).cut (grid0.coords t) ((dats m 0 c).after 1 t) = _
  rw [after0_1]
  unfold outsAt0
  rw [out_eq]
  obtain ⟨e0, e1, e2, e3⟩ := idx_facts t
  funext y
  show iter (colRow (iblk m c 0 t) (y 1)) 31 (y 0).val
    = iter (fun j => if h : j < 33 then (V m c main_v1 : S33x1048576.Idx → EReal) (ix2 ⟨j, h⟩ ((((cfg0.win 1).blk t).view.emb y) 1)) else (0 : EReal)) 31
        ((((cfg0.win 1).blk t).view.emb y) 0).val
  have hrow : colRow (iblk m c 0 t) (y 1)
      = fun j => if h : j < 33 then (V m c main_v1 : S33x1048576.Idx → EReal) (ix2 ⟨j, h⟩ ((((cfg0.win 1).blk t).view.emb y) 1)) else (0 : EReal) := by
    funext j
    unfold colRow
    by_cases h : j < 33
    · rw [dif_pos h, dif_pos h]
      show (V m c main_v1 : S33x1048576.Idx → EReal) (((cfg0.win 0).blk t).view.emb (ix2 ⟨j, h⟩ (y 1))) = _
      refine congrArg (V m c main_v1 : S33x1048576.Idx → EReal) ?_
      funext a; apply Fin.ext
      match a with
      | ⟨0, _⟩ => show win0_0.index t (0 : Fin 2) * 33 + 1 * j = j; rw [e0]; omega
      | ⟨1, _⟩ =>
        show win0_0.index t (1 : Fin 2) * 32768 + 1 * (y 1).val = win0_1.index t (1 : Fin 2) * 32768 + 1 * (y 1).val
        rw [e1, e3]
    · rw [dif_neg h, dif_neg h]
  have hj : (y 0).val = ((((cfg0.win 1).blk t).view.emb y) 0).val := by
    show (y 0).val = win0_1.index t (0 : Fin 2) * 33 + 1 * (y 0).val
    rw [e2]; omega
  rw [hrow, hj]

/-- An index of the array is in point t's block iff each coordinate is in the block's range on its axis. -/
theorem mem_blk (t : Fin cfg0.N) (i : S33x1048576.Idx) :
    i ∈ ((cfg0.win 1).blk t).view.set ↔ ∀ a : Fin 2, win0_1.index t a * S33x32768.size a ≤ (i a).val
      ∧ (i a).val < win0_1.index t a * S33x32768.size a + S33x32768.size a := by
  show i ∈ ((View.whole main_v2).slice (win0_1.rect t)).set ↔ _
  rw [View.set_slice_whole, Rect.mem_set_unit]
  exact Iff.rfl

/-- Column q lies in block q / 32768: the blocks tile the array. -/
theorem cover (i : S33x1048576.Idx) :
    ∃ t : Fin cfg0.N, (cfg0.win 1).flush t = true ∧ i ∈ ((cfg0.win 1).blk t).view.set := by
  have hi1 : (i 1).val < 1048576 := (i 1).isLt
  have hi0 : (i 0).val < 33 := (i 0).isLt
  have hN : grid0.N = 32 := N_0
  have ht : (i 1).val / 32768 < cfg0.N := by show _ < grid0.N; rw [hN]; omega
  obtain ⟨e0, e1, e2, e3⟩ := idx_facts ⟨(i 1).val / 32768, ht⟩
  refine ⟨⟨(i 1).val / 32768, ht⟩, flush0_1 _, ?_⟩
  rw [mem_blk]
  intro a
  match a with
  | ⟨0, _⟩ =>
    show win0_1.index ⟨(i 1).val / 32768, ht⟩ (0 : Fin 2) * 33 ≤ (i 0).val
      ∧ (i 0).val < win0_1.index ⟨(i 1).val / 32768, ht⟩ (0 : Fin 2) * 33 + 33
    rw [e2]; omega
  | ⟨1, _⟩ =>
    show win0_1.index ⟨(i 1).val / 32768, ht⟩ (1 : Fin 2) * 32768 ≤ (i 1).val
      ∧ (i 1).val < win0_1.index ⟨(i 1).val / 32768, ht⟩ (1 : Fin 2) * 32768 + 32768
    rw [e3]
    show (i 1).val / 32768 * 32768 ≤ (i 1).val ∧ (i 1).val < (i 1).val / 32768 * 32768 + 32768
    omega

/-- The array the call leaves. -/
theorem final (c : Dev nD) : (dats m 0 c).arrAt 1 cfg0.N = KG (V m c main_v1) :=
  (dats m 0 c).arrAt_eq_of_cover 1 (KG (V m c main_v1)) (fun t _ => flushed_eq m c t) cover

end Cert.KernelIdeal.KValue

end
-- ==== Proof.KerLayout.lean ====
/-
  The two changes of layout around the kernel call, read at an index.  Going in, the [16, 65536, 33] array has its
  last axis moved to the front and its first two axes merged: entry (j, b · 65536 + n) of the [33, 1048576] array is
  entry (b, n, j) of the argument.  Coming out, the same in reverse.
-/
import Idealize.ShloMosaic.Lib.ValueIdx
import Idealize.ShloMosaic.Lib.Pipeline.Value

noncomputable section

namespace Cert.Lpc.Layout

open Idealize.ShloMosaic Idealize.ShloMosaic.ValueIdx

/-- Axes permuted to [33, 16, 65536], then the last two merged: entry (j, col) with col = b · 65536 + n is the
    argument's entry (b, n, j). -/
theorem pre_apply {α : Type} (X : (⟨3, ![16, 65536, 33]⟩ : Shape).Idx → α)
    (ht : (⟨3, ![16, 65536, 33]⟩ : Shape).Transposes [2, 0, 1] ⟨3, ![33, 16, 65536]⟩)
    (hc : (⟨3, ![33, 16, 65536]⟩ : Shape).ShapeCasts ⟨2, ![33, 1048576]⟩)
    (j : Fin 33) (b : Fin 16) (n : Fin 65536) (col : Fin 1048576) (hcol : col.val = b.val * 65536 + n.val) :
    shapeCast ⟨2, ![33, 1048576]⟩ (transpose ⟨3, ![33, 16, 65536]⟩ [2, 0, 1] X ht) hc (ix2 j col) = X (ix3 b n j) := by
  rw [shapeCast_apply _ hc (ix2 j col) (ix3 j b n) (by
    rw [Shape.rowMajor_val_three, Shape.rowMajor_val_two]
    show (j.val * 16 + b.val) * 65536 + n.val = j.val * 1048576 + col.val
    omega)]
  exact transpose_apply _ X ht _ _ fun c => match c with | ⟨0, _⟩ => rfl | ⟨1, _⟩ => rfl | ⟨2, _⟩ => rfl

/-- The second axis split back into [16, 65536], then the first axis moved to the back: entry (b, n, j) is the
    [33, 1048576] array's entry (j, col) with col = b · 65536 + n. -/
theorem post_apply {α : Type} (Y : (⟨2, ![33, 1048576]⟩ : Shape).Idx → α)
    (hc : (⟨2, ![33, 1048576]⟩ : Shape).ShapeCasts ⟨3, ![33, 16, 65536]⟩)
    (ht : (⟨3, ![33, 16, 65536]⟩ : Shape).Transposes [1, 2, 0] ⟨3, ![16, 65536, 33]⟩)
    (b : Fin 16) (n : Fin 65536) (j : Fin 33) (col : Fin 1048576) (hcol : col.val = b.val * 65536 + n.val) :
    transpose ⟨3, ![16, 65536, 33]⟩ [1, 2, 0] (shapeCast ⟨3, ![33, 16, 65536]⟩ Y hc) ht (ix3 b n j) = Y (ix2 j col) := by
  rw [transpose_apply _ (shapeCast ⟨3, ![33, 16, 65536]⟩ Y hc) ht (ix3 b n j) (ix3 j b n)
    (fun c => match c with | ⟨0, _⟩ => rfl | ⟨1, _⟩ => rfl | ⟨2, _⟩ => rfl)]
  exact shapeCast_apply Y hc _ _ (by
    rw [Shape.rowMajor_val_two, Shape.rowMajor_val_three]
    show j.val * 1048576 + col.val = (j.val * 16 + b.val) * 65536 + n.val
    omega)

end Cert.Lpc.Layout

end
-- ==== Proof.KerRun.lean ====
/-
  The whole kernel program.  Before the call the [16, 65536, 33] argument is laid out as [33, 1048576]: entry (j, 65536·b + n)
  is the argument's (b, n, j), so column 65536·b + n is row (b, n).  After the call the same re-layout is undone.  The
  call puts every column through all 31 orders; so the program's result is every row of the argument put through all
  31 orders.
-/
import proofs.«100385_j55009941127436_2_alg».proof.Proof.KerValue
import proofs.«100385_j55009941127436_2_alg».proof.Proof.KerLayout
import Idealize.ShloMosaic.Lib.StableHlo.Run

set_option maxRecDepth 16384

noncomputable section

namespace Cert.KernelIdeal.KValue

open Idealize.ShloMosaic Idealize.ShloMosaic.ValueIdx Idealize.ShloMosaic.TcCoe Idealize.SL.Sem
open Idealize.ShloMosaic.StableHlo
open Cert.KernelIdeal Cert.KernelIdeal.Gen Cert.Lpc Cert.KernelIdeal.Body

variable (m : (ℓ : Loc nD τ sig) → Buf (Elt Ideal) ℓ) (ρ : Dev nD → PrngReg)

/-- The array the call finds: the argument, transposed and with its two leading axes merged. -/
theorem V_main_v1 (c : Dev nD) : (V m c main_v1 : S33x1048576.Idx → EReal)
    = shapeCast S33x1048576 (transpose S33x16x65536 [2, 0, 1] (m ((c : Thread nD τ).loc main_arg0))
        transposes_S16x65536x33_S33x16x65536_2_0_1) shapeCasts_S33x16x65536_S33x1048576 := by
  show StableHlo.after hostOps0 (fun b => m (c, b)) (Proc.devRef .tc main_v1) = _
  after_results
  rfl

/-- The program's result from the array the call leaves: the axes split again and transposed back. -/
theorem tail_eq (c : Dev nD) :
    (Pipeline.afterTail₀ cfgs (dats m) 0 (V0 m) [hostOps1] c main_v4 : S16x65536x33.Idx → EReal)
      = transpose S16x65536x33 [1, 2, 0] (shapeCast S33x16x65536 (KG (V m c main_v1)) shapeCasts_S33x1048576_S33x16x65536)
          transposes_S33x16x65536_S16x65536x33_1_2_0 := by
  have hw : Pipeline.withArrays (cfgs 0).spec c (V0 m c) (fun w => (dats m 0 c).arrAt w (cfgs 0).N) (Proc.devRef .tc main_v2)
      = KG (V m c main_v1) :=
    (Pipeline.withArrays_arr spec0 launch0.win.arr_inj c (V0 m c) (fun w => (dats m 0 c).arrAt w cfg0.N) 1).trans (final m c)
  unfold Pipeline.afterTail₀
  show StableHlo.after hostOps1 _ (Proc.devRef .tc main_v4) = _
  after_results
  rw [hw]
  rfl

/-- Index by index, the program's result is the recursion on every row of the argument. -/
theorem result_eq (c : Dev nD) :
    (Pipeline.afterTail₀ cfgs (dats m) 0 (V0 m) [hostOps1] c main_v4 : S16x65536x33.Idx → EReal)
      = Cert.Lpc.G (m ((c : Thread nD τ).loc main_arg0)) := by
  rw [tail_eq]
  funext i
  obtain ⟨b, n, j, rfl⟩ : ∃ (b : Fin 16) (n : Fin 65536) (j : Fin 33), i = ix3 b n j := ⟨i 0, i 1, i 2, eq_ix3 i⟩
  have hb := b.isLt
  have hn := n.isLt
  rw [Cert.Lpc.Layout.post_apply _ _ _ b n j ⟨b.val * 65536 + n.val, by omega⟩ rfl]
  show iter (fun j' => if h : j' < 33 then (V m c main_v1 : S33x1048576.Idx → EReal) (ix2 ⟨j', h⟩ ⟨b.val * 65536 + n.val, by omega⟩) else (0 : EReal)) 31 j.val
    = iter (rowOf (m ((c : Thread nD τ).loc main_arg0)) b n) 31 j.val
  refine congrArg (fun r => iter r 31 j.val) (funext fun j' => ?_)
  unfold rowOf
  by_cases h : j' < 33
  · rw [dif_pos h, dif_pos h, V_main_v1, Cert.Lpc.Layout.pre_apply _ _ _ ⟨j', h⟩ b n ⟨b.val * 65536 + n.val, by omega⟩ rfl]
  · rw [dif_neg h, dif_neg h]

/-- The kernel program's run, read: the result at the recursion on every row, the argument unchanged. -/
theorem run : θ_run defs (onTc (τ := τ) (main (F := Ideal))) ⟨m, fun _ => 0, ρ⟩ fun r => ∀ c : Dev nD,
      r.2.mem ((c.tc : Thread nD τ).loc main_v4) = Cert.Lpc.G (m ((c.tc : Thread nD τ).loc main_arg0))
      ∧ r.2.mem ((c.tc : Thread nD τ).loc main_arg0) = m ((c.tc : Thread nD τ).loc main_arg0) :=
  (θ_run defs _ _).mono (fun _ h c =>
      ⟨((h c).2 main_v4 (Pipeline.mem_restRefs_of main_v4 (by decide) (by decide))).trans (result_eq m c),
       ((h c).2 main_arg0 (Pipeline.mem_restRefs_of main_arg0 (by decide) (by decide))).trans (W_main_arg0 m (dats m) c)⟩)
    (run_main m ρ)

end Cert.KernelIdeal.KValue

end
-- ==== Proof.lean ====
/-
  The kernel program and its reference compute the PARCOR-to-LPC recursion on every row of a [16, 65536, 33] array:
  a row holds 33 extended reals, and the orders m = 2, …, 32 in turn replace every entry j with 1 ≤ j < m by
      r j + κ · r (m - j),        κ the input row's entry m
  (the window r 1 … r (m-1) plus κ times the same window reversed).  Both programs first divide the row by 1.0, which
  changes nothing on the extended reals.

  The reference does this order by order on the whole array (a slice, a reversal, a product, a sum, and the window
  written back); each order is one step of the recursion on every row.  The kernel works on the transposed layout
  [33, 65536·16] in 32 blocks of columns, and never reverses anything: beside the running rows it keeps a second
  buffer holding the current window mirrored, and updates both with the same two sums a + κ·a' and a' + κ·a, which
  are mirror images of one another.  By induction over the orders the running rows hold each column after the orders
  so far and the mirror holds the reversed window of the next order; after order 32 the running rows are the result.
  The two re-layouts around the call are undone index by index, and the two results are the same function of the
  argument.  No law beyond the definitions is used, so finiteness of the input plays no part.
-/
import proofs.«100385_j55009941127436_2_alg».proof.Defs
import proofs.«100385_j55009941127436_2_alg».proof.Proof.Gen.Kernel
import proofs.«100385_j55009941127436_2_alg».proof.Proof.Gen.Kernel.Skeleton
import proofs.«100385_j55009941127436_2_alg».proof.Proof.Gen.Kernel.Launch
import proofs.«100385_j55009941127436_2_alg».proof.Proof.Gen.Kernel.Points
import proofs.«100385_j55009941127436_2_alg».proof.Proof.Gen.Kernel.Frame
import proofs.«100385_j55009941127436_2_alg».proof.Proof.Gen.KernelIdeal
import proofs.«100385_j55009941127436_2_alg».proof.Proof.Gen.KernelIdeal.Skeleton
import proofs.«100385_j55009941127436_2_alg».proof.Proof.Gen.KernelIdeal.Launch
import proofs.«100385_j55009941127436_2_alg».proof.Proof.Gen.KernelIdeal.Points
import proofs.«100385_j55009941127436_2_alg».proof.Proof.Gen.KernelIdeal.Frame
import proofs.«100385_j55009941127436_2_alg».proof.Proof.Gen.ReferenceIdeal
import proofs.«100385_j55009941127436_2_alg».proof.Proof.Gen.Pre_finite_inputs
import proofs.«100385_j55009941127436_2_alg».proof.Proof.RefLpc
import proofs.«100385_j55009941127436_2_alg».proof.Proof.KerRun
import Idealize.ShloMosaic.Adequacy
import Idealize.ShloMosaic.Init

noncomputable section

namespace Cert.Proof

open Idealize.ShloMosaic Idealize.SL.Sem

/-- The kernel program as printed runs, its argument unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- And the reference. -/
theorem frame_ri : Cert.frame_ReferenceIdeal := Cert.ReferenceIdeal.RefLpc.frame

/-- The idealization rewrote nothing. -/
theorem preserves : Cert.preserves_Kernel_KernelIdeal := trivial

/-- Both idealized programs end with the recursion applied to every row of the argument. -/
theorem algebraic : Cert.algebraic_KernelIdeal_ReferenceIdeal := by
  intro m ρ m' ρ' _ hagree
  refine ⟨fun c => Cert.Lpc.G (m ((c.tc : Thread Cert.KernelIdeal.nD Cert.KernelIdeal.τ).loc Cert.KernelIdeal.main_arg0)),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefLpc.result_eq]
  exact congrArg Cert.Lpc.G (hagree c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
